-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S64 : Shape := ⟨1, ![64]⟩
abbrev S128x128 : Shape := ⟨2, ![128, 128]⟩
abbrev S128 : Shape := ⟨1, ![128]⟩
abbrev S704x704 : Shape := ⟨2, ![704, 704]⟩
abbrev S704 : Shape := ⟨1, ![704]⟩
abbrev S704x128 : Shape := ⟨2, ![704, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x64 : S_.BroadcastsInDim S800000x64 (![] : Fin 0 → Fin S800000x64.rank)
  reducesTo_S800000x64_S_d0_1 : S800000x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S704x704 : S_.BroadcastsInDim S704x704 (![] : Fin 0 → Fin S704x704.rank)
  reducesTo_S704x704_S_d0_1 : S704x704.ReducesTo [0, 1] S_
  bcast_S_S704 : S_.BroadcastsInDim S704 (![] : Fin 0 → Fin S704.rank)
  reducesTo_S704_S_d0 : S704.ReducesTo [0] S_
  bcast_S_S704x128 : S_.BroadcastsInDim S704x128 (![] : Fin 0 → Fin S704x128.rank)
  reducesTo_S704x128_S_d0_1 : S704x128.ReducesTo [0, 1] S_

variable [Facts]

def fn_part3 {F : FTy → Type} [FloatOps F] (main_arg12 : FVec F S128 .f32) (main_arg13 : FVec F S128 .f32) (main_v48 : IVec S_ 1) (main_v49 : FVec F S704x128 .f32) (main_v50 : FVec F S704x128 .f32) : IVec S_ 1 :=
  let main_v51 : IVec S704x128 1 := cmpf .olt main_v49 main_v50
  let main_c_19 : IVec S_ 1 := constantI S_ 1 1#1
  let main_v52 : IVec S_ 1 := (fun x v => Host.reduce IntOp.andi x v reducesTo_S704x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S704x704 .f32) (main_arg10 : FVec F S704 .f32) (main_arg11 : FVec F S704x128 .f32) (main_arg12 : FVec F S128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S704x704 .f32 := Host.absf main_arg9
  let main_cst_14 : FVec F S_ .f32 := constant S_ .f32 0x7F800000#32
  let main_v40 : FVec F S704x704 .f32 := broadcastInDim S704x704 ![] bcast_S_S704x704 main_cst_14
  let main_v41 : IVec S704x704 1 := cmpf .olt main_v39 main_v40
  let main_c_15 : IVec S_ 1 := constantI S_ 1 1#1
  let main_v42 : IVec S_ 1 := (fun x v => Host.reduce IntOp.andi x v reducesTo_S704x704_S_d0_1 h_S_) main_v41 main_c_15
  let main_v43 : IVec S_ 1 := andi main_v38 main_v42
  let main_v44 : FVec F S704 .f32 := Host.absf main_arg10
  let main_cst_16 : FVec F S_ .f32 := constant S_ .f32 0x7F800000#32
  let main_v45 : FVec F S704 .f32 := broadcastInDim S704 ![] bcast_S_S704 main_cst_16
  let main_v46 : IVec S704 1 := cmpf .olt main_v44 main_v45
  let main_c_17 : IVec S_ 1 := constantI S_ 1 1#1
  let main_v47 : IVec S_ 1 := (fun x v => Host.reduce IntOp.andi x v reducesTo_S704_S_d0 h_S_) main_v46 main_c_17
  let main_v48 : IVec S_ 1 := andi main_v43 main_v47
  let main_v49 : FVec F S704x128 .f32 := Host.absf main_arg11
  let main_cst_18 : FVec F S_ .f32 := constant S_ .f32 0x7F800000#32
  let main_v50 : FVec F S704x128 .f32 := broadcastInDim S704x128 ![] bcast_S_S704x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S704x704 .f32) (main_arg10 : FVec F S704 .f32) (main_arg11 : FVec F S704x128 .f32) (main_arg12 : FVec F S128 .f32) (main_arg13 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x64 .f32) (main_arg2 : IVec S2x800000 32) (main_arg3 : FVec F S800000x64 .f32) (main_arg4 : FVec F S64 .f32) (main_arg5 : FVec F S128x128 .f32) (main_arg6 : FVec F S128 .f32) (main_arg7 : FVec F S128x128 .f32) (main_arg8 : FVec F S128 .f32) (main_arg9 : FVec F S704x704 .f32) (main_arg10 : FVec F S704 .f32) (main_arg11 : FVec F S704x128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x64 .f32 := Host.absf main_arg3
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S64 : Shape := ⟨1, ![64]⟩
abbrev S128x128 : Shape := ⟨2, ![128, 128]⟩
abbrev S128 : Shape := ⟨1, ![128]⟩
abbrev S704x704 : Shape := ⟨2, ![704, 704]⟩
abbrev S704 : Shape := ⟨1, ![704]⟩
abbrev S704x128 : Shape := ⟨2, ![704, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S3200x64 : Shape := ⟨2, ![3200, 64]⟩
abbrev S3200x128 : Shape := ⟨2, ![3200, 128]⟩
abbrev S1x128 : Shape := ⟨2, ![1, 128]⟩
abbrev S50000x1 : Shape := ⟨2, ![50000, 1]⟩
abbrev S1000x128 : Shape := ⟨2, ![1000, 128]⟩
abbrev S1x64 : Shape := ⟨2, ![1, 64]⟩
abbrev S1000x64 : Shape := ⟨2, ![1000, 64]⟩
abbrev S1000x704 : Shape := ⟨2, ![1000, 704]⟩
abbrev S1x704 : Shape := ⟨2, ![1, 704]⟩
abbrev S1000 : Shape := ⟨1, ![1000]⟩
abbrev S1000x1 : Shape := ⟨2, ![1000, 1]⟩

abbrev nBuf : Space → Nat
  | .hbm => 126
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x800000, .i32⟩
  | .hbm, ⟨3, _⟩ => ⟨S800000x64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S704x704, .f32⟩
  | .hbm, ⟨10, _⟩ => ⟨S704, .f32⟩
  | .hbm, ⟨11, _⟩ => ⟨S704x128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x128, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .i1⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S_, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x1, .f32⟩
  | .hbm, ⟨58, _⟩ => ⟨S50000x1, .i1⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S_, .f32⟩
  | .hbm, ⟨63, _⟩ => ⟨S50000x128, .i1⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S800000x128, .f32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S_, .f32⟩
  | .hbm, ⟨100, _⟩ => ⟨S50000x1, .f32⟩
  | .hbm, ⟨101, _⟩ => ⟨S50000x1, .i1⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S_, .f32⟩
  | .hbm, ⟨106, _⟩ => ⟨S50000x128, .i1⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x1, .f32⟩
  | .hbm, ⟨111, _⟩ => ⟨S50000x1, .i1⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S_, .f32⟩
  | .hbm, ⟨116, _⟩ => ⟨S50000x128, .i1⟩
  | .hbm, ⟨117, _⟩ => ⟨S50000x128, .f32⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | .hbm, ⟨125, _⟩ => ⟨S50000x128, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S3200x128, .f32⟩
  | .local _ .vmem, ⟨9, _⟩ => ⟨S3200x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S3200x128, .f32⟩
  | .local _ .vmem, ⟨17, _⟩ => ⟨S3200x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S64, .f32⟩
  | .local _ .vmem, ⟨29, _⟩ => ⟨S704x704, .f32⟩
  | .local _ .vmem, ⟨30, _⟩ => ⟨S704, .f32⟩
  | .local _ .vmem, ⟨31, _⟩ => ⟨S704x128, .f32⟩
  | .local _ .vmem, ⟨32, _⟩ => ⟨S128, .f32⟩
  | .local _ .vmem, ⟨33, _⟩ => ⟨S128, .f32⟩
  | .local _ .vmem, ⟨34, _⟩ => ⟨S1000x128, .f32⟩
  | .local _ .vmem, ⟨35, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_9 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v37 : Ref sig .tc := ⟨.hbm, 75, rfl⟩
abbrev main_cst_10 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_11 : Ref sig .tc := ⟨.hbm, 80, rfl⟩
abbrev main_v41 : Ref sig .tc := ⟨.hbm, 81, rfl⟩
abbrev main_v42 : Ref sig .tc := ⟨.hbm, 82, rfl⟩
abbrev main_c_12 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48_0 : Ref sig .tc := ⟨.hbm, 89, rfl⟩
abbrev main_v48_1 : Ref sig .tc := ⟨.hbm, 90, rfl⟩
abbrev main_cst_13 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_14 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_15 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v59 : Ref sig .tc := ⟨.hbm, 108, rfl⟩
abbrev main_cst_17 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_18 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem11_1 : DmaSem sig := 35

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S704x704 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S704 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S704x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  concatenates_S3200x64_S3200x64_S3200x128_d1 : Shape.Concatenates [S3200x64, S3200x64] S3200x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  bcast_S_S800000x1 : S_.BroadcastsInDim S800000x1 (![] : Fin 0 → Fin S800000x1.rank)
  bcast_S_S50000x1 : S_.BroadcastsInDim S50000x1 (![] : Fin 0 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S3200x128_S3200x128 : S3200x128.ShapeCasts S3200x128
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x128_S1000x128_S1000x128_S1000x64_S1000x704_d1 : Shape.Concatenates [S1000x128, S1000x128, S1000x128, S1000x128, S1000x128, S1000x64] S1000x704 1
  inb_S704x704_S704x704_0_0 : ∀ a, (![0, 0] : Fin 2 → Nat) a + S704x704.size a ≤ S704x704.size a
  h_S704x704 : 0 < S704x704.numel
  inb_S704_S704_0 : ∀ a, (![0] : Fin 1 → Nat) a + S704.size a ≤ S704.size a
  h_S704 : 0 < S704.numel
  shapeCasts_S704_S1x704 : S704.ShapeCasts S1x704
  broadcasts_S1x704_S1000x704 : S1x704.Broadcasts S1000x704
  inb_S704x128_S704x128_0_0 : ∀ a, (![0, 0] : Fin 2 → Nat) a + S704x128.size a ≤ S704x128.size a
  h_S704x128 : 0 < S704x128.numel
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  gather_S50000x64_S800000x1_S800000x64_1_0_n_n_0_1_164_wf : GatherDims.WF S50000x64 S800000x1 S800000x64 [1] [0] [] [0] [] 1 ![1, 64]
  dot_S3200x128_S128x128_S3200x128_1_0_0_1_n_n_wf : DotDims.WF S3200x128 S128x128 S3200x128 [1] [0] [0] [1] [] []
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S1000x704_S704x704_S1000x704_1_0_0_1_n_n_wf : DotDims.WF S1000x704 S704x704 S1000x704 [1] [0] [0] [1] [] []
  dot_S1000x704_S704x128_S1000x128_1_0_0_1_n_n_wf : DotDims.WF S1000x704 S704x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x128.size a ≤ S800000x128.size a
  hwx0_6 : ∀ i : grid0.Coords, EltTy.bits .f32 = 32 ∨ (Rect.block (s := S800000x128) S3200x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .f32 = 32 ∨ (Rect.block (s := S800000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S800000x128.size a
  hwx1_2 : ∀ i : grid1.Coords, EltTy.bits .f32 = 32 ∨ (Rect.block (s := S800000x128) S3200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S800000x128.size a
  hwx1_3 : ∀ i : grid1.Coords, EltTy.bits .f32 = 32 ∨ (Rect.block (s := S800000x128) S3200x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S50000x128.size a
  hwx2_3 : ∀ i : grid2.Coords, EltTy.bits .f32 = 32 ∨ (Rect.block (s := S50000x128) S1000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S704x704.size a ≤ S704x704.size a
  hwx2_6 : ∀ i : grid2.Coords, EltTy.bits .f32 = 32 ∨ (Rect.block (s := S704x704) S704x704.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S704.size a ≤ S704.size a
  hwx2_7 : ∀ i : grid2.Coords, EltTy.bits .f32 = 32 ∨ (Rect.block (s := S704) S704.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S704x128.size a ≤ S704x128.size a
  hwx2_8 : ∀ i : grid2.Coords, EltTy.bits .f32 = 32 ∨ (Rect.block (s := S704x128) S704x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x128.size a ≤ S50000x128.size a
  hwx2_11 : ∀ i : grid2.Coords, EltTy.bits .f32 = 32 ∨ (Rect.block (s := S50000x128) S1000x128.size (cc2_transform_11 i) (hinb2_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S1000x704_S704x704_S1000x704_1_0_0_1_n_n : DotDims S1000x704 S704x704 S1000x704 where
  lhsContracting := [1]
  rhsContracting := [0]
  lhsNonContracting := [0]
  rhsNonContracting := [1]
  lhsBatch := []
  rhsBatch := []
  wf := dot_S1000x704_S704x704_S1000x704_1_0_0_1_n_n_wf
def dot_S1000x704_S704x128_S1000x128_1_0_0_1_n_n : DotDims S1000x704 S704x128 S1000x128 where
  lhsContracting := [1]
  rhsContracting := [0]
  lhsNonContracting := [0]
  rhsNonContracting := [1]
  lhsBatch := []
  rhsBatch := []
  wf := dot_S1000x704_S704x128_S1000x128_1_0_0_1_n_n_wf

abbrev win0_0 : Pipeline.Window sig grid0 :=
  Pipeline.Window.ofSpec (Memref.whole main_v10) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S3200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S3200x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S3200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S704x704.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S704.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S704x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg13) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v71) S1000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S64 : Shape := ⟨1, ![64]⟩
abbrev S128x128 : Shape := ⟨2, ![128, 128]⟩
abbrev S128 : Shape := ⟨1, ![128]⟩
abbrev S704x704 : Shape := ⟨2, ![704, 704]⟩
abbrev S704 : Shape := ⟨1, ![704]⟩
abbrev S704x128 : Shape := ⟨2, ![704, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S50000x704 : Shape := ⟨2, ![50000, 704]⟩
abbrev S1x704 : Shape := ⟨2, ![1, 704]⟩
abbrev S50000 : Shape := ⟨1, ![50000]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S50000x64, .f32⟩
  | 2 => ⟨S2x800000, .i32⟩
  | 3 => ⟨S800000x64, .f32⟩
  | 4 => ⟨S64, .f32⟩
  | 5 => ⟨S128x128, .f32⟩
  | 6 => ⟨S128, .f32⟩
  | 7 => ⟨S128x128, .f32⟩
  | 8 => ⟨S128, .f32⟩
  | 9 => ⟨S704x704, .f32⟩
  | 10 => ⟨S704, .f32⟩
  | 11 => ⟨S704x128, .f32⟩
  | 12 => ⟨S128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x128, .f32⟩
  | 28 => ⟨S800000x128, .f32⟩
  | 29 => ⟨S1x128, .f32⟩
  | 30 => ⟨S800000x128, .f32⟩
  | 31 => ⟨S800000x128, .f32⟩
  | 32 => ⟨S_, .f32⟩
  | 33 => ⟨S_, .f32⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S800000x128, .f32⟩
  | 40 => ⟨S800000x128, .f32⟩
  | 41 => ⟨S1x128, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .f32⟩
  | 49 => ⟨S800000x1, .f32⟩
  | 50 => ⟨S_, .f32⟩
  | 51 => ⟨S50000x1, .f32⟩
  | 52 => ⟨S800000x1, .i32⟩
  | 53 => ⟨S50000x1, .f32⟩
  | 54 => ⟨S_, .f32⟩
  | 55 => ⟨S50000x1, .f32⟩
  | 56 => ⟨S50000x1, .i1⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S_, .f32⟩
  | 63 => ⟨S_, .f32⟩
  | 64 => ⟨S50000x128, .i1⟩
  | 65 => ⟨S50000x128, .f32⟩
  | 66 => ⟨S50000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S_, .f32⟩
  | 73 => ⟨S800000x1, .f32⟩
  | 74 => ⟨S_, .f32⟩
  | 75 => ⟨S50000x1, .f32⟩
  | 76 => ⟨S800000x1, .i32⟩
  | 77 => ⟨S50000x1, .f32⟩
  | 78 => ⟨S_, .f32⟩
  | 79 => ⟨S50000x1, .f32⟩
  | 80 => ⟨S50000x1, .i1⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S_, .f32⟩
  | 87 => ⟨S_, .f32⟩
  | 88 => ⟨S50000x128, .i1⟩
  | 89 => ⟨S50000x128, .f32⟩
  | 90 => ⟨S50000x128, .f32⟩
  | 91 => ⟨S50000x128, .f32⟩
  | 92 => ⟨S50000x128, .f32⟩
  | 93 => ⟨S_, .f32⟩
  | 94 => ⟨S_, .f32⟩
  | 95 => ⟨S50000x128, .f32⟩
  | 96 => ⟨S50000x128, .i1⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S_, .f32⟩
  | 122 => ⟨S800000x1, .f32⟩
  | 123 => ⟨S_, .f32⟩
  | 124 => ⟨S50000x1, .f32⟩
  | 125 => ⟨S800000x1, .i32⟩
  | 126 => ⟨S50000x1, .f32⟩
  | 127 => ⟨S_, .f32⟩
  | _ => ⟨S50000x128, .f32⟩

abbrev hbmTy0_1 (i : Nat) : BufTy := match i % 128 with
  | 0 => ⟨S50000x1, .f32⟩
  | 1 => ⟨S50000x1, .i1⟩
  | 2 => ⟨S_, .f32⟩
  | 3 => ⟨S50000x1, .f32⟩
  | 4 => ⟨S50000x1, .f32⟩
  | 5 => ⟨S50000x128, .f32⟩
  | 6 => ⟨S50000x128, .f32⟩
  | 7 => ⟨S_, .f32⟩
  | 8 => ⟨S_, .f32⟩
  | 9 => ⟨S50000x128, .i1⟩
  | 10 => ⟨S50000x128, .f32⟩
  | 11 => ⟨S50000x128, .f32⟩
  | 12 => ⟨S50000x128, .f32⟩
  | 13 => ⟨S50000x128, .f32⟩
  | 14 => ⟨S50000x128, .f32⟩
  | 15 => ⟨S800000x128, .f32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S_, .f32⟩
  | 22 => ⟨S800000x1, .f32⟩
  | 23 => ⟨S_, .f32⟩
  | 24 => ⟨S50000x1, .f32⟩
  | 25 => ⟨S800000x1, .i32⟩
  | 26 => ⟨S50000x1, .f32⟩
  | 27 => ⟨S_, .f32⟩
  | 28 => ⟨S50000x1, .f32⟩
  | 29 => ⟨S50000x1, .i1⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S_, .f32⟩
  | 36 => ⟨S_, .f32⟩
  | 37 => ⟨S50000x128, .i1⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S50000x64, .f32⟩
  | 44 => ⟨S50000x704, .f32⟩
  | 45 => ⟨S50000x704, .f32⟩
  | 46 => ⟨S1x704, .f32⟩
  | 47 => ⟨S50000x704, .f32⟩
  | 48 => ⟨S50000x704, .f32⟩
  | 49 => ⟨S_, .f32⟩
  | 50 => ⟨S_, .f32⟩
  | 51 => ⟨S50000x704, .f32⟩
  | 52 => ⟨S50000x704, .i1⟩
  | 53 => ⟨S_, .f32⟩
  | 54 => ⟨S50000x704, .f32⟩
  | 55 => ⟨S50000x704, .f32⟩
  | 56 => ⟨S50000x704, .f32⟩
  | 57 => ⟨S50000x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S50000, .f32⟩
  | 64 => ⟨S50000x1, .f32⟩
  | 65 => ⟨S_, .f32⟩
  | 66 => ⟨S50000x1, .f32⟩
  | 67 => ⟨S50000x1, .f32⟩
  | 68 => ⟨S_, .f32⟩
  | 69 => ⟨S50000x1, .f32⟩
  | 70 => ⟨S50000x1, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_v44 : Ref sig .tc := ⟨.hbm, 80, rfl⟩
abbrev main_cst_11 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_13 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v52 : Ref sig .tc := ⟨.hbm, 100, rfl⟩
abbrev main_cst_14 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_15 : Ref sig .tc := ⟨.hbm, 105, rfl⟩
abbrev main_v56 : Ref sig .tc := ⟨.hbm, 106, rfl⟩
abbrev main_v57 : Ref sig .tc := ⟨.hbm, 107, rfl⟩
abbrev main_c_16 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_17 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_18 : Ref sig .tc := ⟨.hbm, 121, rfl⟩
abbrev main_v69 : Ref sig .tc := ⟨.hbm, 122, rfl⟩
abbrev main_cst_19 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_20 : Ref sig .tc := ⟨.hbm, 127, rfl⟩
abbrev main_v73 : Ref sig .tc := ⟨.hbm, 128, rfl⟩
abbrev main_v74 : Ref sig .tc := ⟨.hbm, 129, rfl⟩
abbrev main_cst_21 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_22 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_23 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_24 : Ref sig .tc := ⟨.hbm, 149, rfl⟩
abbrev main_v88 : Ref sig .tc := ⟨.hbm, 150, rfl⟩
abbrev main_cst_25 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_26 : Ref sig .tc := ⟨.hbm, 155, rfl⟩
abbrev main_v92 : Ref sig .tc := ⟨.hbm, 156, rfl⟩
abbrev main_v93 : Ref sig .tc := ⟨.hbm, 157, rfl⟩
abbrev main_cst_27 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_28 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_29 : Ref sig .tc := ⟨.hbm, 177, rfl⟩
abbrev main_call6_cst : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_cst_30 : Ref sig .tc := ⟨.hbm, 190, rfl⟩
abbrev main_v114 : Ref sig .tc := ⟨.hbm, 191, rfl⟩
abbrev main_v115 : Ref sig .tc := ⟨.hbm, 192, rfl⟩
abbrev main_cst_31 : Ref sig .tc := ⟨.hbm, 193, rfl⟩
abbrev main_v116 : Ref sig .tc := ⟨.hbm, 194, rfl⟩
abbrev main_v117 : Ref sig .tc := ⟨.hbm, 195, rfl⟩
abbrev main_cst_32 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S64_S50000x64_1 : S64.BroadcastsInDim S50000x64 (![1] : Fin 1 → Fin S50000x64.rank)
  concatenates_S50000x128_S50000x128_S50000x128_S50000x128_S50000x128_S50000x64_S50000x704_d1 : Shape.Concatenates [S50000x128, S50000x128, S50000x128, S50000x128, S50000x128, S50000x64] S50000x704 1
  bcast_S704_S1x704_1 : S704.BroadcastsInDim S1x704 (![1] : Fin 1 → Fin S1x704.rank)
  bcast_S1x704_S50000x704_0_1 : S1x704.BroadcastsInDim S50000x704 (![0, 1] : Fin 2 → Fin S50000x704.rank)
  bcast_S_S50000x704 : S_.BroadcastsInDim S50000x704 (![] : Fin 0 → Fin S50000x704.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S50000x704_S704x704_S50000x704_1_0_0_1_n_n_wf : DotDims.WF S50000x704 S704x704 S50000x704 [1] [0] [0] [1] [] []
  dot_S50000x704_S704x128_S50000x128_1_0_0_1_n_n_wf : DotDims.WF S50000x704 S704x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x704_S704x704_S50000x704_1_0_0_1_n_n : DotDims S50000x704 S704x704 S50000x704 where
  lhsContracting := [1]
  rhsContracting := [0]
  lhsNonContracting := [0]
  rhsNonContracting := [1]
  lhsBatch := []
  rhsBatch := []
  wf := dot_S50000x704_S704x704_S50000x704_1_0_0_1_n_n_wf
def dot_S50000x704_S704x128_S50000x128_1_0_0_1_n_n : DotDims S50000x704 S704x128 S50000x128 where
  lhsContracting := [1]
  rhsContracting := [0]
  lhsNonContracting := [0]
  rhsNonContracting := [1]
  lhsBatch := []
  rhsBatch := []
  wf := dot_S50000x704_S704x128_S50000x128_1_0_0_1_n_n_wf

class Facts : Prop extends Facts₀ where

variable [Facts]
-- ==== Proof.KerRaw.lean ====
/-
  The run of the whole program with its result buffer named. Every weakly fair execution terminates, and in every
  final state the result buffer of each core holds the contents the boundary fold ends with, the fourteen argument
  buffers what they held at launch. What that last boundary's contents are is a computation on the fold, done in
  the modules that follow.
-/
import proofs.«165283_j5420248727650_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters every weakly fair execution of the program on the TensorCores terminates,
    nothing faulting; each core's result buffer ends at the last boundary's contents, and each argument buffer as
    launched. The thread state at the return is "every unscoped buffer at the last boundary's contents"; the
    result buffer is one of them, as the arguments are. -/
theorem run_raw : θ_run defs (onTc (τ := τ) (main (F := F))) ⟨m, fun _ => 0, ρ⟩ (fun r => ∀ c : Dev nD,
      r.2.mem ((c.tc : Thread nD τ).loc main_v71) = Gen.W16 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v71 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.KerRun

end
-- ==== Proof.Spec.lean ====
/-
  The message-passing layer as whole-array functions, one per stage, spelt with the host operations of the
  plain-jnp program. An edge `e` carries a message computed from the features of its target node and its own
  attributes by a two-layer perceptron; per source node the messages' mean, standard deviation, skewness and
  kurtosis are taken by segment sums; the node update is a second two-layer perceptron over the node's own
  features, the four moments and a global vector, followed by a root-mean-square normalisation of each row.
  Both programs are compositions of these stages: they differ only in which of the stages are computed
  block by block inside a kernel.
-/
import proofs.«165283_j5420248727650_1_alg».proof.Proof.Gen.ReferenceIdeal

noncomputable section

namespace Cert.Spec

open Cert.ReferenceIdeal Cert.ReferenceIdeal.Gen Idealize.ShloMosaic

variable {F : FTy → Type} [FloatOps F]

/-- Row 0 of the edge index, as a flat vector: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge index, as a flat vector: each edge's target node. -/
def tgtOf (ei : IVec S2x800000 32) : IVec S800000 32 :=
  shapeCast S800000 (extractStridedSlice S1x800000 ![1, 0] ei slices_S2x800000_S1x800000_1_0) shapeCasts_S1x800000_S800000

/-- Node indices as a gather reads them: a negative index counts from the end (50000 is added), and the vector
    becomes a column of one-component index vectors. -/
def wrapCol (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Each edge's target-node features: row `tgt e` of the target feature table. -/
def tgtFeat (xt : FVec F S50000x64 .f32) (ei : IVec S2x800000 32) : FVec F S800000x64 .f32 :=
  Host.gather gather_S50000x64_S800000x1_S800000x64_1_0_n_n_0_1_164 xt (wrapCol (tgtOf ei))

/-- The leaky rectifier with slope 1/100 (as an f32 literal): `x` where `x ≥ 0`, the slope times `x` elsewhere. -/
def leaky (s : Shape) (hb : S_.BroadcastsInDim s (![] : Fin 0 → Fin s.rank)) (x : FVec F s .f32) : FVec F s .f32 :=
  select (cmpf .oge x (broadcastInDim s ![] hb (constant S_ .f32 0x00000000#32))) x
    (mulf (broadcastInDim s ![] hb (constant S_ .f32 0x3C23D70A#32)) x)

/-- The edge messages: the concatenation of target features and edge attributes through
    `leaky (· W₁ + b₁) W₂ + b₂`, row by row. -/
def msgOf (tf ea : FVec F S800000x64 .f32) (mw1 : FVec F S128x128 .f32) (mb1 : FVec F S128 .f32)
    (mw2 : FVec F S128x128 .f32) (mb2 : FVec F S128 .f32) : FVec F S800000x128 .f32 :=
  addf
    (Host.dotGeneral dot_S800000x128_S128x128_S800000x128_1_0_0_1_n_n none
      (leaky S800000x128 bcast_S_S800000x128
        (addf
          (Host.dotGeneral dot_S800000x128_S128x128_S800000x128_1_0_0_1_n_n none
            (concatenate S800000x128 1 [⟨S800000x64, tf⟩, ⟨S800000x64, ea⟩] concatenates_S800000x64_S800000x64_S800000x128_d1) mw1)
          (broadcastInDim S800000x128 ![0, 1] bcast_S1x128_S800000x128_0_1 (broadcastInDim S1x128 ![1] bcast_S128_S1x128_1 mb1))))
      mw2)
    (broadcastInDim S800000x128 ![0, 1] bcast_S1x128_S800000x128_0_1 (broadcastInDim S1x128 ![1] bcast_S128_S1x128_1 mb2))

/-- How many edges leave each node: the segment sum of ones. -/
def cntOf (src : IVec S800000 32) : FVec F S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 src)
    (broadcastInDim S800000x1 ![] bcast_S_S800000x1 (constant S_ .f32 0x3F800000#32))

/-- The per-source-node mean of an edge array: its segment sum divided by `max (count, 1)` where the node has
    an edge, zero where it has none. -/
def segMean (v : FVec F S800000x128 .f32) (src : IVec S800000 32) : FVec F S50000x128 .f32 :=
  select
    (broadcastInDim S50000x128 ![0, 1] bcast_S50000x1_S50000x128_0_1
      (cmpf .ogt (cntOf (F := F) src) (broadcastInDim S50000x1 ![] bcast_S_S50000x1 (constant S_ .f32 0x00000000#32))))
    (Host.divf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 src) v)
      (broadcastInDim S50000x128 ![0, 1] bcast_S50000x1_S50000x128_0_1
        (maximumf (cntOf (F := F) src) (broadcastInDim S50000x1 ![] bcast_S_S50000x1 (constant S_ .f32 0x3F800000#32)))))
    (broadcastInDim S50000x128 ![] bcast_S_S50000x128 (constant S_ .f32 0x00000000#32))

/-- The per-node standard deviation from the mean and the mean of squares: the square root of the rectified
    variance plus 1e-6 (as an f32 literal). -/
def stdOf (mean mean2 : FVec F S50000x128 .f32) : FVec F S50000x128 .f32 :=
  Host.sqrt (addf (leaky S50000x128 bcast_S_S50000x128 (subf mean2 (mulf mean mean)))
    (broadcastInDim S50000x128 ![] bcast_S_S50000x128 (constant S_ .f32 0x358637BD#32)))

/-- Each edge's source-node mean: row `src e` of the mean table. -/
def meanSrc (mean : FVec F S50000x128 .f32) (src : IVec S800000 32) : FVec F S800000x128 .f32 :=
  Host.gather gather_S50000x128_S800000x1_S800000x128_1_0_n_n_0_1_1128 mean (wrapCol src)

/-- The cube of each message's deviation from its source node's mean, as `(d · d) · d`. -/
def dev3Of (msg ms : FVec F S800000x128 .f32) : FVec F S800000x128 .f32 :=
  mulf (mulf (subf msg ms) (subf msg ms)) (subf msg ms)

/-- The fourth power of that deviation, as `(d · d) · (d · d)`. -/
def dev4Of (msg ms : FVec F S800000x128 .f32) : FVec F S800000x128 .f32 :=
  mulf (mulf (subf msg ms) (subf msg ms)) (mulf (subf msg ms) (subf msg ms))

/-- Skewness: the mean cubed deviation over the cube of the standard deviation. -/
def skewOf (d3 : FVec F S800000x128 .f32) (src : IVec S800000 32) (std : FVec F S50000x128 .f32) : FVec F S50000x128 .f32 :=
  Host.divf (segMean d3 src) (mulf (mulf std std) std)

/-- Kurtosis: the mean fourth-power deviation over the fourth power of the standard deviation. -/
def kurtOf (d4 : FVec F S800000x128 .f32) (src : IVec S800000 32) (std : FVec F S50000x128 .f32) : FVec F S50000x128 .f32 :=
  Host.divf (segMean d4 src) (mulf (mulf std std) (mulf std std))

/-- The node update before normalisation: the node's features, the four moments and the global vector, side by
    side (704 columns), through `leaky (· U₁ + c₁) U₂ + c₂`, row by row. -/
def updOf (xs mean std skew kurt : FVec F S50000x128 .f32) (xu : FVec F S64 .f32) (uw1 : FVec F S704x704 .f32)
    (ub1 : FVec F S704 .f32) (uw2 : FVec F S704x128 .f32) (ub2 : FVec F S128 .f32) : FVec F S50000x128 .f32 :=
  addf
    (Host.dotGeneral dot_S50000x704_S704x128_S50000x128_1_0_0_1_n_n none
      (leaky S50000x704 bcast_S_S50000x704
        (addf
          (Host.dotGeneral dot_S50000x704_S704x704_S50000x704_1_0_0_1_n_n none
            (concatenate S50000x704 1
              [⟨S50000x128, xs⟩, ⟨S50000x128, mean⟩, ⟨S50000x128, std⟩, ⟨S50000x128, skew⟩, ⟨S50000x128, kurt⟩,
                ⟨S50000x64, broadcastInDim S50000x64 ![1] bcast_S64_S50000x64_1 xu⟩]
              concatenates_S50000x128_S50000x128_S50000x128_S50000x128_S50000x128_S50000x64_S50000x704_d1) uw1)
          (broadcastInDim S50000x704 ![0, 1] bcast_S1x704_S50000x704_0_1 (broadcastInDim S1x704 ![1] bcast_S704_S1x704_1 ub1))))
      uw2)
    (broadcastInDim S50000x128 ![0, 1] bcast_S1x128_S50000x128_0_1 (broadcastInDim S1x128 ![1] bcast_S128_S1x128_1 ub2))

/-- Root-mean-square normalisation of each row: `o · (mean (o²) + 2⁻²³)^(-1/2) · w`, the mean over the row's 128
    entries as their sum divided by 128. -/
def normOf (o : FVec F S50000x128 .f32) (nw : FVec F S128 .f32) : FVec F S50000x128 .f32 :=
  mulf
    (mulf o
      (broadcastInDim S50000x128 ![0, 1] bcast_S50000x1_S50000x128_0_1
        (Host.rsqrt
          (addf
            (Host.divf
              (broadcastInDim S50000x1 ![0] bcast_S50000_S50000x1_0
                (Host.reduceAdd (mulf o o) (constant S_ .f32 0x00000000#32) reducesTo_S50000x128_S50000_d1 h_S_))
              (broadcastInDim S50000x1 ![] bcast_S_S50000x1 (constant S_ .f32 0x43000000#32)))
            (broadcastInDim S50000x1 ![] bcast_S_S50000x1 (constant S_ .f32 0x34000000#32))))))
    (broadcastInDim S50000x128 ![0, 1] bcast_S1x128_S50000x128_0_1 (broadcastInDim S1x128 ![1] bcast_S128_S1x128_1 nw))

/-- The layer from the messages on: the moments per source node, the update and its normalisation. -/
def fromMsg (msg : FVec F S800000x128 .f32) (d3 d4 : FVec F S800000x128 .f32) (xs : FVec F S50000x128 .f32)
    (ei : IVec S2x800000 32) (xu : FVec F S64 .f32) (uw1 : FVec F S704x704 .f32) (ub1 : FVec F S704 .f32)
    (uw2 : FVec F S704x128 .f32) (ub2 nw : FVec F S128 .f32) : FVec F S50000x128 .f32 :=
  normOf
    (updOf xs (segMean msg (srcOf ei))
      (stdOf (segMean msg (srcOf ei)) (segMean (mulf msg msg) (srcOf ei)))
      (skewOf d3 (srcOf ei) (stdOf (segMean msg (srcOf ei)) (segMean (mulf msg msg) (srcOf ei))))
      (kurtOf d4 (srcOf ei) (stdOf (segMean msg (srcOf ei)) (segMean (mulf msg msg) (srcOf ei))))
      xu uw1 ub1 uw2 ub2)
    nw

/-- The whole layer, as a function of the fourteen arguments. -/
def layer (xs : FVec F S50000x128 .f32) (xt : FVec F S50000x64 .f32) (ei : IVec S2x800000 32)
    (ea : FVec F S800000x64 .f32) (xu : FVec F S64 .f32) (mw1 : FVec F S128x128 .f32) (mb1 : FVec F S128 .f32)
    (mw2 : FVec F S128x128 .f32) (mb2 : FVec F S128 .f32) (uw1 : FVec F S704x704 .f32) (ub1 : FVec F S704 .f32)
    (uw2 : FVec F S704x128 .f32) (ub2 nw : FVec F S128 .f32) : FVec F S50000x128 .f32 :=
  fromMsg (msgOf (tgtFeat xt ei) ea mw1 mb1 mw2 mb2)
    (dev3Of (msgOf (tgtFeat xt ei) ea mw1 mb1 mw2 mb2)
      (meanSrc (segMean (msgOf (tgtFeat xt ei) ea mw1 mb1 mw2 mb2) (srcOf ei)) (srcOf ei)))
    (dev4Of (msgOf (tgtFeat xt ei) ea mw1 mb1 mw2 mb2)
      (meanSrc (segMean (msgOf (tgtFeat xt ei) ea mw1 mb1 mw2 mb2) (srcOf ei)) (srcOf ei)))
    xs ei xu uw1 ub1 uw2 ub2 nw

end Cert.Spec

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«165283_j5420248727650_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.R0Entry.lean ====
/-
  Both spellings of the edge perceptron read at an entry. The kernel's stored value at `(r, q)` of a block and the
  plain-jnp stage at `(n, q)` of the whole array are the same row function `mlpRow` of the concatenated input row,
  the two weight matrices and the two biases: the format changes on the way into the matrix unit are the identity
  on the extended reals, a product into a zero accumulator and the host's product are the same sum, and the
  rectifier compares and scales entry by entry.
-/
import proofs.«165283_j5420248727650_1_alg».proof.Proof.Gen.KernelIdeal.Skeleton
import proofs.«165283_j5420248727650_1_alg».proof.Proof.Spec
import proofs.«165283_j5420248727650_1_alg».proof.Proof.LibRows

noncomputable section

namespace Cert.KernelIdeal.R0

open Idealize.ShloMosaic Idealize.ShloMosaic.ValueIdx Cert.KernelIdeal Cert.KernelIdeal.Gen Cert.LibRows

/-- The kernel's and the plain-jnp program's dimension numbers for their 128-column products are the plain ones. -/
theorem dK : dot_S3200x128_S128x128_S3200x128_1_0_0_1_n_n = DotDims.plain 3200 128 128 := rfl
theorem dR : Cert.ReferenceIdeal.dot_S800000x128_S128x128_S800000x128_1_0_0_1_n_n = DotDims.plain 800000 128 128 := rfl

/-- The kernel's stored value at entry `(r, q)` of its block: the row function of row `r` of the two input blocks side by side. -/
theorem pay_apply (x0 x1 : Vec Ideal S3200x64 .f32) (x5 : Vec Ideal S128x128 .f32) (x8 : Vec Ideal S128 .f32)
    (x18 : Vec Ideal S128x128 .f32) (x21 : Vec Ideal S128 .f32) (r : Fin 3200) (q : Fin 128) :
    k0_pay1 x0 x1 x5 x8 x18 x21 (ix2 r q)
      = mlpRow (fun i => concatenate S3200x128 1 [⟨S3200x64, x0⟩, ⟨S3200x64, x1⟩] concatenates_S3200x64_S3200x64_S3200x128_d1 (ix2 r i))
          x5 x8 x18 x21 q := by
  simp only [k0_pay1, shapeCast_self, addf_apply, matmul_plain_apply _ dK, rowBias_apply, truncf_apply, select_apply, cmpf_apply, mulf_apply, broadcast_apply]
  rfl

theorem biasR_apply (v : FVec Ideal Cert.ReferenceIdeal.S128 .f32) (n : Fin 800000) (q : Fin 128) :
    broadcastInDim Cert.ReferenceIdeal.S800000x128 ![0, 1] Cert.ReferenceIdeal.Gen.bcast_S1x128_S800000x128_0_1
        (broadcastInDim Cert.ReferenceIdeal.S1x128 ![1] Cert.ReferenceIdeal.Gen.bcast_S128_S1x128_1 v) (ix2 n q) = v (ix1 q) :=
  rowBiasInDim_apply v _ _ n q

theorem scalarR_apply (x : FVec Ideal Cert.ReferenceIdeal.S_ .f32) (j : Cert.ReferenceIdeal.S800000x128.Idx) :
    broadcastInDim Cert.ReferenceIdeal.S800000x128 ![] Cert.ReferenceIdeal.Gen.bcast_S_S800000x128 x j = x ix0 :=
  scalarInDim_apply x _ j

/-- The rectifier's whole-array spelling read at an index is the rectifier of the entry. -/
theorem leaky_apply (s : Shape) (hb : Cert.ReferenceIdeal.S_.BroadcastsInDim s (![] : Fin 0 → Fin s.rank)) (x : FVec Ideal s .f32) (j : s.Idx) :
    Cert.Spec.leaky (F := Ideal) s hb x j = lk (x j) := by
  unfold Cert.Spec.leaky lk
  show Scalar.select (FloatOps.cmpf .oge (x j) (broadcastInDim s ![] hb (constant (F := Ideal) Cert.ReferenceIdeal.S_ .f32 0x00000000#32) j)) (x j)
      (broadcastInDim s ![] hb (constant (F := Ideal) Cert.ReferenceIdeal.S_ .f32 0x3C23D70A#32) j * x j) = _
  rw [scalarInDim_apply, scalarInDim_apply]
  rfl

/-- A host product with the plain dimension numbers plus a bias row, read at an entry. -/
theorem affR_apply {M K N : Nat} (D : DotDims ⟨2, ![M, K]⟩ ⟨2, ![K, N]⟩ ⟨2, ![M, N]⟩) (hD : D = DotDims.plain M K N)
    (X : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    addf (Host.dotGeneral D none X w) (broadcastInDim ⟨2, ![M, N]⟩ ![0, 1] h2 (broadcastInDim ⟨2, ![1, N]⟩ ![1] h1 b)) (ix2 p q)
      = (∑ i : Fin K, X (ix2 p i) * w (ix2 i q)) + b (ix1 q) := by
  show Host.dotGeneral D none X w (ix2 p q) + broadcastInDim ⟨2, ![M, N]⟩ ![0, 1] h2 (broadcastInDim ⟨2, ![1, N]⟩ ![1] h1 b) (ix2 p q) = _
  rw [dotGeneral_plain_apply D hD, rowBiasInDim_apply]

/-- The plain-jnp stage at entry `(n, q)`: the same row function of row `n` of the two arrays side by side. -/
theorem msgOf_apply (tf ea : FVec Ideal Cert.ReferenceIdeal.S800000x64 .f32) (mw1 : FVec Ideal Cert.ReferenceIdeal.S128x128 .f32)
    (mb1 : FVec Ideal Cert.ReferenceIdeal.S128 .f32) (mw2 : FVec Ideal Cert.ReferenceIdeal.S128x128 .f32)
    (mb2 : FVec Ideal Cert.ReferenceIdeal.S128 .f32) (n : Fin 800000) (q : Fin 128) :
    Cert.Spec.msgOf (F := Ideal) tf ea mw1 mb1 mw2 mb2 (ix2 n q)
      = mlpRow (fun i => concatenate Cert.ReferenceIdeal.S800000x128 1 [⟨Cert.ReferenceIdeal.S800000x64, tf⟩, ⟨Cert.ReferenceIdeal.S800000x64, ea⟩]
            Cert.ReferenceIdeal.Gen.concatenates_S800000x64_S800000x64_S800000x128_d1 (ix2 n i))
          mw1 mb1 mw2 mb2 q := by
  unfold Cert.Spec.msgOf mlpRow
  rw [affR_apply _ dR]
  refine congrArg (· + mb2 (ix1 q)) (Finset.sum_congr rfl fun k _ => congrArg (· * mw2 (ix2 k q)) ?_)
  rw [leaky_apply, affR_apply _ dR]

end Cert.KernelIdeal.R0

end
-- ==== Proof.Region0.lean ====
/-
  The first kernel. Its grid has 250 points; point `t` reads rows `3200 t … 3200 t + 3199` of the target
  features and of the edge attributes, and both weight matrices and both biases whole, and writes the same rows
  of the message array. A row of a matrix product depends only on the same row of its left factor, so the block
  the point writes is the restriction to those rows of the whole-array two-layer perceptron, and the 250 blocks
  tile the 800000 rows.
-/
import proofs.«165283_j5420248727650_1_alg».proof.Proof.Gen.KernelIdeal.Frame
import proofs.«165283_j5420248727650_1_alg».proof.Proof.Spec
import proofs.«165283_j5420248727650_1_alg».proof.Proof.R0Entry
import Idealize.ShloMosaic.Lib.Tactic

noncomputable section

namespace Cert.KernelIdeal.Regions

open Idealize.ShloMosaic Idealize.ShloMosaic.TcCoe Idealize.SL.Sem Cert.KernelIdeal Cert.KernelIdeal.Gen Idealize.ShloMosaic.ValueIdx
open Cert.LibRows Cert.KernelIdeal.R0
open Idealize.ShloMosaic.Pipeline (Dat)

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- Where the first kernel's windows sit at point `t`: the two edge inputs and the output at block `(t, 0)`, the
    weights and biases at block `0`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `r` of the target-feature block at point `t` is row `3200 t + r` of the array. -/
theorem blk0_apply (c : Dev nD) (t : Fin cfg0.N) (r : Fin 3200) (i : Fin 64) (n : Fin 800000) (hn : n.val = 3200 * t.val + r.val) :
    iblk0 V c 0 t (ix2 r i) = V c main_v10 (ix2 n i) := by
  obtain ⟨e0, e1, -⟩ := idx_facts0 t
  show V c main_v10 (((cfg0.win 0).blk t).view.emb (ix2 r i)) = V c main_v10 (ix2 n i)
  refine congrArg (V c main_v10) (funext fun a => Fin.ext ?_)
  match a with
  | ⟨0, _⟩ => show win0_0.index t (0 : Fin 2) * 3200 + 1 * r.val = n.val; rw [e0, hn]; omega
  | ⟨1, _⟩ => show win0_0.index t (1 : Fin 2) * 64 + 1 * i.val = i.val; rw [e1]; omega

/-- The same for the edge-attribute block. -/
theorem blk1_apply (c : Dev nD) (t : Fin cfg0.N) (r : Fin 3200) (i : Fin 64) (n : Fin 800000) (hn : n.val = 3200 * t.val + r.val) :
    iblk0 V c 1 t (ix2 r i) = V c main_arg3 (ix2 n i) := by
  obtain ⟨-, -, e0, e1, -⟩ := idx_facts0 t
  show V c main_arg3 (((cfg0.win 1).blk t).view.emb (ix2 r i)) = V c main_arg3 (ix2 n i)
  refine congrArg (V c main_arg3) (funext fun a => Fin.ext ?_)
  match a with
  | ⟨0, _⟩ => show win0_1.index t (0 : Fin 2) * 3200 + 1 * r.val = n.val; rw [e0, hn]; omega
  | ⟨1, _⟩ => show win0_1.index t (1 : Fin 2) * 64 + 1 * i.val = i.val; rw [e1]; omega

/-- The weight and bias windows hold their whole arrays at every point. -/
theorem blk2_eq (c : Dev nD) (t : Fin cfg0.N) : iblk0 V c 2 t = V c main_arg5 := by
  obtain ⟨-, -, -, -, e0, e1, -⟩ := idx_facts0 t
  funext y
  show V c main_arg5 (((cfg0.win 2).blk t).view.emb y) = V c main_arg5 y
  refine congrArg (V c main_arg5) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) : iblk0 V c 3 t = V c main_arg6 := by
  obtain ⟨-, -, -, -, -, -, e0, -⟩ := idx_facts0 t
  funext y
  show V c main_arg6 (((cfg0.win 3).blk t).view.emb y) = V c main_arg6 y
  refine congrArg (V c main_arg6) (funext fun a => Fin.ext ?_)
  match a with
  | ⟨0, _⟩ => show win0_3.index t (0 : Fin 1) * 128 + 1 * (y 0).val = (y 0).val; rw [e0]; omega

theorem blk4_eq (c : Dev nD) (t : Fin cfg0.N) : iblk0 V c 4 t = V c main_arg7 := by
  obtain ⟨-, -, -, -, -, -, -, e0, e1, -⟩ := idx_facts0 t
  funext y
  show V c main_arg7 (((cfg0.win 4).blk t).view.emb y) = V c main_arg7 y
  refine congrArg (V c main_arg7) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) : iblk0 V c 5 t = V c main_arg8 := by
  obtain ⟨-, -, -, -, -, -, -, -, -, e0, -⟩ := idx_facts0 t
  funext y
  show V c main_arg8 (((cfg0.win 5).blk t).view.emb y) = V c main_arg8 y
  refine congrArg (V c main_arg8) (funext fun a => Fin.ext ?_)
  match a with
  | ⟨0, _⟩ => show win0_5.index t (0 : Fin 1) * 128 + 1 * (y 0).val = (y 0).val; rw [e0]; omega

/-- What point `t` writes back is block `t` of the whole-array perceptron. -/
theorem flushed6_eq (c : Dev nD) (t : Fin cfg0.N) :
    (dat0 V c).flushed 6 t = ((cfg0.win 6).blk t).view.read (Elt Ideal)
      (Cert.Spec.msgOf (F := Ideal) (V c main_v10) (V c main_arg3) (V c main_arg5) (V c main_arg6) (V c main_arg7) (V c main_arg8)) := by
  show (cfg0.win 6).cut (grid0.coords t) ((dat0 V c).after 6 t) = _
  rw [after0_6]
  unfold out0_6
  rw [View.canon_unit_zero hz0_2]
  simp only [View.ld_unit_zero (S := S3200x64) hz0_2, View.ld_unit_zero (S := S128x128) hz0_2, View.ld_unit_zero (S := S128) hz0_1]
  rw [blk2_eq, blk3_eq, blk4_eq, blk5_eq]
  funext j
  obtain ⟨r, q, rfl⟩ : ∃ (r : Fin 3200) (q : Fin 128), j = ix2 r q := ⟨j 0, j 1, eq_ix2 j⟩
  have hN : cfg0.N = 250 := N_0
  have ht : t.val < 250 := hN ▸ t.isLt
  obtain ⟨-, -, -, -, -, -, -, -, -, -, e0, e1⟩ := idx_facts0 t
  have hemb : ((cfg0.win 6).blk t).view.emb (ix2 r q) = ix2 (⟨3200 * t.val + r.val, by have := r.isLt; omega⟩ : Fin 800000) q := by
    funext a; apply Fin.ext
    match a with
    | ⟨0, _⟩ => show win0_6.index t (0 : Fin 2) * 3200 + 1 * r.val = 3200 * t.val + r.val; rw [e0]; omega
    | ⟨1, _⟩ => show win0_6.index t (1 : Fin 2) * 128 + 1 * q.val = q.val; rw [e1]; omega
  show k0_pay1 (iblk0 V c 0 t) (iblk0 V c 1 t) (V c main_arg5) (V c main_arg6) (V c main_arg7) (V c main_arg8) (ix2 r q)
      = Cert.Spec.msgOf (F := Ideal) (V c main_v10) (V c main_arg3) (V c main_arg5) (V c main_arg6) (V c main_arg7) (V c main_arg8)
          (((cfg0.win 6).blk t).view.emb (ix2 r q))
  rw [hemb]
  refine (pay_apply _ _ _ _ _ _ r q).trans (Eq.trans ?_ (msgOf_apply _ _ _ _ _ _ _ q).symm)
  refine congrArg (fun A => mlpRow A (V c main_arg5) (V c main_arg6) (V c main_arg7) (V c main_arg8) q) (funext fun i => ?_)
  rw [cat_apply, cat_apply]
  split
  · exact blk0_apply V c t r _ _ rfl
  · exact blk1_apply V c t r _ _ rfl

/-- An index is in point `t`'s block of the message array iff each coordinate is in the block's range. -/
theorem mem_blk0_6 (t : Fin cfg0.N) (i : S800000x128.Idx) :
    i ∈ ((cfg0.win 6).blk t).view.set ↔ ∀ a : Fin 2, win0_6.index t a * S3200x128.size a ≤ (i a).val ∧ (i a).val < win0_6.index t a * S3200x128.size a + S3200x128.size a := by
  show i ∈ ((View.whole main_v11).slice (win0_6.rect t)).set ↔ _
  rw [View.set_slice_whole, Rect.mem_set_unit]
  exact Iff.rfl

/-- Row `n` of the message array is in the block of point `n / 3200`. -/
theorem cover0w6 (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  have hN : cfg0.N = 250 := N_0
  have hlt : (i 0).val / 3200 < cfg0.N := by rw [hN]; omega
  obtain ⟨-, -, -, -, -, -, -, -, -, -, e4, e5⟩ := idx_facts0 ⟨(i 0).val / 3200, hlt⟩
  refine ⟨⟨(i 0).val / 3200, hlt⟩, flush0_6 _, ?_⟩
  rw [mem_blk0_6]
  intro a
  match a with
  | ⟨0, _⟩ =>
    show win0_6.index ⟨(i 0).val / 3200, hlt⟩ (0 : Fin 2) * 3200 ≤ (i 0).val ∧ (i 0).val < win0_6.index ⟨(i 0).val / 3200, hlt⟩ (0 : Fin 2) * 3200 + 3200
    rw [e4]; show (i 0).val / 3200 * 3200 ≤ (i 0).val ∧ (i 0).val < (i 0).val / 3200 * 3200 + 3200; omega
  | ⟨1, _⟩ =>
    show win0_6.index ⟨(i 0).val / 3200, hlt⟩ (1 : Fin 2) * 128 ≤ (i 1).val ∧ (i 1).val < win0_6.index ⟨(i 0).val / 3200, hlt⟩ (1 : Fin 2) * 128 + 128
    rw [e5]; omega

/-- After the first kernel's region the message array is the perceptron of the whole arrays the region found. -/
theorem msg_eq (c : Dev nD) :
    (Gen.dat0 (F := Ideal) V c).arrAt 6 cfg0.N
      = Cert.Spec.msgOf (F := Ideal) (V c main_v10) (V c main_arg3) (V c main_arg5) (V c main_arg6) (V c main_arg7) (V c main_arg8) :=
  (dat0 V c).arrAt_eq_of_cover 6
    (Cert.Spec.msgOf (F := Ideal) (V c main_v10) (V c main_arg3) (V c main_arg5) (V c main_arg6) (V c main_arg7) (V c main_arg8))
    (fun t _ => flushed6_eq V c t) cover0w6

end Cert.KernelIdeal.Regions

end
-- ==== Proof.Region1.lean ====
/-
  The second kernel. Point `t` of its 250 reads rows `3200 t … 3200 t + 3199` of the messages and of the gathered
  means and writes the same rows of two arrays: the cube and the fourth power of the difference, entry by entry.
  All four windows sit at block `(t, 0)`, so an entry of an output block is the entrywise expression of the two
  input arrays at the same array index, and the 250 blocks tile the 800000 rows.
-/
import proofs.«165283_j5420248727650_1_alg».proof.Proof.Gen.KernelIdeal.Frame
import proofs.«165283_j5420248727650_1_alg».proof.Proof.Spec
import Idealize.ShloMosaic.PureOps.Ideal
import Idealize.ShloMosaic.PureOps.Ideal.Laws
import Idealize.ShloMosaic.Lib.Pipeline.Value
import Idealize.ShloMosaic.Lib.Tactic

noncomputable section

namespace Cert.KernelIdeal.Regions

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Every window of the second kernel is at block `(t, 0)` at point `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The stored cube is `(d · d) · d` of the difference `d` of the two loaded blocks. -/
theorem pay3_eq (x0 x1 : Vec Ideal S3200x128 .f32) :
    k1_pay3 x0 x1 = mulf (mulf (subf x0 x1) (subf x0 x1)) (subf x0 x1) := by
  simp only [k1_pay3, k1_pay2, k1_pay1, shapeCast_self]

/-- The stored fourth power is `(d · d) · (d · d)`. -/
theorem pay4_eq (x0 x1 : Vec Ideal S3200x128 .f32) :
    k1_pay4 x0 x1 = mulf (mulf (subf x0 x1) (subf x0 x1)) (mulf (subf x0 x1) (subf x0 x1)) := by
  simp only [k1_pay4, k1_pay2, k1_pay1, shapeCast_self]

/-- What point `t` writes back through output window 2 is block `t` of the entrywise function of the two arrays. -/
theorem flushed2_eq (c : Dev nD) (t : Fin cfg1.N) :
    (dat1 V c).flushed 2 t = ((cfg1.win 2).blk t).view.read (Elt Ideal) (Cert.Spec.dev3Of (F := Ideal) (V c main_v11) (V c main_v47)) := by
  show (cfg1.win 2).cut (grid1.coords t) ((dat1 V c).after 2 t) = _
  rw [after1_2]
  unfold out1_2
  rw [View.canon_unit_zero hz1]
  simp only [View.ld_unit_zero (S := S3200x128) hz1]
  rw [pay3_eq]
  funext j
  obtain ⟨e0, e1, e2, e3, e4, e5, -, -⟩ := idx_facts1 t
  have h0 : ((cfg1.win 0).blk t).view.emb j = ((cfg1.win 2).blk t).view.emb j := by
    funext a; apply Fin.ext
    match a with
    | ⟨0, _⟩ => show win1_0.index t (0 : Fin 2) * 3200 + 1 * (j 0).val = win1_2.index t (0 : Fin 2) * 3200 + 1 * (j 0).val; rw [e0, e4]
    | ⟨1, _⟩ => show win1_0.index t (1 : Fin 2) * 128 + 1 * (j 1).val = win1_2.index t (1 : Fin 2) * 128 + 1 * (j 1).val; rw [e1, e5]
  have h1 : ((cfg1.win 1).blk t).view.emb j = ((cfg1.win 2).blk t).view.emb j := by
    funext a; apply Fin.ext
    match a with
    | ⟨0, _⟩ => show win1_1.index t (0 : Fin 2) * 3200 + 1 * (j 0).val = win1_2.index t (0 : Fin 2) * 3200 + 1 * (j 0).val; rw [e2, e4]
    | ⟨1, _⟩ => show win1_1.index t (1 : Fin 2) * 128 + 1 * (j 1).val = win1_2.index t (1 : Fin 2) * 128 + 1 * (j 1).val; rw [e3, e5]
  show FloatOps.mulf (FloatOps.mulf (FloatOps.subf (V c main_v11 (((cfg1.win 0).blk t).view.emb j)) (V c main_v47 (((cfg1.win 1).blk t).view.emb j))) (FloatOps.subf (V c main_v11 (((cfg1.win 0).blk t).view.emb j)) (V c main_v47 (((cfg1.win 1).blk t).view.emb j)))) (FloatOps.subf (V c main_v11 (((cfg1.win 0).blk t).view.emb j)) (V c main_v47 (((cfg1.win 1).blk t).view.emb j))) = Cert.Spec.dev3Of (F := Ideal) (V c main_v11) (V c main_v47) (((cfg1.win 2).blk t).view.emb j)
  rw [h0, h1]
  rfl

/-- An index is in point `t`'s block of output window 2 iff each coordinate is in the block's range. -/
theorem mem_blk1_2 (t : Fin cfg1.N) (i : S800000x128.Idx) :
    i ∈ ((cfg1.win 2).blk t).view.set ↔ ∀ a : Fin 2, win1_2.index t a * S3200x128.size a ≤ (i a).val ∧ (i a).val < win1_2.index t a * S3200x128.size a + S3200x128.size a := by
  show i ∈ ((View.whole main_v48_0).slice (win1_2.rect t)).set ↔ _
  rw [View.set_slice_whole, Rect.mem_set_unit]
  exact Iff.rfl

/-- Row `r` of output window 2's array is in the block of point `r / 3200`: the 250 blocks tile the array. -/
theorem cover1w2 (i : S800000x128.Idx) : ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 250 := N_1
  have hlt : (i 0).val / 3200 < cfg1.N := by rw [hN]; omega
  obtain ⟨-, -, -, -, e4, e5, -, -⟩ := idx_facts1 ⟨(i 0).val / 3200, hlt⟩
  refine ⟨⟨(i 0).val / 3200, hlt⟩, flush1_2 _, ?_⟩
  rw [mem_blk1_2]
  intro a
  match a with
  | ⟨0, _⟩ =>
    show win1_2.index ⟨(i 0).val / 3200, hlt⟩ (0 : Fin 2) * 3200 ≤ (i 0).val ∧ (i 0).val < win1_2.index ⟨(i 0).val / 3200, hlt⟩ (0 : Fin 2) * 3200 + 3200
    rw [e4]; show (i 0).val / 3200 * 3200 ≤ (i 0).val ∧ (i 0).val < (i 0).val / 3200 * 3200 + 3200; omega
  | ⟨1, _⟩ =>
    show win1_2.index ⟨(i 0).val / 3200, hlt⟩ (1 : Fin 2) * 128 ≤ (i 1).val ∧ (i 1).val < win1_2.index ⟨(i 0).val / 3200, hlt⟩ (1 : Fin 2) * 128 + 128
    rw [e5]; omega

/-- What point `t` writes back through output window 3 is block `t` of the entrywise function of the two arrays. -/
theorem flushed3_eq (c : Dev nD) (t : Fin cfg1.N) :
    (dat1 V c).flushed 3 t = ((cfg1.win 3).blk t).view.read (Elt Ideal) (Cert.Spec.dev4Of (F := Ideal) (V c main_v11) (V c main_v47)) := by
  show (cfg1.win 3).cut (grid1.coords t) ((dat1 V c).after 3 t) = _
  rw [after1_3]
  unfold out1_3
  rw [View.canon_unit_zero hz1]
  simp only [View.ld_unit_zero (S := S3200x128) hz1]
  rw [pay4_eq]
  funext j
  obtain ⟨e0, e1, e2, e3, -, -, e4, e5⟩ := idx_facts1 t
  have h0 : ((cfg1.win 0).blk t).view.emb j = ((cfg1.win 3).blk t).view.emb j := by
    funext a; apply Fin.ext
    match a with
    | ⟨0, _⟩ => show win1_0.index t (0 : Fin 2) * 3200 + 1 * (j 0).val = win1_3.index t (0 : Fin 2) * 3200 + 1 * (j 0).val; rw [e0, e4]
    | ⟨1, _⟩ => show win1_0.index t (1 : Fin 2) * 128 + 1 * (j 1).val = win1_3.index t (1 : Fin 2) * 128 + 1 * (j 1).val; rw [e1, e5]
  have h1 : ((cfg1.win 1).blk t).view.emb j = ((cfg1.win 3).blk t).view.emb j := by
    funext a; apply Fin.ext
    match a with
    | ⟨0, _⟩ => show win1_1.index t (0 : Fin 2) * 3200 + 1 * (j 0).val = win1_3.index t (0 : Fin 2) * 3200 + 1 * (j 0).val; rw [e2, e4]
    | ⟨1, _⟩ => show win1_1.index t (1 : Fin 2) * 128 + 1 * (j 1).val = win1_3.index t (1 : Fin 2) * 128 + 1 * (j 1).val; rw [e3, e5]
  show FloatOps.mulf (FloatOps.mulf (FloatOps.subf (V c main_v11 (((cfg1.win 0).blk t).view.emb j)) (V c main_v47 (((cfg1.win 1).blk t).view.emb j))) (FloatOps.subf (V c main_v11 (((cfg1.win 0).blk t).view.emb j)) (V c main_v47 (((cfg1.win 1).blk t).view.emb j)))) (FloatOps.mulf (FloatOps.subf (V c main_v11 (((cfg1.win 0).blk t).view.emb j)) (V c main_v47 (((cfg1.win 1).blk t).view.emb j))) (FloatOps.subf (V c main_v11 (((cfg1.win 0).blk t).view.emb j)) (V c main_v47 (((cfg1.win 1).blk t).view.emb j)))) = Cert.Spec.dev4Of (F := Ideal) (V c main_v11) (V c main_v47) (((cfg1.win 3).blk t).view.emb j)
  rw [h0, h1]
  rfl

/-- An index is in point `t`'s block of output window 3 iff each coordinate is in the block's range. -/
theorem mem_blk1_3 (t : Fin cfg1.N) (i : S800000x128.Idx) :
    i ∈ ((cfg1.win 3).blk t).view.set ↔ ∀ a : Fin 2, win1_3.index t a * S3200x128.size a ≤ (i a).val ∧ (i a).val < win1_3.index t a * S3200x128.size a + S3200x128.size a := by
  show i ∈ ((View.whole main_v48_1).slice (win1_3.rect t)).set ↔ _
  rw [View.set_slice_whole, Rect.mem_set_unit]
  exact Iff.rfl

/-- Row `r` of output window 3's array is in the block of point `r / 3200`: the 250 blocks tile the array. -/
theorem cover1w3 (i : S800000x128.Idx) : ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 250 := N_1
  have hlt : (i 0).val / 3200 < cfg1.N := by rw [hN]; omega
  obtain ⟨-, -, -, -, -, -, e4, e5⟩ := idx_facts1 ⟨(i 0).val / 3200, hlt⟩
  refine ⟨⟨(i 0).val / 3200, hlt⟩, flush1_3 _, ?_⟩
  rw [mem_blk1_3]
  intro a
  match a with
  | ⟨0, _⟩ =>
    show win1_3.index ⟨(i 0).val / 3200, hlt⟩ (0 : Fin 2) * 3200 ≤ (i 0).val ∧ (i 0).val < win1_3.index ⟨(i 0).val / 3200, hlt⟩ (0 : Fin 2) * 3200 + 3200
    rw [e4]; show (i 0).val / 3200 * 3200 ≤ (i 0).val ∧ (i 0).val < (i 0).val / 3200 * 3200 + 3200; omega
  | ⟨1, _⟩ =>
    show win1_3.index ⟨(i 0).val / 3200, hlt⟩ (1 : Fin 2) * 128 ≤ (i 1).val ∧ (i 1).val < win1_3.index ⟨(i 0).val / 3200, hlt⟩ (1 : Fin 2) * 128 + 128
    rw [e5]; omega

/-- After the second kernel's region its first output is the cubed deviation of the arrays the region found. -/
theorem dev3_eq (c : Dev nD) :
    (Gen.dat1 (F := Ideal) V c).arrAt 2 cfg1.N = Cert.Spec.dev3Of (F := Ideal) (V c main_v11) (V c main_v47) :=
  (dat1 V c).arrAt_eq_of_cover 2 (Cert.Spec.dev3Of (F := Ideal) (V c main_v11) (V c main_v47)) (fun t _ => flushed2_eq V c t) cover1w2

/-- … and its second output the fourth power. -/
theorem dev4_eq (c : Dev nD) :
    (Gen.dat1 (F := Ideal) V c).arrAt 3 cfg1.N = Cert.Spec.dev4Of (F := Ideal) (V c main_v11) (V c main_v47) :=
  (dat1 V c).arrAt_eq_of_cover 3 (Cert.Spec.dev4Of (F := Ideal) (V c main_v11) (V c main_v47)) (fun t _ => flushed3_eq V c t) cover1w3

end Cert.KernelIdeal.Regions

end
-- ==== Proof.R2Blocks.lean ====
/-
  The third kernel's blocks as parts of the whole arrays. At point `t` the five node windows and the result window
  hold rows `1000 t … 1000 t + 999` of their arrays (block index `(t, 0)`, block size 1000 × 128), and the six
  parameter windows hold their whole arrays (block index zero): an element of a block sits in the array, on each
  axis, at the block index times the block size plus its coordinate inside the block.
-/
import proofs.«165283_j5420248727650_1_alg».proof.Proof.Gen.KernelIdeal.Frame
import Idealize.ShloMosaic.Lib.ValueIdx
import Idealize.ShloMosaic.Lib.Pipeline.Value

noncomputable section

namespace Cert.KernelIdeal.R2

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b)) (c : Dev nD)

/-- The node windows' and the result window's block index at point `t` is `(t, 0)`, decided over the grid. -/
theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_11.index t (0 : Fin 2) = t.val ∧ win2_11.index t (1 : Fin 2) = 0) :=
  (by decide +kernel : ∀ t : Fin grid2.N, _)

/-- The parameter windows' block index is zero at every point, decided over the grid. -/
theorem idx_whole : ∀ t : Fin cfg2.N,
    win2_5.index t (0 : Fin 1) = 0
    ∧ (win2_6.index t (0 : Fin 2) = 0 ∧ win2_6.index t (1 : Fin 2) = 0)
    ∧ win2_7.index t (0 : Fin 1) = 0
    ∧ (win2_8.index t (0 : Fin 2) = 0 ∧ win2_8.index t (1 : Fin 2) = 0)
    ∧ win2_9.index t (0 : Fin 1) = 0
    ∧ win2_10.index t (0 : Fin 1) = 0 :=
  (by decide +kernel : ∀ t : Fin grid2.N, _)

/-- Window 0's block at point `t`, at `(r, i)` : its array at row `1000 t + r`, column `i`. -/
theorem iblk_rows0 (t : Fin cfg2.N) (r : Fin 1000) (n : Fin 50000) (hn : n.val = t.val * 1000 + r.val) (i : Fin 128) :
    (iblk2 (F := Ideal) V c 0 t : Vec Ideal S1000x128 .f32) (ix2 r i) = (V c main_arg0 : Vec Ideal S50000x128 .f32) (ix2 n i) := by
  have h := idx_rows t
  have e := h.1
  unfold iblk2
  rw [View.read_apply]
  show V c main_arg0 _ = V c main_arg0 _
  congr 1
  funext a
  apply Fin.ext
  match a with
  | ⟨0, _⟩ => show win2_0.index t (0 : Fin 2) * 1000 + 1 * r.val = n.val; rw [e.1, hn]; omega
  | ⟨1, _⟩ => show win2_0.index t (1 : Fin 2) * 128 + 1 * i.val = i.val; rw [e.2]; omega

/-- Window 1's block at point `t`, at `(r, i)` : its array at row `1000 t + r`, column `i`. -/
theorem iblk_rows1 (t : Fin cfg2.N) (r : Fin 1000) (n : Fin 50000) (hn : n.val = t.val * 1000 + r.val) (i : Fin 128) :
    (iblk2 (F := Ideal) V c 1 t : Vec Ideal S1000x128 .f32) (ix2 r i) = (V c main_v29 : Vec Ideal S50000x128 .f32) (ix2 n i) := by
  have h := idx_rows t
  have e := h.2.1
  unfold iblk2
  rw [View.read_apply]
  show V c main_v29 _ = V c main_v29 _
  congr 1
  funext a
  apply Fin.ext
  match a with
  | ⟨0, _⟩ => show win2_1.index t (0 : Fin 2) * 1000 + 1 * r.val = n.val; rw [e.1, hn]; omega
  | ⟨1, _⟩ => show win2_1.index t (1 : Fin 2) * 128 + 1 * i.val = i.val; rw [e.2]; omega

/-- Window 2's block at point `t`, at `(r, i)` : its array at row `1000 t + r`, column `i`. -/
theorem iblk_rows2 (t : Fin cfg2.N) (r : Fin 1000) (n : Fin 50000) (hn : n.val = t.val * 1000 + r.val) (i : Fin 128) :
    (iblk2 (F := Ideal) V c 2 t : Vec Ideal S1000x128 .f32) (ix2 r i) = (V c main_v40 : Vec Ideal S50000x128 .f32) (ix2 n i) := by
  have h := idx_rows t
  have e := h.2.2.1
  unfold iblk2
  rw [View.read_apply]
  show V c main_v40 _ = V c main_v40 _
  congr 1
  funext a
  apply Fin.ext
  match a with
  | ⟨0, _⟩ => show win2_2.index t (0 : Fin 2) * 1000 + 1 * r.val = n.val; rw [e.1, hn]; omega
  | ⟨1, _⟩ => show win2_2.index t (1 : Fin 2) * 128 + 1 * i.val = i.val; rw [e.2]; omega

/-- Window 3's block at point `t`, at `(r, i)` : its array at row `1000 t + r`, column `i`. -/
theorem iblk_rows3 (t : Fin cfg2.N) (r : Fin 1000) (n : Fin 50000) (hn : n.val = t.val * 1000 + r.val) (i : Fin 128) :
    (iblk2 (F := Ideal) V c 3 t : Vec Ideal S1000x128 .f32) (ix2 r i) = (V c main_v67 : Vec Ideal S50000x128 .f32) (ix2 n i) := by
  have h := idx_rows t
  have e := h.2.2.2.1
  unfold iblk2
  rw [View.read_apply]
  show V c main_v67 _ = V c main_v67 _
  congr 1
  funext a
  apply Fin.ext
  match a with
  | ⟨0, _⟩ => show win2_3.index t (0 : Fin 2) * 1000 + 1 * r.val = n.val; rw [e.1, hn]; omega
  | ⟨1, _⟩ => show win2_3.index t (1 : Fin 2) * 128 + 1 * i.val = i.val; rw [e.2]; omega

/-- Window 4's block at point `t`, at `(r, i)` : its array at row `1000 t + r`, column `i`. -/
theorem iblk_rows4 (t : Fin cfg2.N) (r : Fin 1000) (n : Fin 50000) (hn : n.val = t.val * 1000 + r.val) (i : Fin 128) :
    (iblk2 (F := Ideal) V c 4 t : Vec Ideal S1000x128 .f32) (ix2 r i) = (V c main_v70 : Vec Ideal S50000x128 .f32) (ix2 n i) := by
  have h := idx_rows t
  have e := h.2.2.2.2.1
  unfold iblk2
  rw [View.read_apply]
  show V c main_v70 _ = V c main_v70 _
  congr 1
  funext a
  apply Fin.ext
  match a with
  | ⟨0, _⟩ => show win2_4.index t (0 : Fin 2) * 1000 + 1 * r.val = n.val; rw [e.1, hn]; omega
  | ⟨1, _⟩ => show win2_4.index t (1 : Fin 2) * 128 + 1 * i.val = i.val; rw [e.2]; omega

/-- Window 5's block at every point is its whole array. -/
theorem iblk_whole5 (t : Fin cfg2.N) :
    (iblk2 (F := Ideal) V c 5 t : Vec Ideal S64 .f32) = (V c main_arg4 : Vec Ideal S64 .f32) := by
  have h := idx_whole t
  have e := h.1
  funext y
  unfold iblk2
  rw [View.read_apply]
  show V c main_arg4 _ = V c main_arg4 _
  congr 1
  funext a
  apply Fin.ext
  match a with
  | ⟨0, _⟩ => show win2_5.index t (0 : Fin 1) * 64 + 1 * (y 0).val = (y 0).val; rw [e]; omega

/-- Window 6's block at every point is its whole array. -/
theorem iblk_whole6 (t : Fin cfg2.N) :
    (iblk2 (F := Ideal) V c 6 t : Vec Ideal S704x704 .f32) = (V c main_arg9 : Vec Ideal S704x704 .f32) := by
  have h := idx_whole t
  have e := h.2.1
  funext y
  unfold iblk2
  rw [View.read_apply]
  show V c main_arg9 _ = V c main_arg9 _
  congr 1
  funext a
  apply Fin.ext
  match a with
  | ⟨0, _⟩ => show win2_6.index t (0 : Fin 2) * 704 + 1 * (y 0).val = (y 0).val; rw [e.1]; omega
  | ⟨1, _⟩ => show win2_6.index t (1 : Fin 2) * 704 + 1 * (y 1).val = (y 1).val; rw [e.2]; omega

/-- Window 7's block at every point is its whole array. -/
theorem iblk_whole7 (t : Fin cfg2.N) :
    (iblk2 (F := Ideal) V c 7 t : Vec Ideal S704 .f32) = (V c main_arg10 : Vec Ideal S704 .f32) := by
  have h := idx_whole t
  have e := h.2.2.1
  funext y
  unfold iblk2
  rw [View.read_apply]
  show V c main_arg10 _ = V c main_arg10 _
  congr 1
  funext a
  apply Fin.ext
  match a with
  | ⟨0, _⟩ => show win2_7.index t (0 : Fin 1) * 704 + 1 * (y 0).val = (y 0).val; rw [e]; omega

/-- Window 8's block at every point is its whole array. -/
theorem iblk_whole8 (t : Fin cfg2.N) :
    (iblk2 (F := Ideal) V c 8 t : Vec Ideal S704x128 .f32) = (V c main_arg11 : Vec Ideal S704x128 .f32) := by
  have h := idx_whole t
  have e := h.2.2.2.1
  funext y
  unfold iblk2
  rw [View.read_apply]
  show V c main_arg11 _ = V c main_arg11 _
  congr 1
  funext a
  apply Fin.ext
  match a with
  | ⟨0, _⟩ => show win2_8.index t (0 : Fin 2) * 704 + 1 * (y 0).val = (y 0).val; rw [e.1]; omega
  | ⟨1, _⟩ => show win2_8.index t (1 : Fin 2) * 128 + 1 * (y 1).val = (y 1).val; rw [e.2]; omega

/-- Window 9's block at every point is its whole array. -/
theorem iblk_whole9 (t : Fin cfg2.N) :
    (iblk2 (F := Ideal) V c 9 t : Vec Ideal S128 .f32) = (V c main_arg12 : Vec Ideal S128 .f32) := by
  have h := idx_whole t
  have e := h.2.2.2.2.1
  funext y
  unfold iblk2
  rw [View.read_apply]
  show V c main_arg12 _ = V c main_arg12 _
  congr 1
  funext a
  apply Fin.ext
  match a with
  | ⟨0, _⟩ => show win2_9.index t (0 : Fin 1) * 128 + 1 * (y 0).val = (y 0).val; rw [e]; omega

/-- Window 10's block at every point is its whole array. -/
theorem iblk_whole10 (t : Fin cfg2.N) :
    (iblk2 (F := Ideal) V c 10 t : Vec Ideal S128 .f32) = (V c main_arg13 : Vec Ideal S128 .f32) := by
  have h := idx_whole t
  have e := h.2.2.2.2.2
  funext y
  unfold iblk2
  rw [View.read_apply]
  show V c main_arg13 _ = V c main_arg13 _
  congr 1
  funext a
  apply Fin.ext
  match a with
  | ⟨0, _⟩ => show win2_10.index t (0 : Fin 1) * 128 + 1 * (y 0).val = (y 0).val; rw [e]; omega

/-- An element `y` of the result window's block at point `t` sits at row `1000 t + y 0`, column `y 1` of the result array. -/
theorem emb_out (t : Fin cfg2.N) (y : ((cfg2.win 11).xblock (grid2.coords t)).Idx) :
    ((((cfg2.win 11).blk t).view.emb y (0 : Fin 2)).val = t.val * 1000 + (y (0 : Fin 2)).val)
    ∧ ((((cfg2.win 11).blk t).view.emb y (1 : Fin 2)).val = (y (1 : Fin 2)).val) := by
  have h := idx_rows t
  have e := h.2.2.2.2.2
  constructor
  · show win2_11.index t (0 : Fin 2) * 1000 + 1 * (y (0 : Fin 2)).val = _
    rw [e.1]; omega
  · show win2_11.index t (1 : Fin 2) * 128 + 1 * (y (1 : Fin 2)).val = _
    rw [e.2]; omega

/-- Row `i 0` of the result array is in the block of point `(i 0) / 1000`. -/
theorem cover_out (i : S50000x128.Idx) :
    ∃ t : Fin cfg2.N, (cfg2.win 11).flush t = true ∧ i ∈ ((cfg2.win 11).blk t).view.set := by
  have hi0 : (i 0).val < 50000 := (i 0).isLt
  have hi1 : (i 1).val < 128 := (i 1).isLt
  have hN : cfg2.N = 50 := N_2
  let t : Fin cfg2.N := ⟨(i 0).val / 1000, by rw [hN]; omega⟩
  have h := idx_rows t
  have e := h.2.2.2.2.2
  have ht : t.val = (i 0).val / 1000 := rfl
  refine ⟨t, flush2_11 t, ?_⟩
  show i ∈ ((View.whole main_v71).slice (win2_11.rect t)).set
  rw [View.set_slice_whole, Rect.mem_set_unit]
  intro a
  match a with
  | ⟨0, _⟩ =>
    show win2_11.index t (0 : Fin 2) * 1000 ≤ (i 0).val ∧ (i 0).val < win2_11.index t (0 : Fin 2) * 1000 + 1000
    rw [e.1, ht]; omega
  | ⟨1, _⟩ =>
    show win2_11.index t (1 : Fin 2) * 128 ≤ (i 1).val ∧ (i 1).val < win2_11.index t (1 : Fin 2) * 128 + 128
    rw [e.2]; omega

end Cert.KernelIdeal.R2

end
-- ==== Proof.R2Ops.lean ====
/-
  The node update of one row, as plain sums, and the operations of both programs read at an entry.
  A row of the 704-wide input is five rows of 128 entries and one of 64 side by side (`cat6`); the hidden layer is
  the rectified affine image of that row, the update the affine image of the hidden row, and the result the update
  scaled by the reciprocal root of its mean square plus a small constant, times a weight per column.
  Below them, each layout operation either program uses, read at an entry of a matrix with any number of rows.
-/
import Idealize.ShloMosaic.PureOps.Ideal.Laws
import Idealize.ShloMosaic.Lib.ValueIdx
import Idealize.ShloMosaic.Lib.ValueLayout
import Idealize.ShloMosaic.Lib.Pipeline.Value
import proofs.«165283_j5420248727650_1_alg».proof.Proof.LibDot

noncomputable section

namespace Cert.KernelIdeal.R2

open Idealize.ShloMosaic Idealize.ShloMosaic.ValueIdx

/-! ## One row of the update -/

/-- Five rows of 128 entries and one of 64, side by side. -/
def cat6 (a b c d e : Fin 128 → EReal) (g : Fin 64 → EReal) (k : Fin 704) : EReal :=
  if h0 : k.val < 128 then a ⟨k.val, h0⟩
  else if h1 : k.val < 256 then b ⟨k.val - 128, by omega⟩
  else if h2 : k.val < 384 then c ⟨k.val - 256, by omega⟩
  else if h3 : k.val < 512 then d ⟨k.val - 384, by omega⟩
  else if h4 : k.val < 640 then e ⟨k.val - 512, by omega⟩
  else g ⟨k.val - 640, by have := k.isLt; omega⟩

/-- The leaky rectifier at one value: the value where it is at least zero, the slope times it elsewhere. -/
def lk (x : EReal) : EReal :=
  Scalar.select (FloatOps.cmpf (F := Ideal) (φ := .f32) .oge x (Ideal.ofBits .f32 0x00000000#32)) x
    (Ideal.ofBits .f32 0x3C23D70A#32 * x)

/-- The hidden row: the rectified affine image of the input row. -/
def hid (h : Fin 704 → EReal) (U1 : Fin 704 → Fin 704 → EReal) (c1 : Fin 704 → EReal) (k : Fin 704) : EReal :=
  lk (∑ i : Fin 704, h i * U1 i k + c1 k)

/-- The update row: the affine image of the hidden row. -/
def upd (h : Fin 704 → EReal) (U1 : Fin 704 → Fin 704 → EReal) (c1 : Fin 704 → EReal)
    (U2 : Fin 704 → Fin 128 → EReal) (c2 : Fin 128 → EReal) (q : Fin 128) : EReal :=
  ∑ k : Fin 704, hid h U1 c1 k * U2 k q + c2 q

/-- The normalised row: each entry times the reciprocal root of the row's mean square plus a constant, times the
    column's weight. -/
def nrm (o : Fin 128 → EReal) (w : Fin 128 → EReal) (q : Fin 128) : EReal :=
  o q * Ideal.rsqrt (Ideal.div (∑ j : Fin 128, o j * o j) (Ideal.ofBits .f32 0x43000000#32) + Ideal.ofBits .f32 0x34000000#32)
    * w q

/-! ## Layout operations at an entry -/

variable {α : Type}

/-- Six matrices side by side read at `(p, k)` : the six rows `p` side by side at `k`. -/
theorem cat6_apply (M : Nat) (a b c d e : (⟨2, ![M, 128]⟩ : Shape).Idx → EReal) (g : (⟨2, ![M, 64]⟩ : Shape).Idx → EReal)
    (h : Shape.Concatenates [(⟨2, ![M, 128]⟩ : Shape), ⟨2, ![M, 128]⟩, ⟨2, ![M, 128]⟩, ⟨2, ![M, 128]⟩, ⟨2, ![M, 128]⟩, ⟨2, ![M, 64]⟩]
      ⟨2, ![M, 704]⟩ 1) (p : Fin M) (k : Fin 704) :
    concatenate (⟨2, ![M, 704]⟩ : Shape) 1 [⟨⟨2, ![M, 128]⟩, a⟩, ⟨⟨2, ![M, 128]⟩, b⟩, ⟨⟨2, ![M, 128]⟩, c⟩, ⟨⟨2, ![M, 128]⟩, d⟩,
        ⟨⟨2, ![M, 128]⟩, e⟩, ⟨⟨2, ![M, 64]⟩, g⟩] h (ix2 p k)
      = cat6 (fun i => a (ix2 p i)) (fun i => b (ix2 p i)) (fun i => c (ix2 p i)) (fun i => d (ix2 p i))
          (fun i => e (ix2 p i)) (fun i => g (ix2 p i)) k := by
  have hk := k.isLt
  unfold cat6
  split_ifs with h0 h1 h2 h3 h4
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 0 (by show (0 : Nat) < 6; omega) ⟨2, ![M, 128]⟩ a rfl rfl 0 rfl (ix2 p ⟨k.val, h0⟩) ?_ ?_
    · intro b hb; match b with
      | ⟨0, _⟩ => rfl
      | ⟨1, _⟩ => exact absurd rfl hb
    · show 0 + k.val = k.val; omega
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 1 (by show (1 : Nat) < 6; omega) ⟨2, ![M, 128]⟩ b rfl rfl 128 rfl (ix2 p ⟨k.val - 128, by omega⟩) ?_ ?_
    · intro b hb; match b with
      | ⟨0, _⟩ => rfl
      | ⟨1, _⟩ => exact absurd rfl hb
    · show 128 + (k.val - 128) = k.val; omega
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 2 (by show (2 : Nat) < 6; omega) ⟨2, ![M, 128]⟩ c rfl rfl 256 rfl (ix2 p ⟨k.val - 256, by omega⟩) ?_ ?_
    · intro b hb; match b with
      | ⟨0, _⟩ => rfl
      | ⟨1, _⟩ => exact absurd rfl hb
    · show 256 + (k.val - 256) = k.val; omega
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 3 (by show (3 : Nat) < 6; omega) ⟨2, ![M, 128]⟩ d rfl rfl 384 rfl (ix2 p ⟨k.val - 384, by omega⟩) ?_ ?_
    · intro b hb; match b with
      | ⟨0, _⟩ => rfl
      | ⟨1, _⟩ => exact absurd rfl hb
    · show 384 + (k.val - 384) = k.val; omega
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 4 (by show (4 : Nat) < 6; omega) ⟨2, ![M, 128]⟩ e rfl rfl 512 rfl (ix2 p ⟨k.val - 512, by omega⟩) ?_ ?_
    · intro b hb; match b with
      | ⟨0, _⟩ => rfl
      | ⟨1, _⟩ => exact absurd rfl hb
    · show 512 + (k.val - 512) = k.val; omega
  · refine concatenate_apply_piece (t := ⟨2, ![M, 704]⟩) (1 : Fin 2) [⟨⟨2, ![M, 128]⟩, a⟩, ⟨⟨2, ![M, 128]⟩, b⟩, ⟨⟨2, ![M, 128]⟩, c⟩, ⟨⟨2, ![M, 128]⟩, d⟩, ⟨⟨2, ![M, 128]⟩, e⟩, ⟨⟨2, ![M, 64]⟩, g⟩] h (ix2 p k) 5 (by show (5 : Nat) < 6; omega) ⟨2, ![M, 64]⟩ g rfl rfl 640 rfl (ix2 p ⟨k.val - 640, by omega⟩) ?_ ?_
    · intro b hb; match b with
      | ⟨0, _⟩ => rfl
      | ⟨1, _⟩ => exact absurd rfl hb
    · show 640 + (k.val - 640) = k.val; omega

/-- A vector made a one-row matrix and repeated down the rows (the kernel's spelling) reads, at `(p, q)`, the vector at `q`. -/
theorem rowVec_kernel (M N : Nat) (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo (⟨2, ![M, N]⟩ : Shape) (shapeCast (⟨2, ![1, N]⟩ : Shape) v h1) h2 (ix2 p q) = v (ix1 q) :=
  (broadcastTo_1b_ab_apply _ h2 p q).trans (shapeCast_a_1a_apply v h1 0 q)

/-- The same in the host's spelling: two `broadcast_in_dim`s. -/
theorem rowVec_host (M N : Nat) (v : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim (⟨2, ![M, N]⟩ : Shape) ![0, 1] h2 (broadcastInDim (⟨2, ![1, N]⟩ : Shape) ![1] h1 v) (ix2 p q) = v (ix1 q) := by
  refine (broadcastInDim_apply _ h2 _ (ix2 p q) (ix2 (0 : Fin 1) q) fun a => ?_).trans
    (broadcastInDim_apply _ h1 v (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A vector repeated down the rows by one `broadcast_in_dim` reads, at `(p, q)`, the vector at `q`. -/
theorem rowVec_host1 (M N : Nat) (v : (⟨1, ![N]⟩ : Shape).Idx → α)
    (h : (⟨1, ![N]⟩ : Shape).BroadcastsInDim ⟨2, ![M, N]⟩ (![1] : Fin 1 → Fin 2)) (p : Fin M) (q : Fin N) :
    broadcastInDim (⟨2, ![M, N]⟩ : Shape) ![1] h v (ix2 p q) = v (ix1 q) := by
  refine broadcastInDim_apply _ h v (ix2 p q) (ix1 q) fun a => ?_
  match a with
  | ⟨0, _⟩ =>
    show q.val = if N = 1 then 0 else q.val
    split
    · have := q.isLt; omega
    · rfl

/-- A one-column matrix repeated across the columns (the kernel's spelling) reads, at `(p, q)`, the column at `p`. -/
theorem col_kernel (M N : Nat) (w : (⟨2, ![M, 1]⟩ : Shape).Idx → α) (h : (⟨2, ![M, 1]⟩ : Shape).Broadcasts ⟨2, ![M, N]⟩)
    (p : Fin M) (q : Fin N) : broadcastTo (⟨2, ![M, N]⟩ : Shape) w h (ix2 p q) = w (ix2 p (0 : Fin 1)) := by
  refine broadcastTo_apply w h (ix2 p q) (ix2 p (0 : Fin 1)) fun a => ?_
  match a with
  | ⟨0, _⟩ =>
    show p.val = if M = 1 then 0 else p.val
    split
    · have := p.isLt; omega
    · rfl
  | ⟨1, _⟩ => rfl

/-- The same in the host's spelling. -/
theorem col_host (M N : Nat) (w : (⟨2, ![M, 1]⟩ : Shape).Idx → α)
    (h : (⟨2, ![M, 1]⟩ : Shape).BroadcastsInDim ⟨2, ![M, N]⟩ (![0, 1] : Fin 2 → Fin 2)) (p : Fin M) (q : Fin N) :
    broadcastInDim (⟨2, ![M, N]⟩ : Shape) ![0, 1] h w (ix2 p q) = w (ix2 p (0 : Fin 1)) := by
  refine broadcastInDim_apply _ h w (ix2 p q) (ix2 p (0 : Fin 1)) fun a => ?_
  match a with
  | ⟨0, _⟩ =>
    show p.val = if M = 1 then 0 else p.val
    split
    · have := p.isLt; omega
    · rfl
  | ⟨1, _⟩ => rfl

/-- A vector made a one-column matrix by a shape cast reads, at `(p, 0)`, the vector at `p`. -/
theorem vecCol_kernel (M : Nat) (v : (⟨1, ![M]⟩ : Shape).Idx → α) (h : (⟨1, ![M]⟩ : Shape).ShapeCasts ⟨2, ![M, 1]⟩)
    (p : Fin M) (u : Fin 1) : shapeCast (⟨2, ![M, 1]⟩ : Shape) v h (ix2 p u) = v (ix1 p) :=
  shapeCast_apply v h _ _ (by
    have hu : u.val = 0 := by omega
    rw [Shape.rowMajor_val_two, Shape.rowMajor_val_one]
    show p.val = p.val * 1 + u.val
    omega)

/-- The same by the host's `broadcast_in_dim`. -/
theorem vecCol_host (M : Nat) (v : (⟨1, ![M]⟩ : Shape).Idx → α)
    (h : (⟨1, ![M]⟩ : Shape).BroadcastsInDim ⟨2, ![M, 1]⟩ (![0] : Fin 1 → Fin 2)) (p : Fin M) (u : Fin 1) :
    broadcastInDim (⟨2, ![M, 1]⟩ : Shape) ![0] h v (ix2 p u) = v (ix1 p) := by
  refine broadcastInDim_apply _ h v (ix2 p u) (ix1 p) fun a => ?_
  match a with
  | ⟨0, _⟩ =>
    show p.val = if M = 1 then 0 else p.val
    split
    · have := p.isLt; omega
    · rfl

/-- A scalar constant spread over a shape by the host reads its value everywhere. -/
theorem scalar_host (s : Shape) (b : BitVec 32) (h : (⟨0, ![]⟩ : Shape).BroadcastsInDim s (![] : Fin 0 → Fin s.rank)) (j : s.Idx) :
    broadcastInDim s ![] h (constant (F := Ideal) (⟨0, ![]⟩ : Shape) .f32 b) j = Ideal.ofBits .f32 b := rfl

/-! ## The rectifier at an entry -/

/-- The kernel's rectifier (a comparison with a zero splat, a product with a slope splat, a select) at an entry. -/
theorem leaky_kernel (s : Shape) (x : FVec Ideal s .f32) (j : s.Idx) :
    select (cmpf .oge x (broadcast s (Scalar.ofBits (F := Ideal) .f32 0x00000000#32))) x
      (mulf (broadcast s (Scalar.ofBits (F := Ideal) .f32 0x3C23D70A#32)) x) j = lk (x j) := rfl

/-- The host's rectifier (the same with the two constants spread by `broadcast_in_dim`) at an entry. -/
theorem leaky_host (s : Shape) (hb : (⟨0, ![]⟩ : Shape).BroadcastsInDim s (![] : Fin 0 → Fin s.rank)) (x : FVec Ideal s .f32) (j : s.Idx) :
    select (cmpf .oge x (broadcastInDim s ![] hb (constant (F := Ideal) (⟨0, ![]⟩ : Shape) .f32 0x00000000#32))) x
      (mulf (broadcastInDim s ![] hb (constant (F := Ideal) (⟨0, ![]⟩ : Shape) .f32 0x3C23D70A#32)) x) j = lk (x j) := rfl

/-! ## Sums at an entry -/

/-- The kernel's sum along each row: at row `p`, the sum of that row's entries. -/
theorem rowSum_kernel (M N : Nat) (src : FVec Ideal (⟨2, ![M, N]⟩ : Shape) .f32) (acc : BitVec 32)
    (h : (⟨2, ![M, N]⟩ : Shape).Reduces [1] ⟨1, ![M]⟩) (hφ : FKind.Formats .f32) (hacc : acc = FKind.add.neutral .f32 hφ) (p : Fin M) :
    multiReduction .add [1] (⟨1, ![M]⟩ : Shape) src acc h hφ hacc (ix1 p) = ∑ q : Fin N, src (ix2 p q) := by
  refine (Ideal.multiReduction_add_single src acc h hφ hacc (ix1 p)).trans ?_
  refine Finset.sum_congr rfl fun q _ => congrArg src ?_
  funext a
  apply Fin.ext
  match a with
  | ⟨0, _⟩ => rfl
  | ⟨1, _⟩ => rfl

/-- The host's sum along each row from a zero initial value: the same sum. -/
theorem rowSum_host (M N : Nat) (src : FVec Ideal (⟨2, ![M, N]⟩ : Shape) .f32)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduceAdd (F := Ideal) src (constant (F := Ideal) (⟨0, ![]⟩ : Shape) .f32 0x00000000#32) h' hu (ix1 p)
      = ∑ q : Fin N, src (ix2 p q) := by
  show Ideal.hostReduceAdd h' src (Ideal.ofBits .f32 0x00000000#32) (ix1 p) = _
  rw [Ideal.hostReduceAdd_single h' h, Ideal.ofBits_zero_f32, zero_add]
  refine Finset.sum_congr rfl fun q _ => congrArg src ?_
  funext a
  apply Fin.ext
  match a with
  | ⟨0, _⟩ => rfl
  | ⟨1, _⟩ => rfl

/-- A matrix product into a zero accumulator (the kernel's) at an entry: the textbook sum. -/
theorem matmul_plain (M K N : Nat) {φ₁ φ₂ : FTy} (D : DotDims ⟨2, ![M, K]⟩ ⟨2, ![K, N]⟩ ⟨2, ![M, N]⟩) (hD : D = DotDims.plain M K N)
    (l : FVec Ideal (⟨2, ![M, K]⟩ : Shape) φ₁) (r : FVec Ideal (⟨2, ![K, N]⟩ : Shape) φ₂) (p : Fin M) (q : Fin N) :
    matmul D none l r (constant (⟨2, ![M, N]⟩ : Shape) .f32 0x00000000#32) (ix2 p q) = ∑ i : Fin K, l (ix2 p i) * r (ix2 i q) := by
  subst hD
  exact (Ideal.matmul_constant_zero_apply _ none l r (ix2 p q)).trans (Cert.LibDot.plain_sum M K N l r p q)

/-- The host's matrix product at an entry: the same sum. -/
theorem dot_plain (M K N : Nat) {φ₁ φ₂ : FTy} (D : DotDims ⟨2, ![M, K]⟩ ⟨2, ![K, N]⟩ ⟨2, ![M, N]⟩) (hD : D = DotDims.plain M K N)
    (l : FVec Ideal (⟨2, ![M, K]⟩ : Shape) φ₁) (r : FVec Ideal (⟨2, ![K, N]⟩ : Shape) φ₂) (p : Fin M) (q : Fin N) :
    Host.dotGeneral D none l r (ix2 p q) = ∑ i : Fin K, l (ix2 p i) * r (ix2 i q) := by
  subst hD
  exact (Ideal.dotGeneral_apply _ none .single l r (ix2 p q)).trans (Cert.LibDot.plain_sum M K N l r p q)

end Cert.KernelIdeal.R2

end
-- ==== Proof.R2Pay.lean ====
/-
  The third kernel's arithmetic read at an entry. The body's update at row `p` of its block is the update row of the
  block's row `p` (its conversions to and from the narrow format are exact at the exact values, its two products
  into a zero accumulator are plain sums), its row sums of squares are the sums of squares of that row, and its stored
  value is the normalised row.
-/
import proofs.«165283_j5420248727650_1_alg».proof.Proof.Gen.KernelIdeal.Skeleton
import proofs.«165283_j5420248727650_1_alg».proof.Proof.R2Ops

noncomputable section

namespace Cert.KernelIdeal.R2

open Idealize.ShloMosaic Idealize.ShloMosaic.ValueIdx Cert.KernelIdeal Cert.KernelIdeal.Gen

/-- The update of row `p` of the blocks, at column `q`. -/
theorem pay2_apply (v0 : Vec Ideal S64 .f32) (v3 v4 v6 v8 v10 : Vec Ideal S1000x128 .f32) (v14 : Vec Ideal S704x704 .f32)
    (v17 : Vec Ideal S704 .f32) (v27 : Vec Ideal S704x128 .f32) (v30 : Vec Ideal S128 .f32) (p : Fin 1000) (q : Fin 128) :
    k2_pay2 (F := Ideal) v0 v3 v4 v6 v8 v10 v14 v17 v27 v30 (ix2 p q)
      = upd (cat6 (fun i => v3 (ix2 p i)) (fun i => v4 (ix2 p i)) (fun i => v6 (ix2 p i)) (fun i => v8 (ix2 p i))
            (fun i => v10 (ix2 p i)) (fun i => v0 (ix1 i)))
          (fun i k => v14 (ix2 i k)) (fun k => v17 (ix1 k)) (fun k j => v27 (ix2 k j)) (fun j => v30 (ix1 j)) q := by
  unfold k2_pay2 upd
  try dsimp only
  refine congrArg₂ (· + ·) ?_ (rowVec_kernel 1000 128 v30 _ _ p q)
  refine (matmul_plain 1000 704 128 _ rfl _ _ p q).trans ?_
  refine Finset.sum_congr rfl fun k _ => ?_
  refine congrArg (· * v27 (ix2 k q)) ?_
  unfold hid
  refine (leaky_kernel _ _ _).trans (congrArg lk ?_)
  refine congrArg₂ (· + ·) ?_ (rowVec_kernel 1000 704 v17 _ _ p k)
  refine (matmul_plain 1000 704 704 _ rfl _ _ p k).trans ?_
  refine Finset.sum_congr rfl fun i _ => ?_
  refine congrArg (· * v14 (ix2 i k)) ?_
  refine (truncf_apply (ψ := .bf16) _ bitsLt_bf16_f32 (ix2 p i)).trans ?_
  refine (cat6_apply 1000 _ _ _ _ _ _ concatenates_S1000x128_S1000x128_S1000x128_S1000x128_S1000x128_S1000x64_S1000x704_d1 p i).trans ?_
  simp only [shapeCast_self]
  congr 1
  funext j
  exact rowVec_kernel 1000 64 v0 _ _ p j

/-- The row sums of squares at row `p` : the sum of the squares of the update row. -/
theorem pay3_apply (v0 : Vec Ideal S64 .f32) (v3 v4 v6 v8 v10 : Vec Ideal S1000x128 .f32) (v14 : Vec Ideal S704x704 .f32)
    (v17 : Vec Ideal S704 .f32) (v27 : Vec Ideal S704x128 .f32) (v30 : Vec Ideal S128 .f32) (p : Fin 1000) (u : Fin 1) :
    k2_pay3 (F := Ideal) v0 v3 v4 v6 v8 v10 v14 v17 v27 v30 (ix2 p u)
      = ∑ j : Fin 128, k2_pay2 (F := Ideal) v0 v3 v4 v6 v8 v10 v14 v17 v27 v30 (ix2 p j)
          * k2_pay2 (F := Ideal) v0 v3 v4 v6 v8 v10 v14 v17 v27 v30 (ix2 p j) := by
  unfold k2_pay3
  try dsimp only
  refine (vecCol_kernel 1000 _ _ p u).trans ?_
  exact rowSum_kernel 1000 128 _ _ _ _ _ p

/-- The stored value at `(p, q)` : the update there, scaled by the reciprocal root of the row's mean square plus
    the constant, times the weight of column `q`. -/
theorem pay1_apply (o : FVec Ideal S1000x128 .f32) (s : FVec Ideal S1000x1 .f32) (w : Vec Ideal S128 .f32) (p : Fin 1000) (q : Fin 128) :
    k2_pay1 (F := Ideal) o s w (ix2 p q)
      = o (ix2 p q) * Ideal.rsqrt (Ideal.div (s (ix2 p (0 : Fin 1))) (Ideal.ofBits .f32 0x43000000#32) + Ideal.ofBits .f32 0x34000000#32)
          * w (ix1 q) := by
  unfold k2_pay1
  try dsimp only
  refine congrArg₂ (· * ·) (congrArg (o (ix2 p q) * ·) ?_) (rowVec_kernel 1000 128 w _ _ p q)
  exact col_kernel 1000 128 _ _ p q

/-- The whole payload at `(p, q)` : the normalised update row of the blocks' rows `p`. -/
theorem pay_apply (x0 x1 x2 x3 x4 : Vec Ideal S1000x128 .f32) (x5 : Vec Ideal S64 .f32) (x6 : Vec Ideal S704x704 .f32)
    (x7 : Vec Ideal S704 .f32) (x8 : Vec Ideal S704x128 .f32) (x9 x10 : Vec Ideal S128 .f32) (p : Fin 1000) (q : Fin 128) :
    k2_pay1 (F := Ideal) (k2_pay2 x5 x0 x1 x2 x3 x4 x6 x7 x8 x9) (k2_pay3 x5 x0 x1 x2 x3 x4 x6 x7 x8 x9) x10 (ix2 p q)
      = nrm (upd (cat6 (fun i => x0 (ix2 p i)) (fun i => x1 (ix2 p i)) (fun i => x2 (ix2 p i)) (fun i => x3 (ix2 p i))
              (fun i => x4 (ix2 p i)) (fun i => x5 (ix1 i)))
            (fun i k => x6 (ix2 i k)) (fun k => x7 (ix1 k)) (fun k j => x8 (ix2 k j)) (fun j => x9 (ix1 j)))
          (fun j => x10 (ix1 j)) q := by
  refine (pay1_apply _ _ x10 p q).trans ?_
  unfold nrm
  rw [pay3_apply]
  simp only [pay2_apply]

end Cert.KernelIdeal.R2

end
-- ==== Proof.R2Ref.lean ====
/-
  The whole-array update and its normalisation read at an entry. Entry `(n, q)` of the update is the update row of
  row `n` of the five node arrays and the global vector (the host's two products are plain sums, its broadcasts of
  the biases read the bias at the column), and entry `(n, q)` of the normalisation is the normalised row.
-/
import proofs.«165283_j5420248727650_1_alg».proof.Proof.Spec
import proofs.«165283_j5420248727650_1_alg».proof.Proof.R2Ops

noncomputable section

namespace Cert.KernelIdeal.R2

open Idealize.ShloMosaic Idealize.ShloMosaic.ValueIdx Cert.ReferenceIdeal Cert.ReferenceIdeal.Gen

/-- The update at `(n, q)` : the update row of the arrays' rows `n`. -/
theorem updOf_apply (xs mean std skew kurt : FVec Ideal S50000x128 .f32) (xu : FVec Ideal S64 .f32) (uw1 : FVec Ideal S704x704 .f32)
    (ub1 : FVec Ideal S704 .f32) (uw2 : FVec Ideal S704x128 .f32) (ub2 : FVec Ideal S128 .f32) (n : Fin 50000) (q : Fin 128) :
    Cert.Spec.updOf (F := Ideal) xs mean std skew kurt xu uw1 ub1 uw2 ub2 (ix2 n q)
      = upd (cat6 (fun i => xs (ix2 n i)) (fun i => mean (ix2 n i)) (fun i => std (ix2 n i)) (fun i => skew (ix2 n i))
            (fun i => kurt (ix2 n i)) (fun i => xu (ix1 i)))
          (fun i k => uw1 (ix2 i k)) (fun k => ub1 (ix1 k)) (fun k j => uw2 (ix2 k j)) (fun j => ub2 (ix1 j)) q := by
  unfold Cert.Spec.updOf upd
  refine congrArg₂ (· + ·) ?_ (rowVec_host 50000 128 ub2 _ _ n q)
  refine (dot_plain 50000 704 128 _ rfl _ _ n q).trans ?_
  refine Finset.sum_congr rfl fun k _ => ?_
  refine congrArg (· * uw2 (ix2 k q)) ?_
  unfold hid Cert.Spec.leaky
  refine (leaky_host _ _ _ _).trans (congrArg lk ?_)
  refine congrArg₂ (· + ·) ?_ (rowVec_host 50000 704 ub1 _ _ n k)
  refine (dot_plain 50000 704 704 _ rfl _ _ n k).trans ?_
  refine Finset.sum_congr rfl fun i _ => ?_
  refine congrArg (· * uw1 (ix2 i k)) ?_
  refine (cat6_apply 50000 _ _ _ _ _ _ _ n i).trans ?_
  congr 1
  funext j
  exact rowVec_host1 50000 64 xu _ n j

/-- The normalisation at `(n, q)` : the normalised row `n`. -/
theorem normOf_apply (o : FVec Ideal S50000x128 .f32) (nw : FVec Ideal S128 .f32) (n : Fin 50000) (q : Fin 128) :
    Cert.Spec.normOf (F := Ideal) o nw (ix2 n q) = nrm (fun j => o (ix2 n j)) (fun j => nw (ix1 j)) q := by
  unfold Cert.Spec.normOf nrm
  refine congrArg₂ (· * ·) (congrArg (o (ix2 n q) * ·) ?_) (rowVec_host 50000 128 nw _ _ n q)
  refine (col_host 50000 128 _ _ n q).trans ?_
  refine congrArg Ideal.rsqrt (congrArg₂ (· + ·) (congrArg₂ Ideal.div ?_ rfl) rfl)
  refine (vecCol_host 50000 _ _ n 0).trans ?_
  exact rowSum_host 50000 128 (mulf o o) _ (by decide) _ n

/-- The normalised update at `(n, q)`. -/
theorem ref_apply (xs mean std skew kurt : FVec Ideal S50000x128 .f32) (xu : FVec Ideal S64 .f32) (uw1 : FVec Ideal S704x704 .f32)
    (ub1 : FVec Ideal S704 .f32) (uw2 : FVec Ideal S704x128 .f32) (ub2 nw : FVec Ideal S128 .f32) (n : Fin 50000) (q : Fin 128) :
    Cert.Spec.normOf (F := Ideal) (Cert.Spec.updOf (F := Ideal) xs mean std skew kurt xu uw1 ub1 uw2 ub2) nw (ix2 n q)
      = nrm (upd (cat6 (fun i => xs (ix2 n i)) (fun i => mean (ix2 n i)) (fun i => std (ix2 n i)) (fun i => skew (ix2 n i))
              (fun i => kurt (ix2 n i)) (fun i => xu (ix1 i)))
            (fun i k => uw1 (ix2 i k)) (fun k => ub1 (ix1 k)) (fun k j => uw2 (ix2 k j)) (fun j => ub2 (ix1 j)))
          (fun j => nw (ix1 j)) q := by
  refine (normOf_apply _ nw n q).trans ?_
  simp only [updOf_apply]

end Cert.KernelIdeal.R2

end
-- ==== Proof.R2Point.lean ====
/-
  One grid point of the third kernel against the whole-array stages. When the five node blocks hold rows
  `1000 t … 1000 t + 999` of the node arrays and the parameter blocks hold the parameter arrays, the body's stored value
  at `(r, q)` is the normalised update of the whole arrays at `(1000 t + r, q)` : both are the normalised update row of
  the same row, since every step of the update acts on each row by itself.
-/
import proofs.«165283_j5420248727650_1_alg».proof.Proof.R2Pay
import proofs.«165283_j5420248727650_1_alg».proof.Proof.R2Ref

noncomputable section

namespace Cert.KernelIdeal.R2

open Idealize.ShloMosaic Idealize.ShloMosaic.ValueIdx Cert.KernelIdeal Cert.KernelIdeal.Gen

/-- The body's stored value at an element of its block is the whole-array result at the element's place in the array. -/
theorem point_eq (x0 x1 x2 x3 x4 : Vec Ideal S1000x128 .f32) (x5 : Vec Ideal S64 .f32) (x6 : Vec Ideal S704x704 .f32)
    (x7 : Vec Ideal S704 .f32) (x8 : Vec Ideal S704x128 .f32) (x9 x10 : Vec Ideal S128 .f32)
    (X0 X1 X2 X3 X4 : Vec Ideal S50000x128 .f32) (X5 : Vec Ideal S64 .f32) (X6 : Vec Ideal S704x704 .f32)
    (X7 : Vec Ideal S704 .f32) (X8 : Vec Ideal S704x128 .f32) (X9 X10 : Vec Ideal S128 .f32) (t : Nat)
    (h0 : ∀ (r : Fin 1000) (n : Fin 50000), n.val = t * 1000 + r.val → ∀ i : Fin 128, x0 (ix2 r i) = X0 (ix2 n i))
    (h1 : ∀ (r : Fin 1000) (n : Fin 50000), n.val = t * 1000 + r.val → ∀ i : Fin 128, x1 (ix2 r i) = X1 (ix2 n i))
    (h2 : ∀ (r : Fin 1000) (n : Fin 50000), n.val = t * 1000 + r.val → ∀ i : Fin 128, x2 (ix2 r i) = X2 (ix2 n i))
    (h3 : ∀ (r : Fin 1000) (n : Fin 50000), n.val = t * 1000 + r.val → ∀ i : Fin 128, x3 (ix2 r i) = X3 (ix2 n i))
    (h4 : ∀ (r : Fin 1000) (n : Fin 50000), n.val = t * 1000 + r.val → ∀ i : Fin 128, x4 (ix2 r i) = X4 (ix2 n i))
    (h5 : x5 = X5) (h6 : x6 = X6) (h7 : x7 = X7) (h8 : x8 = X8) (h9 : x9 = X9) (h10 : x10 = X10)
    (y : S1000x128.Idx) (k : S50000x128.Idx) (hk0 : (k 0).val = t * 1000 + (y 0).val) (hk1 : (k 1).val = (y 1).val) :
    k2_pay1 (F := Ideal) (k2_pay2 x5 x0 x1 x2 x3 x4 x6 x7 x8 x9) (k2_pay3 x5 x0 x1 x2 x3 x4 x6 x7 x8 x9) x10 y
      = Cert.Spec.normOf (F := Ideal) (Cert.Spec.updOf (F := Ideal) X0 X1 X2 X3 X4 X5 X6 X7 X8 X9) X10 k := by
  subst h5 h6 h7 h8 h9 h10
  obtain ⟨r, q, rfl⟩ : ∃ (r : Fin 1000) (q : Fin 128), y = ix2 r q := ⟨y 0, y 1, eq_ix2 y⟩
  obtain ⟨n, q', rfl⟩ : ∃ (n : Fin 50000) (q' : Fin 128), k = ix2 n q' := ⟨k 0, k 1, eq_ix2 k⟩
  obtain rfl : q' = q := Fin.ext hk1
  have hn : n.val = t * 1000 + r.val := hk0
  refine (pay_apply x0 x1 x2 x3 x4 x5 x6 x7 x8 x9 x10 r q').trans ?_
  refine Eq.trans ?_ (ref_apply X0 X1 X2 X3 X4 x5 x6 x7 x8 x9 x10 n q').symm
  simp only [h0 r n hn, h1 r n hn, h2 r n hn, h3 r n hn, h4 r n hn]

end Cert.KernelIdeal.R2

end
-- ==== Proof.R2Flush.lean ====
/-
  What a grid point of the third kernel writes back. The result window's staging buffer after the body at point `t`
  is the body's stored value of the windows' blocks; read element by element it is the normalised update of the
  whole arrays at the element's place in the result array, that is, block `t` of the whole-array result.
-/
import proofs.«165283_j5420248727650_1_alg».proof.Proof.Gen.KernelIdeal.Frame
import proofs.«165283_j5420248727650_1_alg».proof.Proof.Spec
import proofs.«165283_j5420248727650_1_alg».proof.Proof.R2Blocks
import proofs.«165283_j5420248727650_1_alg».proof.Proof.R2Point
import Idealize.ShloMosaic.Lib.Pipeline.Value

noncomputable section

namespace Cert.KernelIdeal.R2

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a; rfl

/-- Point `t` writes back block `t` of the normalised update of the whole arrays. -/
theorem flushed_eq (t : Fin cfg2.N) :
    (dat2 (F := Ideal) V c).flushed 11 t
      = ((cfg2.win 11).blk t).view.read (Elt Ideal) (Cert.Spec.normOf (F := Ideal)
          (Cert.Spec.updOf (F := Ideal) (V c main_arg0) (V c main_v29) (V c main_v40) (V c main_v67) (V c main_v70) (V c main_arg4)
            (V c main_arg9) (V c main_arg10) (V c main_arg11) (V c main_arg12))
          (V c main_arg13)) := by
  show (cfg2.win 11).cut (grid2.coords t) ((dat2 (F := Ideal) V c).after 11 t) = _
  rw [after2_11]
  unfold out2_11
  rw [View.canon_unit_zero hz2]
  simp only [View.ld_unit_zero (S := S1000x128) hz2, View.ld_unit_zero (S := S64) hz1, View.ld_unit_zero (S := S704x704) hz2,
    View.ld_unit_zero (S := S704) hz1, View.ld_unit_zero (S := S704x128) hz2, View.ld_unit_zero (S := S128) hz1]
  funext y
  have he := emb_out t y
  exact point_eq (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t)
    (V c main_arg0) (V c main_v29) (V c main_v40) (V c main_v67) (V c main_v70) (V c main_arg4) (V c main_arg9) (V c main_arg10)
    (V c main_arg11) (V c main_arg12) (V c main_arg13) t.val
    (iblk_rows0 V c t) (iblk_rows1 V c t) (iblk_rows2 V c t) (iblk_rows3 V c t) (iblk_rows4 V c t)
    (iblk_whole5 V c t) (iblk_whole6 V c t) (iblk_whole7 V c t) (iblk_whole8 V c t) (iblk_whole9 V c t) (iblk_whole10 V c t)
    y (((cfg2.win 11).blk t).view.emb y) he.1 he.2

end Cert.KernelIdeal.R2

end
-- ==== Proof.Region2.lean ====
/-
  The third kernel. Point `t` of its 50 reads rows `1000 t …` of the node features and of the four moment
  arrays, and the global vector, both weight matrices, both biases and the normalisation weights whole, and
  writes the same rows of the result.
-/
import proofs.«165283_j5420248727650_1_alg».proof.Proof.Gen.KernelIdeal.Frame
import proofs.«165283_j5420248727650_1_alg».proof.Proof.Spec
import Idealize.ShloMosaic.PureOps.Ideal
import Idealize.ShloMosaic.PureOps.Ideal.Laws
import Idealize.ShloMosaic.Lib.Pipeline.Value
import proofs.«165283_j5420248727650_1_alg».proof.Proof.R2Blocks
import proofs.«165283_j5420248727650_1_alg».proof.Proof.R2Flush

noncomputable section

namespace Cert.KernelIdeal.Regions

open Idealize.ShloMosaic Idealize.ShloMosaic.TcCoe Idealize.SL.Sem Cert.KernelIdeal Cert.KernelIdeal.Gen

/-- After the third kernel's region the result array is the normalised update of the whole arrays the region found:
    every point writes back its block of that whole-array function, and the fifty blocks of 1000 rows cover the array. -/
theorem out_eq (V : (c : Dev nD) → (b : Ref sig .tc) → Buf (Elt Ideal) ((c : Thread nD τ).loc b)) (c : Dev nD) :
    (Gen.dat2 (F := Ideal) V c).arrAt 11 cfg2.N
      = Cert.Spec.normOf (F := Ideal)
          (Cert.Spec.updOf (F := Ideal) (V c main_arg0) (V c main_v29) (V c main_v40) (V c main_v67) (V c main_v70) (V c main_arg4)
            (V c main_arg9) (V c main_arg10) (V c main_arg11) (V c main_arg12))
          (V c main_arg13) :=
  (Gen.dat2 (F := Ideal) V c).arrAt_eq_of_cover 11 _ (fun t _ => Cert.KernelIdeal.R2.flushed_eq V c t) Cert.KernelIdeal.R2.cover_out

end Cert.KernelIdeal.Regions

end
-- ==== Proof.KerVal0.lean ====
/-
  The host operations before the first kernel, as a map of buffer contents: what they leave in the two buffers the
  rest of the program reads (each edge's source node, and the gathered target features), and that they leave every
  buffer they do not write as it was. Also the two per-node quantities every segment mean is made of.
-/
import proofs.«165283_j5420248727650_1_alg».proof.Proof.Gen.KernelIdeal.Frame
import proofs.«165283_j5420248727650_1_alg».proof.Proof.Spec
import Idealize.ShloMosaic.PureOps.Ideal

set_option maxRecDepth 16384

noncomputable section

namespace Cert.KernelIdeal.KerRun

open Idealize.ShloMosaic Idealize.ShloMosaic.TcCoe Idealize.SL.Sem Cert.KernelIdeal Cert.KernelIdeal.Gen

/-- Every operation of a literal list writes a reference of a given literal list: per operation, the one reference it
    writes is found in the list. -/
local macro "writes_sub" : tactic =>
  `(tactic| (simp only [List.Forall]
             repeat' apply And.intro
             all_goals
               (simp only [StableHlo.nullary_writes, StableHlo.unary_writes, StableHlo.binary_writes, StableHlo.ternary_writes,
                  StableHlo.reshape_writes, Finset.singleton_subset_iff, List.mem_toFinset]
                exact List.mem_map_of_mem (by decide))))

/-- The references the operations before the first kernel write. -/
abbrev preW : List (Ref sig .tc) := [main_v0, main_v1, main_v2, main_v3, main_c, main_v4, main_v5, main_c_0, main_v6, main_v7, main_v8, main_v9, main_v10]

theorem pre_writes : (hostOps0 : List (HloOp τ sig (Elt Ideal))).Forall fun op => op.writes ⊆ (preW.map (Proc.devRef (τ := τ) .tc)).toFinset := by
  writes_sub

/-- A buffer none of them writes keeps its contents. -/
theorem pre_keep (W : Valuation τ sig (Elt Ideal)) (b : Ref sig .tc) (hb : b ∉ preW) :
    StableHlo.after (hostOps0 (F := Ideal)) W (Proc.devRef .tc b) = W (Proc.devRef .tc b) :=
  StableHlo.after_of_writes_sub hostOps0 W pre_writes hb

/-- Row 0 of the edge index, flattened: each edge's source node. -/
theorem pre_src (W : Valuation τ sig (Elt Ideal)) :
    StableHlo.after (hostOps0 (F := Ideal)) W (Proc.devRef .tc main_v1) = Cert.Spec.srcOf (W (Proc.devRef .tc main_arg2)) := by
  unfold Cert.Spec.srcOf
  after_results
  rfl

attribute [local irreducible] Host.gather Host.scatterAdd in
/-- Row 1 of the edge index, flattened, wrapped where negative and made a column, gathers each edge's row of the
    target feature table. -/
theorem pre_tgtFeat (W : Valuation τ sig (Elt Ideal)) :
    StableHlo.after (hostOps0 (F := Ideal)) W (Proc.devRef .tc main_v10)
      = Cert.Spec.tgtFeat (F := Ideal) (W (Proc.devRef .tc main_arg1)) (W (Proc.devRef .tc main_arg2)) := by
  unfold Cert.Spec.tgtFeat Cert.Spec.wrapCol Cert.Spec.tgtOf
  after_results
  rfl

/-- The divisor of a segment mean: a node's number of edges, or one where it has none. -/
def cntMax (src : IVec Cert.ReferenceIdeal.S800000 32) : FVec Ideal Cert.ReferenceIdeal.S50000x1 .f32 :=
  maximumf (Cert.Spec.cntOf (F := Ideal) src)
    (broadcastInDim S50000x1 ![] bcast_S_S50000x1 (constant (F := Ideal) S_ .f32 0x3F800000#32))

/-- The segment sum of an edge array: per source node, the sum of its edges' rows. -/
def segSum (v : FVec Ideal Cert.ReferenceIdeal.S800000x128 .f32) (src : IVec Cert.ReferenceIdeal.S800000 32) :
    FVec Ideal Cert.ReferenceIdeal.S50000x128 .f32 :=
  Host.scatterAdd scatter_S50000x128_S800000x1_S800000x128_1_0_0_1 (broadcastInDim S50000x128 ![] bcast_S_S50000x128 (constant (F := Ideal) S_ .f32 0x00000000#32))
    (broadcastInDim S800000x1 ![0] bcast_S800000_S800000x1_0 src) v

attribute [local irreducible] Host.gather Host.scatterAdd in
/-- A segment mean is the segment sum over the divisor where the node has an edge, zero elsewhere. -/
theorem segMean_eq (v : FVec Ideal Cert.ReferenceIdeal.S800000x128 .f32) (src : IVec Cert.ReferenceIdeal.S800000 32) :
    Cert.Spec.segMean (F := Ideal) v src
      = select
          (broadcastInDim S50000x128 ![0, 1] bcast_S50000x1_S50000x128_0_1 (cmpf .ogt (Cert.Spec.cntOf (F := Ideal) src) (broadcastInDim S50000x1 ![] bcast_S_S50000x1 (constant (F := Ideal) S_ .f32 0x00000000#32))))
          (Host.divf (segSum v src) (broadcastInDim S50000x128 ![0, 1] bcast_S50000x1_S50000x128_0_1 (cntMax src)))
          (broadcastInDim S50000x128 ![] bcast_S_S50000x128 (constant (F := Ideal) S_ .f32 0x00000000#32)) := rfl

end Cert.KernelIdeal.KerRun

end
-- ==== Proof.KerVal1.lean ====
/-
  The host operations between the first kernel and the second, as a map of buffer contents. From the messages and
  the edges' source nodes they compute, per node, the number of its edges, the mean of its messages and of their
  squares, from these the standard deviation, and per edge the mean of its source node. Read at the buffers the
  rest of the program uses, the results are the stage functions of the messages and the sources; every buffer the
  operations do not write is left as it was. Each of the seven stretches is read by itself, at any contents before
  it; the readings are then chained.
-/
import proofs.«165283_j5420248727650_1_alg».proof.Proof.Gen.KernelIdeal.Frame
import proofs.«165283_j5420248727650_1_alg».proof.Proof.Spec
import proofs.«165283_j5420248727650_1_alg».proof.Proof.KerVal0
import Idealize.ShloMosaic.PureOps.Ideal

set_option maxRecDepth 16384

noncomputable section

namespace Cert.KernelIdeal.KerRun

open Idealize.ShloMosaic Idealize.ShloMosaic.TcCoe Idealize.SL.Sem Cert.KernelIdeal Cert.KernelIdeal.Gen

/-- Every operation of a literal list writes a reference of a given literal list: per operation, the one reference it
    writes is found in the list. -/
local macro "writes_sub" : tactic =>
  `(tactic| (simp only [List.Forall]
             repeat' apply And.intro
             all_goals
               (simp only [StableHlo.nullary_writes, StableHlo.unary_writes, StableHlo.binary_writes, StableHlo.ternary_writes,
                  StableHlo.reshape_writes, Finset.singleton_subset_iff, List.mem_toFinset]
                exact List.mem_map_of_mem (by decide))))

/-- The seven stretches between the first kernel and the second, in order. -/
def mid (W : Valuation τ sig (Elt Ideal)) : Valuation τ sig (Elt Ideal) :=
  StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))

/-- The references those operations write. -/
abbrev midW : List (Ref sig .tc) := [main_cst, main_v12, main_cst_1, main_v13, main_v14, main_v15, main_cst_2, main_v16, main_v17, main_v18, main_v19, main_cst_3, main_v20, main_v21, main_v22, main_cst_4, main_v23, main_v24, main_cst_5, main_v25, main_v26, main_v27, main_v28, main_cst_6, main_call0_v0, main_call0_v1, main_call0_v2, main_v29, main_cst_7, main_v30, main_v31, main_v32, main_v33, main_cst_8, main_call1_v0, main_call1_v1, main_call1_v2, main_v34, main_v35, main_v36, main_cst_9, main_call2_cst, main_call2_v0, main_call2_v1, main_call2_v2, main_call2_v3, main_call2_v4, main_v37, main_cst_10, main_v38, main_v39, main_v40, main_c_11, main_v41, main_v42, main_c_12, main_v43, main_v44, main_v45, main_v46, main_v47]

theorem mid_writes_hostOps1 : (hostOps1 : List (HloOp τ sig (Elt Ideal))).Forall fun op => op.writes ⊆ (midW.map (Proc.devRef (τ := τ) .tc)).toFinset := by
  writes_sub
theorem mid_writes_hostOps1_1 : (hostOps1_1 : List (HloOp τ sig (Elt Ideal))).Forall fun op => op.writes ⊆ (midW.map (Proc.devRef (τ := τ) .tc)).toFinset := by
  writes_sub
theorem mid_writes_hostOps1_2 : (hostOps1_2 : List (HloOp τ sig (Elt Ideal))).Forall fun op => op.writes ⊆ (midW.map (Proc.devRef (τ := τ) .tc)).toFinset := by
  writes_sub
theorem mid_writes_hostOps1_3 : (hostOps1_3 : List (HloOp τ sig (Elt Ideal))).Forall fun op => op.writes ⊆ (midW.map (Proc.devRef (τ := τ) .tc)).toFinset := by
  writes_sub
theorem mid_writes_hostOps1_4 : (hostOps1_4 : List (HloOp τ sig (Elt Ideal))).Forall fun op => op.writes ⊆ (midW.map (Proc.devRef (τ := τ) .tc)).toFinset := by
  writes_sub
theorem mid_writes_hostOps1_5 : (hostOps1_5 : List (HloOp τ sig (Elt Ideal))).Forall fun op => op.writes ⊆ (midW.map (Proc.devRef (τ := τ) .tc)).toFinset := by
  writes_sub
theorem mid_writes_hostOps1_6 : (hostOps1_6 : List (HloOp τ sig (Elt Ideal))).Forall fun op => op.writes ⊆ (midW.map (Proc.devRef (τ := τ) .tc)).toFinset := by
  writes_sub

/-- A buffer none of them writes keeps its contents: stretch by stretch. -/
theorem mid_keep (W : Valuation τ sig (Elt Ideal)) (b : Ref sig .tc) (hb : b ∉ midW) :
    mid W (Proc.devRef .tc b) = W (Proc.devRef .tc b) := by
  unfold mid
  rw [StableHlo.after_of_writes_sub hostOps1_6 _ mid_writes_hostOps1_6 hb,
    StableHlo.after_of_writes_sub hostOps1_5 _ mid_writes_hostOps1_5 hb,
    StableHlo.after_of_writes_sub hostOps1_4 _ mid_writes_hostOps1_4 hb,
    StableHlo.after_of_writes_sub hostOps1_3 _ mid_writes_hostOps1_3 hb,
    StableHlo.after_of_writes_sub hostOps1_2 _ mid_writes_hostOps1_2 hb,
    StableHlo.after_of_writes_sub hostOps1_1 _ mid_writes_hostOps1_1 hb,
    StableHlo.after_of_writes_sub hostOps1 _ mid_writes_hostOps1 hb]

/-! ## Stretch by stretch: what each writes, and that it keeps the rest -/

/-- The references stretch `hostOps1` writes, and that a buffer it does not write keeps its contents. -/
abbrev s1W : List (Ref sig .tc) := [main_cst, main_v12, main_cst_1, main_v13, main_v14, main_v15, main_cst_2, main_v16, main_v17, main_v18, main_v19, main_cst_3, main_v20, main_v21, main_v22, main_cst_4, main_v23, main_v24, main_cst_5, main_v25, main_v26, main_v27, main_v28, main_cst_6]
theorem s1_writes : (hostOps1 : List (HloOp τ sig (Elt Ideal))).Forall fun op => op.writes ⊆ (s1W.map (Proc.devRef (τ := τ) .tc)).toFinset := by
  writes_sub
theorem s1_keep (X : Valuation τ sig (Elt Ideal)) (b : Ref sig .tc) (hb : b ∉ s1W) :
    StableHlo.after (hostOps1 (F := Ideal)) X (Proc.devRef .tc b) = X (Proc.devRef .tc b) :=
  StableHlo.after_of_writes_sub hostOps1 X s1_writes hb

/-- The references stretch `hostOps1_1` writes, and that a buffer it does not write keeps its contents. -/
abbrev s1aW : List (Ref sig .tc) := [main_call0_v0, main_call0_v1, main_call0_v2, main_v29]
theorem s1a_writes : (hostOps1_1 : List (HloOp τ sig (Elt Ideal))).Forall fun op => op.writes ⊆ (s1aW.map (Proc.devRef (τ := τ) .tc)).toFinset := by
  writes_sub
theorem s1a_keep (X : Valuation τ sig (Elt Ideal)) (b : Ref sig .tc) (hb : b ∉ s1aW) :
    StableHlo.after (hostOps1_1 (F := Ideal)) X (Proc.devRef .tc b) = X (Proc.devRef .tc b) :=
  StableHlo.after_of_writes_sub hostOps1_1 X s1a_writes hb

/-- The references stretch `hostOps1_2` writes, and that a buffer it does not write keeps its contents. -/
abbrev s1bW : List (Ref sig .tc) := [main_cst_7, main_v30, main_v31, main_v32, main_v33, main_cst_8]
theorem s1b_writes : (hostOps1_2 : List (HloOp τ sig (Elt Ideal))).Forall fun op => op.writes ⊆ (s1bW.map (Proc.devRef (τ := τ) .tc)).toFinset := by
  writes_sub
theorem s1b_keep (X : Valuation τ sig (Elt Ideal)) (b : Ref sig .tc) (hb : b ∉ s1bW) :
    StableHlo.after (hostOps1_2 (F := Ideal)) X (Proc.devRef .tc b) = X (Proc.devRef .tc b) :=
  StableHlo.after_of_writes_sub hostOps1_2 X s1b_writes hb

/-- The references stretch `hostOps1_3` writes, and that a buffer it does not write keeps its contents. -/
abbrev s1cW : List (Ref sig .tc) := [main_call1_v0, main_call1_v1, main_call1_v2, main_v34]
theorem s1c_writes : (hostOps1_3 : List (HloOp τ sig (Elt Ideal))).Forall fun op => op.writes ⊆ (s1cW.map (Proc.devRef (τ := τ) .tc)).toFinset := by
  writes_sub
theorem s1c_keep (X : Valuation τ sig (Elt Ideal)) (b : Ref sig .tc) (hb : b ∉ s1cW) :
    StableHlo.after (hostOps1_3 (F := Ideal)) X (Proc.devRef .tc b) = X (Proc.devRef .tc b) :=
  StableHlo.after_of_writes_sub hostOps1_3 X s1c_writes hb

/-- The references stretch `hostOps1_4` writes, and that a buffer it does not write keeps its contents. -/
abbrev s1dW : List (Ref sig .tc) := [main_v35, main_v36, main_cst_9]
theorem s1d_writes : (hostOps1_4 : List (HloOp τ sig (Elt Ideal))).Forall fun op => op.writes ⊆ (s1dW.map (Proc.devRef (τ := τ) .tc)).toFinset := by
  writes_sub
theorem s1d_keep (X : Valuation τ sig (Elt Ideal)) (b : Ref sig .tc) (hb : b ∉ s1dW) :
    StableHlo.after (hostOps1_4 (F := Ideal)) X (Proc.devRef .tc b) = X (Proc.devRef .tc b) :=
  StableHlo.after_of_writes_sub hostOps1_4 X s1d_writes hb

/-- The references stretch `hostOps1_5` writes, and that a buffer it does not write keeps its contents. -/
abbrev s1eW : List (Ref sig .tc) := [main_call2_cst, main_call2_v0, main_call2_v1, main_call2_v2, main_call2_v3, main_call2_v4, main_v37]
theorem s1e_writes : (hostOps1_5 : List (HloOp τ sig (Elt Ideal))).Forall fun op => op.writes ⊆ (s1eW.map (Proc.devRef (τ := τ) .tc)).toFinset := by
  writes_sub
theorem s1e_keep (X : Valuation τ sig (Elt Ideal)) (b : Ref sig .tc) (hb : b ∉ s1eW) :
    StableHlo.after (hostOps1_5 (F := Ideal)) X (Proc.devRef .tc b) = X (Proc.devRef .tc b) :=
  StableHlo.after_of_writes_sub hostOps1_5 X s1e_writes hb

/-- The references stretch `hostOps1_6` writes, and that a buffer it does not write keeps its contents. -/
abbrev s1fW : List (Ref sig .tc) := [main_cst_10, main_v38, main_v39, main_v40, main_c_11, main_v41, main_v42, main_c_12, main_v43, main_v44, main_v45, main_v46, main_v47]
theorem s1f_writes : (hostOps1_6 : List (HloOp τ sig (Elt Ideal))).Forall fun op => op.writes ⊆ (s1fW.map (Proc.devRef (τ := τ) .tc)).toFinset := by
  writes_sub
theorem s1f_keep (X : Valuation τ sig (Elt Ideal)) (b : Ref sig .tc) (hb : b ∉ s1fW) :
    StableHlo.after (hostOps1_6 (F := Ideal)) X (Proc.devRef .tc b) = X (Proc.devRef .tc b) :=
  StableHlo.after_of_writes_sub hostOps1_6 X s1f_writes hb

/-! ## The first stretch: the count, the divisor, the segment sums and the quotient -/

attribute [local irreducible] Host.gather Host.scatterAdd in
theorem s1_cnt (X : Valuation τ sig (Elt Ideal)) :
    StableHlo.after (hostOps1 (F := Ideal)) X (Proc.devRef .tc main_v15) = Cert.Spec.cntOf (F := Ideal) (X (Proc.devRef .tc main_v1)) := by
  unfold Cert.Spec.cntOf
  after_results_simp <;> rfl

attribute [local irreducible] Host.gather Host.scatterAdd in
theorem s1_cntMax (X : Valuation τ sig (Elt Ideal)) :
    StableHlo.after (hostOps1 (F := Ideal)) X (Proc.devRef .tc main_v24) = cntMax (X (Proc.devRef .tc main_v1)) := by
  unfold cntMax Cert.Spec.cntOf
  after_results_simp <;> rfl

attribute [local irreducible] Host.gather Host.scatterAdd in
theorem s1_pos (X : Valuation τ sig (Elt Ideal)) :
    StableHlo.after (hostOps1 (F := Ideal)) X (Proc.devRef .tc main_v26) = (cmpf .ogt (Cert.Spec.cntOf (F := Ideal) (X (Proc.devRef .tc main_v1))) (broadcastInDim S50000x1 ![] bcast_S_S50000x1 (constant (F := Ideal) S_ .f32 0x00000000#32))) := by
  unfold Cert.Spec.cntOf
  after_results_simp <;> rfl

attribute [local irreducible] Host.gather Host.scatterAdd in
theorem s1_quot (X : Valuation τ sig (Elt Ideal)) :
    StableHlo.after (hostOps1 (F := Ideal)) X (Proc.devRef .tc main_v28)
      = (Host.divf (segSum (X (Proc.devRef .tc main_v11)) (X (Proc.devRef .tc main_v1))) (broadcastInDim S50000x128 ![0, 1] bcast_S50000x1_S50000x128_0_1 (cntMax (X (Proc.devRef .tc main_v1))))) := by
  unfold segSum cntMax Cert.Spec.cntOf
  after_results_simp <;> rfl

attribute [local irreducible] Host.gather Host.scatterAdd in
theorem s1_sqSum (X : Valuation τ sig (Elt Ideal)) :
    StableHlo.after (hostOps1 (F := Ideal)) X (Proc.devRef .tc main_v22)
      = segSum (mulf (X (Proc.devRef .tc main_v11)) (X (Proc.devRef .tc main_v11))) (X (Proc.devRef .tc main_v1)) := by
  unfold segSum
  after_results_simp <;> rfl

theorem s1_zero (X : Valuation τ sig (Elt Ideal)) :
    StableHlo.after (hostOps1 (F := Ideal)) X (Proc.devRef .tc main_cst_6) = (constant (F := Ideal) S_ .f32 0x00000000#32) := by
  after_results_simp

/-! ## The second: the mean, selected where the node has an edge -/

theorem s1a_sel (X : Valuation τ sig (Elt Ideal)) :
    StableHlo.after (hostOps1_1 (F := Ideal)) X (Proc.devRef .tc main_v29)
      = select (broadcastInDim S50000x128 ![0, 1] bcast_S50000x1_S50000x128_0_1 (X (Proc.devRef .tc main_v26))) (X (Proc.devRef .tc main_v28)) (broadcastInDim S50000x128 ![] bcast_S_S50000x128 (X (Proc.devRef .tc main_cst_6))) := by
  after_results_simp <;> rfl

theorem g1_mean (X : Valuation τ sig (Elt Ideal)) :
    StableHlo.after (hostOps1_1 (F := Ideal)) (StableHlo.after (hostOps1 (F := Ideal)) X) (Proc.devRef .tc main_v29)
      = Cert.Spec.segMean (F := Ideal) (X (Proc.devRef .tc main_v11)) (X (Proc.devRef .tc main_v1)) := by
  rw [s1a_sel, s1_pos, s1_quot, s1_zero, segMean_eq]

/-! ## The third and fourth: the mean of the squares, likewise -/

theorem s1b_pos (X : Valuation τ sig (Elt Ideal)) :
    StableHlo.after (hostOps1_2 (F := Ideal)) X (Proc.devRef .tc main_v31) = (cmpf .ogt (X (Proc.devRef .tc main_v15)) (broadcastInDim S50000x1 ![] bcast_S_S50000x1 (constant (F := Ideal) S_ .f32 0x00000000#32))) := by
  after_results_simp <;> rfl

theorem s1b_quot (X : Valuation τ sig (Elt Ideal)) :
    StableHlo.after (hostOps1_2 (F := Ideal)) X (Proc.devRef .tc main_v33) = ((Host.divf (X (Proc.devRef .tc main_v22)) (broadcastInDim S50000x128 ![0, 1] bcast_S50000x1_S50000x128_0_1 (X (Proc.devRef .tc main_v24)))) : FVec Ideal S50000x128 .f32) := by
  after_results_simp <;> rfl

theorem s1b_zero (X : Valuation τ sig (Elt Ideal)) :
    StableHlo.after (hostOps1_2 (F := Ideal)) X (Proc.devRef .tc main_cst_8) = (constant (F := Ideal) S_ .f32 0x00000000#32) := by
  after_results_simp

theorem s1c_sel (X : Valuation τ sig (Elt Ideal)) :
    StableHlo.after (hostOps1_3 (F := Ideal)) X (Proc.devRef .tc main_v34)
      = select (broadcastInDim S50000x128 ![0, 1] bcast_S50000x1_S50000x128_0_1 (X (Proc.devRef .tc main_v31))) (X (Proc.devRef .tc main_v33)) (broadcastInDim S50000x128 ![] bcast_S_S50000x128 (X (Proc.devRef .tc main_cst_8))) := by
  after_results_simp <;> rfl

theorem g2_mean (X : Valuation τ sig (Elt Ideal)) (v : FVec Ideal Cert.ReferenceIdeal.S800000x128 .f32)
    (src : IVec Cert.ReferenceIdeal.S800000 32)
    (h15 : X (Proc.devRef .tc main_v15) = Cert.Spec.cntOf (F := Ideal) src) (h24 : X (Proc.devRef .tc main_v24) = cntMax src)
    (h22 : X (Proc.devRef .tc main_v22) = segSum v src) :
    StableHlo.after (hostOps1_3 (F := Ideal)) (StableHlo.after (hostOps1_2 (F := Ideal)) X) (Proc.devRef .tc main_v34) = Cert.Spec.segMean (F := Ideal) v src := by
  rw [s1c_sel, s1b_pos, s1b_quot, s1b_zero, h15, h24, h22, segMean_eq]

/-! ## The last three: the rectified variance, the standard deviation, the gathered mean -/

theorem s1d_var (X : Valuation τ sig (Elt Ideal)) :
    StableHlo.after (hostOps1_4 (F := Ideal)) X (Proc.devRef .tc main_v36)
      = (subf (X (Proc.devRef .tc main_v34)) (mulf (X (Proc.devRef .tc main_v29)) (X (Proc.devRef .tc main_v29))) : FVec Ideal S50000x128 .f32) := by
  after_results_simp <;> rfl

theorem s1d_slope (X : Valuation τ sig (Elt Ideal)) :
    StableHlo.after (hostOps1_4 (F := Ideal)) X (Proc.devRef .tc main_cst_9) = (constant (F := Ideal) S_ .f32 0x3C23D70A#32) := by
  after_results_simp

theorem s1e_leaky (X : Valuation τ sig (Elt Ideal)) (h9 : X (Proc.devRef .tc main_cst_9) = (constant (F := Ideal) S_ .f32 0x3C23D70A#32)) :
    StableHlo.after (hostOps1_5 (F := Ideal)) X (Proc.devRef .tc main_v37)
      = Cert.Spec.leaky (F := Ideal) S50000x128 bcast_S_S50000x128 (X (Proc.devRef .tc main_v36)) := by
  unfold Cert.Spec.leaky
  after_results_simp
  rw [h9]
  rfl

theorem s1f_std (X : Valuation τ sig (Elt Ideal)) :
    StableHlo.after (hostOps1_6 (F := Ideal)) X (Proc.devRef .tc main_v40)
      = Host.sqrt (addf (X (Proc.devRef .tc main_v37)) (broadcastInDim S50000x128 ![] bcast_S_S50000x128 (constant (F := Ideal) S_ .f32 0x358637BD#32))) := by
  after_results_simp <;> rfl

attribute [local irreducible] Host.gather Host.scatterAdd in
theorem s1f_meanSrc (X : Valuation τ sig (Elt Ideal)) :
    StableHlo.after (hostOps1_6 (F := Ideal)) X (Proc.devRef .tc main_v47)
      = Cert.Spec.meanSrc (F := Ideal) (X (Proc.devRef .tc main_v29)) (X (Proc.devRef .tc main_v1)) := by
  unfold Cert.Spec.meanSrc Cert.Spec.wrapCol
  after_results_simp <;> rfl

theorem g3_std (X : Valuation τ sig (Elt Ideal)) :
    StableHlo.after (hostOps1_6 (F := Ideal)) (StableHlo.after (hostOps1_5 (F := Ideal)) (StableHlo.after (hostOps1_4 (F := Ideal)) X)) (Proc.devRef .tc main_v40)
      = Cert.Spec.stdOf (F := Ideal) (X (Proc.devRef .tc main_v29)) (X (Proc.devRef .tc main_v34)) := by
  rw [s1f_std, s1e_leaky _ (s1d_slope X), s1d_var]
  rfl

theorem g3_meanSrc (X : Valuation τ sig (Elt Ideal)) :
    StableHlo.after (hostOps1_6 (F := Ideal)) (StableHlo.after (hostOps1_5 (F := Ideal)) (StableHlo.after (hostOps1_4 (F := Ideal)) X)) (Proc.devRef .tc main_v47)
      = Cert.Spec.meanSrc (F := Ideal) (X (Proc.devRef .tc main_v29)) (X (Proc.devRef .tc main_v1)) := by
  rw [s1f_meanSrc, s1e_keep _ main_v29 (by decide), s1d_keep _ main_v29 (by decide), s1e_keep _ main_v1 (by decide), s1d_keep _ main_v1 (by decide)]

/-! ## The seven together, at the buffers the rest of the program reads -/

/-- The number of edges leaving each node. -/
theorem mid_cnt (W : Valuation τ sig (Elt Ideal)) :
    mid W (Proc.devRef .tc main_v15) = Cert.Spec.cntOf (F := Ideal) (W (Proc.devRef .tc main_v1)) := by
  unfold mid
  rw [s1f_keep _ main_v15 (by decide), s1e_keep _ main_v15 (by decide), s1d_keep _ main_v15 (by decide), s1c_keep _ main_v15 (by decide), s1b_keep _ main_v15 (by decide), s1a_keep _ main_v15 (by decide)]
  exact s1_cnt W

/-- … and the divisor made of it. -/
theorem mid_cntMax (W : Valuation τ sig (Elt Ideal)) :
    mid W (Proc.devRef .tc main_v24) = cntMax (W (Proc.devRef .tc main_v1)) := by
  unfold mid
  rw [s1f_keep _ main_v24 (by decide), s1e_keep _ main_v24 (by decide), s1d_keep _ main_v24 (by decide), s1c_keep _ main_v24 (by decide), s1b_keep _ main_v24 (by decide), s1a_keep _ main_v24 (by decide)]
  exact s1_cntMax W

/-- The per-node mean of the messages. -/
theorem mid_mean (W : Valuation τ sig (Elt Ideal)) :
    mid W (Proc.devRef .tc main_v29)
      = Cert.Spec.segMean (F := Ideal) (W (Proc.devRef .tc main_v11)) (W (Proc.devRef .tc main_v1)) := by
  unfold mid
  rw [s1f_keep _ main_v29 (by decide), s1e_keep _ main_v29 (by decide), s1d_keep _ main_v29 (by decide), s1c_keep _ main_v29 (by decide), s1b_keep _ main_v29 (by decide)]
  exact g1_mean W

/-- The per-node mean of the squared messages, as the fourth stretch leaves it. -/
theorem mid_mean2 (W : Valuation τ sig (Elt Ideal)) :
    StableHlo.after (hostOps1_3 (F := Ideal)) (StableHlo.after (hostOps1_2 (F := Ideal)) (StableHlo.after (hostOps1_1 (F := Ideal)) (StableHlo.after (hostOps1 (F := Ideal)) W))) (Proc.devRef .tc main_v34)
      = Cert.Spec.segMean (F := Ideal) (mulf (W (Proc.devRef .tc main_v11)) (W (Proc.devRef .tc main_v11))) (W (Proc.devRef .tc main_v1)) :=
  g2_mean _ _ _
    (by rw [s1a_keep _ main_v15 (by decide)]; exact s1_cnt W)
    (by rw [s1a_keep _ main_v24 (by decide)]; exact s1_cntMax W)
    (by rw [s1a_keep _ main_v22 (by decide)]; exact s1_sqSum W)

/-- The per-node standard deviation: from the mean and the mean of the squares. -/
theorem mid_std (W : Valuation τ sig (Elt Ideal)) :
    mid W (Proc.devRef .tc main_v40)
      = Cert.Spec.stdOf (F := Ideal)
          (Cert.Spec.segMean (F := Ideal) (W (Proc.devRef .tc main_v11)) (W (Proc.devRef .tc main_v1)))
          (Cert.Spec.segMean (F := Ideal) (mulf (W (Proc.devRef .tc main_v11)) (W (Proc.devRef .tc main_v11))) (W (Proc.devRef .tc main_v1))) := by
  unfold mid
  rw [g3_std, mid_mean2, s1c_keep _ main_v29 (by decide), s1b_keep _ main_v29 (by decide), g1_mean]

/-- Each edge's source-node mean. -/
theorem mid_meanSrc (W : Valuation τ sig (Elt Ideal)) :
    mid W (Proc.devRef .tc main_v47)
      = Cert.Spec.meanSrc (F := Ideal)
          (Cert.Spec.segMean (F := Ideal) (W (Proc.devRef .tc main_v11)) (W (Proc.devRef .tc main_v1)))
          (W (Proc.devRef .tc main_v1)) := by
  unfold mid
  rw [g3_meanSrc, s1c_keep _ main_v29 (by decide), s1b_keep _ main_v29 (by decide), g1_mean,
    s1c_keep _ main_v1 (by decide), s1b_keep _ main_v1 (by decide), s1a_keep _ main_v1 (by decide), s1_keep _ main_v1 (by decide)]

end Cert.KernelIdeal.KerRun

end
-- ==== Proof.KerVal2.lean ====
/-
  The host operations between the second kernel and the third, as a map of buffer contents. From the cubed and
  fourth-power deviations, the edges' source nodes, the per-node edge counts and the standard deviation they compute
  the per-node skewness and kurtosis; every buffer they do not write is left as it was. Each of the five stretches is
  read by itself, at any contents before it; the readings are then chained.
-/
import proofs.«165283_j5420248727650_1_alg».proof.Proof.Gen.KernelIdeal.Frame
import proofs.«165283_j5420248727650_1_alg».proof.Proof.Spec
import proofs.«165283_j5420248727650_1_alg».proof.Proof.KerVal0
import Idealize.ShloMosaic.PureOps.Ideal

set_option maxRecDepth 16384

noncomputable section

namespace Cert.KernelIdeal.KerRun

open Idealize.ShloMosaic Idealize.ShloMosaic.TcCoe Idealize.SL.Sem Cert.KernelIdeal Cert.KernelIdeal.Gen

/-- Every operation of a literal list writes a reference of a given literal list: per operation, the one reference it
    writes is found in the list. -/
local macro "writes_sub" : tactic =>
  `(tactic| (simp only [List.Forall]
             repeat' apply And.intro
             all_goals
               (simp only [StableHlo.nullary_writes, StableHlo.unary_writes, StableHlo.binary_writes, StableHlo.ternary_writes,
                  StableHlo.reshape_writes, Finset.singleton_subset_iff, List.mem_toFinset]
                exact List.mem_map_of_mem (by decide))))

/-- The five stretches between the second kernel and the third, in order. -/
def post (W : Valuation τ sig (Elt Ideal)) : Valuation τ sig (Elt Ideal) :=
  StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W))))

/-- The references those operations write. -/
abbrev postW : List (Ref sig .tc) := [main_cst_13, main_v49, main_v50, main_v51, main_cst_14, main_v52, main_v53, main_v54, main_cst_15, main_v55, main_v56, main_v57, main_v58, main_cst_16, main_call3_v0, main_call3_v1, main_call3_v2, main_v59, main_cst_17, main_v60, main_v61, main_v62, main_v63, main_cst_18, main_call4_v0, main_call4_v1, main_call4_v2, main_v64, main_v65, main_v66, main_v67, main_v68, main_v69, main_v70]

theorem post_writes_hostOps2 : (hostOps2 : List (HloOp τ sig (Elt Ideal))).Forall fun op => op.writes ⊆ (postW.map (Proc.devRef (τ := τ) .tc)).toFinset := by
  writes_sub
theorem post_writes_hostOps2_1 : (hostOps2_1 : List (HloOp τ sig (Elt Ideal))).Forall fun op => op.writes ⊆ (postW.map (Proc.devRef (τ := τ) .tc)).toFinset := by
  writes_sub
theorem post_writes_hostOps2_2 : (hostOps2_2 : List (HloOp τ sig (Elt Ideal))).Forall fun op => op.writes ⊆ (postW.map (Proc.devRef (τ := τ) .tc)).toFinset := by
  writes_sub
theorem post_writes_hostOps2_3 : (hostOps2_3 : List (HloOp τ sig (Elt Ideal))).Forall fun op => op.writes ⊆ (postW.map (Proc.devRef (τ := τ) .tc)).toFinset := by
  writes_sub
theorem post_writes_hostOps2_4 : (hostOps2_4 : List (HloOp τ sig (Elt Ideal))).Forall fun op => op.writes ⊆ (postW.map (Proc.devRef (τ := τ) .tc)).toFinset := by
  writes_sub

/-- A buffer none of them writes keeps its contents: stretch by stretch. -/
theorem post_keep (W : Valuation τ sig (Elt Ideal)) (b : Ref sig .tc) (hb : b ∉ postW) :
    post W (Proc.devRef .tc b) = W (Proc.devRef .tc b) := by
  unfold post
  rw [StableHlo.after_of_writes_sub hostOps2_4 _ post_writes_hostOps2_4 hb,
    StableHlo.after_of_writes_sub hostOps2_3 _ post_writes_hostOps2_3 hb,
    StableHlo.after_of_writes_sub hostOps2_2 _ post_writes_hostOps2_2 hb,
    StableHlo.after_of_writes_sub hostOps2_1 _ post_writes_hostOps2_1 hb,
    StableHlo.after_of_writes_sub hostOps2 _ post_writes_hostOps2 hb]

/-! ## Stretch by stretch: what each writes, and that it keeps the rest -/

/-- The references stretch `hostOps2` writes, and that a buffer it does not write keeps its contents. -/
abbrev s2W : List (Ref sig .tc) := [main_cst_13, main_v49, main_v50, main_v51, main_cst_14, main_v52, main_v53, main_v54, main_cst_15, main_v55, main_v56, main_v57, main_v58, main_cst_16]
theorem s2_writes : (hostOps2 : List (HloOp τ sig (Elt Ideal))).Forall fun op => op.writes ⊆ (s2W.map (Proc.devRef (τ := τ) .tc)).toFinset := by
  writes_sub
theorem s2_keep (X : Valuation τ sig (Elt Ideal)) (b : Ref sig .tc) (hb : b ∉ s2W) :
    StableHlo.after (hostOps2 (F := Ideal)) X (Proc.devRef .tc b) = X (Proc.devRef .tc b) :=
  StableHlo.after_of_writes_sub hostOps2 X s2_writes hb

/-- The references stretch `hostOps2_1` writes, and that a buffer it does not write keeps its contents. -/
abbrev s2aW : List (Ref sig .tc) := [main_call3_v0, main_call3_v1, main_call3_v2, main_v59]
theorem s2a_writes : (hostOps2_1 : List (HloOp τ sig (Elt Ideal))).Forall fun op => op.writes ⊆ (s2aW.map (Proc.devRef (τ := τ) .tc)).toFinset := by
  writes_sub
theorem s2a_keep (X : Valuation τ sig (Elt Ideal)) (b : Ref sig .tc) (hb : b ∉ s2aW) :
    StableHlo.after (hostOps2_1 (F := Ideal)) X (Proc.devRef .tc b) = X (Proc.devRef .tc b) :=
  StableHlo.after_of_writes_sub hostOps2_1 X s2a_writes hb

/-- The references stretch `hostOps2_2` writes, and that a buffer it does not write keeps its contents. -/
abbrev s2bW : List (Ref sig .tc) := [main_cst_17, main_v60, main_v61, main_v62, main_v63, main_cst_18]
theorem s2b_writes : (hostOps2_2 : List (HloOp τ sig (Elt Ideal))).Forall fun op => op.writes ⊆ (s2bW.map (Proc.devRef (τ := τ) .tc)).toFinset := by
  writes_sub
theorem s2b_keep (X : Valuation τ sig (Elt Ideal)) (b : Ref sig .tc) (hb : b ∉ s2bW) :
    StableHlo.after (hostOps2_2 (F := Ideal)) X (Proc.devRef .tc b) = X (Proc.devRef .tc b) :=
  StableHlo.after_of_writes_sub hostOps2_2 X s2b_writes hb

/-- The references stretch `hostOps2_3` writes, and that a buffer it does not write keeps its contents. -/
abbrev s2cW : List (Ref sig .tc) := [main_call4_v0, main_call4_v1, main_call4_v2, main_v64]
theorem s2c_writes : (hostOps2_3 : List (HloOp τ sig (Elt Ideal))).Forall fun op => op.writes ⊆ (s2cW.map (Proc.devRef (τ := τ) .tc)).toFinset := by
  writes_sub
theorem s2c_keep (X : Valuation τ sig (Elt Ideal)) (b : Ref sig .tc) (hb : b ∉ s2cW) :
    StableHlo.after (hostOps2_3 (F := Ideal)) X (Proc.devRef .tc b) = X (Proc.devRef .tc b) :=
  StableHlo.after_of_writes_sub hostOps2_3 X s2c_writes hb

/-- The references stretch `hostOps2_4` writes, and that a buffer it does not write keeps its contents. -/
abbrev s2dW : List (Ref sig .tc) := [main_v65, main_v66, main_v67, main_v68, main_v69, main_v70]
theorem s2d_writes : (hostOps2_4 : List (HloOp τ sig (Elt Ideal))).Forall fun op => op.writes ⊆ (s2dW.map (Proc.devRef (τ := τ) .tc)).toFinset := by
  writes_sub
theorem s2d_keep (X : Valuation τ sig (Elt Ideal)) (b : Ref sig .tc) (hb : b ∉ s2dW) :
    StableHlo.after (hostOps2_4 (F := Ideal)) X (Proc.devRef .tc b) = X (Proc.devRef .tc b) :=
  StableHlo.after_of_writes_sub hostOps2_4 X s2d_writes hb

/-! ## The first two stretches: the mean cubed deviation, and the segment sum of the fourth powers -/

theorem s2_pos (X : Valuation τ sig (Elt Ideal)) :
    StableHlo.after (hostOps2 (F := Ideal)) X (Proc.devRef .tc main_v56) = (cmpf .ogt (X (Proc.devRef .tc main_v15)) (broadcastInDim S50000x1 ![] bcast_S_S50000x1 (constant (F := Ideal) S_ .f32 0x00000000#32))) := by
  after_results_simp <;> rfl

attribute [local irreducible] Host.gather Host.scatterAdd in
theorem s2_quot (X : Valuation τ sig (Elt Ideal)) :
    StableHlo.after (hostOps2 (F := Ideal)) X (Proc.devRef .tc main_v58)
      = (Host.divf (segSum (X (Proc.devRef .tc main_v48_0)) (X (Proc.devRef .tc main_v1))) (broadcastInDim S50000x128 ![0, 1] bcast_S50000x1_S50000x128_0_1 (X (Proc.devRef .tc main_v24)))) := by
  unfold segSum
  after_results_simp <;> rfl

attribute [local irreducible] Host.gather Host.scatterAdd in
theorem s2_sum4 (X : Valuation τ sig (Elt Ideal)) :
    StableHlo.after (hostOps2 (F := Ideal)) X (Proc.devRef .tc main_v54) = segSum (X (Proc.devRef .tc main_v48_1)) (X (Proc.devRef .tc main_v1)) := by
  unfold segSum
  after_results_simp <;> rfl

theorem s2_zero (X : Valuation τ sig (Elt Ideal)) :
    StableHlo.after (hostOps2 (F := Ideal)) X (Proc.devRef .tc main_cst_16) = (constant (F := Ideal) S_ .f32 0x00000000#32) := by
  after_results_simp

theorem s2a_sel (X : Valuation τ sig (Elt Ideal)) :
    StableHlo.after (hostOps2_1 (F := Ideal)) X (Proc.devRef .tc main_v59)
      = select (broadcastInDim S50000x128 ![0, 1] bcast_S50000x1_S50000x128_0_1 (X (Proc.devRef .tc main_v56))) (X (Proc.devRef .tc main_v58)) (broadcastInDim S50000x128 ![] bcast_S_S50000x128 (X (Proc.devRef .tc main_cst_16))) := by
  after_results_simp <;> rfl

theorem h1_mean3 (X : Valuation τ sig (Elt Ideal)) (src : IVec Cert.ReferenceIdeal.S800000 32)
    (h1 : X (Proc.devRef .tc main_v1) = src) (h15 : X (Proc.devRef .tc main_v15) = Cert.Spec.cntOf (F := Ideal) src)
    (h24 : X (Proc.devRef .tc main_v24) = cntMax src) :
    StableHlo.after (hostOps2_1 (F := Ideal)) (StableHlo.after (hostOps2 (F := Ideal)) X) (Proc.devRef .tc main_v59)
      = Cert.Spec.segMean (F := Ideal) (X (Proc.devRef .tc main_v48_0)) src := by
  rw [s2a_sel, s2_pos, s2_quot, s2_zero, h1, h15, h24, segMean_eq]

/-! ## The next two: the mean fourth-power deviation, from the count, the divisor and the segment sum -/

theorem s2b_pos (X : Valuation τ sig (Elt Ideal)) :
    StableHlo.after (hostOps2_2 (F := Ideal)) X (Proc.devRef .tc main_v61) = (cmpf .ogt (X (Proc.devRef .tc main_v15)) (broadcastInDim S50000x1 ![] bcast_S_S50000x1 (constant (F := Ideal) S_ .f32 0x00000000#32))) := by
  after_results_simp <;> rfl

theorem s2b_quot (X : Valuation τ sig (Elt Ideal)) :
    StableHlo.after (hostOps2_2 (F := Ideal)) X (Proc.devRef .tc main_v63) = ((Host.divf (X (Proc.devRef .tc main_v54)) (broadcastInDim S50000x128 ![0, 1] bcast_S50000x1_S50000x128_0_1 (X (Proc.devRef .tc main_v24)))) : FVec Ideal S50000x128 .f32) := by
  after_results_simp <;> rfl

theorem s2b_zero (X : Valuation τ sig (Elt Ideal)) :
    StableHlo.after (hostOps2_2 (F := Ideal)) X (Proc.devRef .tc main_cst_18) = (constant (F := Ideal) S_ .f32 0x00000000#32) := by
  after_results_simp

theorem s2c_sel (X : Valuation τ sig (Elt Ideal)) :
    StableHlo.after (hostOps2_3 (F := Ideal)) X (Proc.devRef .tc main_v64)
      = select (broadcastInDim S50000x128 ![0, 1] bcast_S50000x1_S50000x128_0_1 (X (Proc.devRef .tc main_v61))) (X (Proc.devRef .tc main_v63)) (broadcastInDim S50000x128 ![] bcast_S_S50000x128 (X (Proc.devRef .tc main_cst_18))) := by
  after_results_simp <;> rfl

theorem h2_mean4 (X : Valuation τ sig (Elt Ideal)) (v : FVec Ideal Cert.ReferenceIdeal.S800000x128 .f32)
    (src : IVec Cert.ReferenceIdeal.S800000 32)
    (h15 : X (Proc.devRef .tc main_v15) = Cert.Spec.cntOf (F := Ideal) src) (h24 : X (Proc.devRef .tc main_v24) = cntMax src)
    (h54 : X (Proc.devRef .tc main_v54) = segSum v src) :
    StableHlo.after (hostOps2_3 (F := Ideal)) (StableHlo.after (hostOps2_2 (F := Ideal)) X) (Proc.devRef .tc main_v64) = Cert.Spec.segMean (F := Ideal) v src := by
  rw [s2c_sel, s2b_pos, s2b_quot, s2b_zero, h15, h24, h54, segMean_eq]

/-! ## The last: the two quotients -/

theorem h3_skew (X : Valuation τ sig (Elt Ideal)) :
    StableHlo.after (hostOps2_4 (F := Ideal)) X (Proc.devRef .tc main_v67)
      = (Host.divf (X (Proc.devRef .tc main_v59)) (mulf (mulf (X (Proc.devRef .tc main_v40)) (X (Proc.devRef .tc main_v40))) (X (Proc.devRef .tc main_v40))) : FVec Ideal S50000x128 .f32) := by
  after_results_simp <;> rfl

theorem h3_kurt (X : Valuation τ sig (Elt Ideal)) :
    StableHlo.after (hostOps2_4 (F := Ideal)) X (Proc.devRef .tc main_v70)
      = (Host.divf (X (Proc.devRef .tc main_v64)) (mulf (mulf (X (Proc.devRef .tc main_v40)) (X (Proc.devRef .tc main_v40))) (mulf (X (Proc.devRef .tc main_v40)) (X (Proc.devRef .tc main_v40)))) : FVec Ideal S50000x128 .f32) := by
  after_results_simp <;> rfl

/-! ## The five together -/

/-- Skewness: where the count buffers hold the count of `src` and the divisor made of it, and the source buffer
    `src`, the segment mean of the cubed deviations over the cube of the standard deviation. -/
theorem post_skew (W : Valuation τ sig (Elt Ideal)) (src : IVec Cert.ReferenceIdeal.S800000 32)
    (h1 : W (Proc.devRef .tc main_v1) = src) (h15 : W (Proc.devRef .tc main_v15) = Cert.Spec.cntOf (F := Ideal) src)
    (h24 : W (Proc.devRef .tc main_v24) = cntMax src) :
    post W (Proc.devRef .tc main_v67)
      = Cert.Spec.skewOf (F := Ideal) (W (Proc.devRef .tc main_v48_0)) src (W (Proc.devRef .tc main_v40)) := by
  unfold post Cert.Spec.skewOf
  rw [h3_skew, s2c_keep _ main_v59 (by decide), s2b_keep _ main_v59 (by decide), h1_mean3 W src h1 h15 h24,
    s2c_keep _ main_v40 (by decide), s2b_keep _ main_v40 (by decide), s2a_keep _ main_v40 (by decide), s2_keep _ main_v40 (by decide)]

/-- Kurtosis, likewise: the segment mean of the fourth-power deviations over the fourth power of the standard
    deviation. -/
theorem post_kurt (W : Valuation τ sig (Elt Ideal)) (src : IVec Cert.ReferenceIdeal.S800000 32)
    (h1 : W (Proc.devRef .tc main_v1) = src) (h15 : W (Proc.devRef .tc main_v15) = Cert.Spec.cntOf (F := Ideal) src)
    (h24 : W (Proc.devRef .tc main_v24) = cntMax src) :
    post W (Proc.devRef .tc main_v70)
      = Cert.Spec.kurtOf (F := Ideal) (W (Proc.devRef .tc main_v48_1)) src (W (Proc.devRef .tc main_v40)) := by
  have e15 : StableHlo.after (hostOps2_1 (F := Ideal)) (StableHlo.after (hostOps2 (F := Ideal)) W) (Proc.devRef .tc main_v15) = Cert.Spec.cntOf (F := Ideal) src := by
    rw [s2a_keep _ main_v15 (by decide), s2_keep _ main_v15 (by decide)]; exact h15
  have e24 : StableHlo.after (hostOps2_1 (F := Ideal)) (StableHlo.after (hostOps2 (F := Ideal)) W) (Proc.devRef .tc main_v24) = cntMax src := by
    rw [s2a_keep _ main_v24 (by decide), s2_keep _ main_v24 (by decide)]; exact h24
  have e54 : StableHlo.after (hostOps2_1 (F := Ideal)) (StableHlo.after (hostOps2 (F := Ideal)) W) (Proc.devRef .tc main_v54) = segSum (W (Proc.devRef .tc main_v48_1)) src := by
    rw [s2a_keep _ main_v54 (by decide), s2_sum4, h1]
  unfold post Cert.Spec.kurtOf
  rw [h3_kurt, h2_mean4 _ _ src e15 e24 e54,
    s2c_keep _ main_v40 (by decide), s2b_keep _ main_v40 (by decide), s2a_keep _ main_v40 (by decide), s2_keep _ main_v40 (by decide)]

end Cert.KernelIdeal.KerRun

end
-- ==== Proof.KerVal3.lean ====
/-
  The result buffer at the last boundary of the run, read back through the boundaries to the launch memory. The
  last kernel's region leaves the normalised update of what it found; what it found are the launch arguments, which
  nothing writes, and the four per-node moments, which the host operations after the second kernel make of the
  deviations that kernel leaves, of the sources and of the counts; those in turn are made of the messages the first
  kernel leaves, which it makes of the gathered target features. Composed, this is the layer of the fourteen
  arguments. Each boundary is read at the few buffers the next stage reads, and never unfolded.
-/
import proofs.«165283_j5420248727650_1_alg».proof.Proof.Gen.KernelIdeal.Frame
import proofs.«165283_j5420248727650_1_alg».proof.Proof.Spec
import proofs.«165283_j5420248727650_1_alg».proof.Proof.Region0
import proofs.«165283_j5420248727650_1_alg».proof.Proof.Region1
import proofs.«165283_j5420248727650_1_alg».proof.Proof.Region2
import proofs.«165283_j5420248727650_1_alg».proof.Proof.KerVal0
import proofs.«165283_j5420248727650_1_alg».proof.Proof.KerVal1
import proofs.«165283_j5420248727650_1_alg».proof.Proof.KerVal2
import Idealize.ShloMosaic.PureOps.Ideal

set_option maxRecDepth 16384

noncomputable section

namespace Cert.KernelIdeal.KerRun

open Idealize.ShloMosaic Idealize.ShloMosaic.TcCoe Idealize.SL.Sem Cert.KernelIdeal Cert.KernelIdeal.Gen

section Boundaries

variable (m : (ℓ : Loc nD τ sig) → Buf (Elt Ideal) ℓ) (ρ : Dev nD → PrngReg) (c : Dev nD)

/-! ## The stages of the launch arguments -/

/-- Each edge's source node. -/
def src : IVec Cert.ReferenceIdeal.S800000 32 := Cert.Spec.srcOf (m ((c.tc : Thread nD τ).loc main_arg2))
/-- The edge messages. -/
def msg : FVec Ideal Cert.ReferenceIdeal.S800000x128 .f32 :=
  Cert.Spec.msgOf (F := Ideal) (Cert.Spec.tgtFeat (F := Ideal) (m ((c.tc : Thread nD τ).loc main_arg1)) (m ((c.tc : Thread nD τ).loc main_arg2))) (m ((c.tc : Thread nD τ).loc main_arg3))
    (m ((c.tc : Thread nD τ).loc main_arg5)) (m ((c.tc : Thread nD τ).loc main_arg6)) (m ((c.tc : Thread nD τ).loc main_arg7)) (m ((c.tc : Thread nD τ).loc main_arg8))
/-- Their per-node mean. -/
def mean : FVec Ideal Cert.ReferenceIdeal.S50000x128 .f32 := Cert.Spec.segMean (F := Ideal) (msg m c) (src m c)
/-- Their per-node standard deviation. -/
def std : FVec Ideal Cert.ReferenceIdeal.S50000x128 .f32 :=
  Cert.Spec.stdOf (F := Ideal) (mean m c) (Cert.Spec.segMean (F := Ideal) (mulf (msg m c) (msg m c)) (src m c))
/-- The cubed deviations from the source node's mean. -/
def dev3 : FVec Ideal Cert.ReferenceIdeal.S800000x128 .f32 :=
  Cert.Spec.dev3Of (F := Ideal) (msg m c) (Cert.Spec.meanSrc (F := Ideal) (mean m c) (src m c))
/-- Their fourth powers. -/
def dev4 : FVec Ideal Cert.ReferenceIdeal.S800000x128 .f32 :=
  Cert.Spec.dev4Of (F := Ideal) (msg m c) (Cert.Spec.meanSrc (F := Ideal) (mean m c) (src m c))

/-! ## Before the first kernel -/

theorem w1_keep (b : Ref sig .tc) (h0 : b ∉ preW) :
    W1 m ρ c (Proc.devRef .tc b) = m ((c.tc : Thread nD τ).loc b) :=
  (pre_keep (W0 m ρ c) b h0).trans rfl

theorem w1_src : W1 m ρ c (Proc.devRef .tc main_v1) = src m c := pre_src (W0 m ρ c)

theorem v1_tgtFeat : V1 m ρ c main_v10 = Cert.Spec.tgtFeat (F := Ideal) (m ((c.tc : Thread nD τ).loc main_arg1)) (m ((c.tc : Thread nD τ).loc main_arg2)) :=
  pre_tgtFeat (W0 m ρ c)

/-! ## After the first kernel -/

theorem w2_msg : W2 m ρ c (Proc.devRef .tc main_v11) = msg m c := by
  refine (W2_arr m ρ c 6).trans ((Regions.msg_eq (V1 m ρ) c).trans ?_)
  rw [v1_tgtFeat, show V1 m ρ c main_arg3 = (m ((c.tc : Thread nD τ).loc main_arg3)) from w1_keep m ρ c main_arg3 (by decide),
    show V1 m ρ c main_arg5 = (m ((c.tc : Thread nD τ).loc main_arg5)) from w1_keep m ρ c main_arg5 (by decide),
    show V1 m ρ c main_arg6 = (m ((c.tc : Thread nD τ).loc main_arg6)) from w1_keep m ρ c main_arg6 (by decide),
    show V1 m ρ c main_arg7 = (m ((c.tc : Thread nD τ).loc main_arg7)) from w1_keep m ρ c main_arg7 (by decide),
    show V1 m ρ c main_arg8 = (m ((c.tc : Thread nD τ).loc main_arg8)) from w1_keep m ρ c main_arg8 (by decide)]
  rfl

theorem w2_src : W2 m ρ c (Proc.devRef .tc main_v1) = src m c :=
  (W2_of_ne m ρ c main_v1 (by decide)).trans (w1_src m ρ c)

/-! ## Before the second kernel -/

theorem W9_eq : W9 m ρ c = mid (W2 m ρ c) := rfl

theorem w9_src : W9 m ρ c (Proc.devRef .tc main_v1) = src m c :=
  (mid_keep (W2 m ρ c) main_v1 (by decide)).trans (w2_src m ρ c)

theorem v9_msg : V9 m ρ c main_v11 = msg m c :=
  (mid_keep (W2 m ρ c) main_v11 (by decide)).trans (w2_msg m ρ c)

theorem w9_cnt : W9 m ρ c (Proc.devRef .tc main_v15) = Cert.Spec.cntOf (F := Ideal) (src m c) :=
  (mid_cnt (W2 m ρ c)).trans (by rw [w2_src])

theorem w9_cntMax : W9 m ρ c (Proc.devRef .tc main_v24) = cntMax (src m c) :=
  (mid_cntMax (W2 m ρ c)).trans (by rw [w2_src])

theorem w9_mean : W9 m ρ c (Proc.devRef .tc main_v29) = mean m c :=
  (mid_mean (W2 m ρ c)).trans (by rw [w2_src, w2_msg]; rfl)

theorem w9_std : W9 m ρ c (Proc.devRef .tc main_v40) = std m c :=
  (mid_std (W2 m ρ c)).trans (by rw [w2_src, w2_msg]; rfl)

theorem v9_meanSrc : V9 m ρ c main_v47 = Cert.Spec.meanSrc (F := Ideal) (mean m c) (src m c) :=
  (mid_meanSrc (W2 m ρ c)).trans (by rw [w2_src, w2_msg]; rfl)

/-! ## After the second kernel -/

theorem w10_dev3 : W10 m ρ c (Proc.devRef .tc main_v48_0) = dev3 m c := by
  refine (W10_arr m ρ c 2).trans ((Regions.dev3_eq (V9 m ρ) c).trans ?_)
  rw [v9_msg, v9_meanSrc]
  rfl

theorem w10_dev4 : W10 m ρ c (Proc.devRef .tc main_v48_1) = dev4 m c := by
  refine (W10_arr m ρ c 3).trans ((Regions.dev4_eq (V9 m ρ) c).trans ?_)
  rw [v9_msg, v9_meanSrc]
  rfl

theorem w10_src : W10 m ρ c (Proc.devRef .tc main_v1) = src m c :=
  (W10_of_ne m ρ c main_v1 (by decide)).trans (w9_src m ρ c)
theorem w10_cnt : W10 m ρ c (Proc.devRef .tc main_v15) = Cert.Spec.cntOf (F := Ideal) (src m c) :=
  (W10_of_ne m ρ c main_v15 (by decide)).trans (w9_cnt m ρ c)
theorem w10_cntMax : W10 m ρ c (Proc.devRef .tc main_v24) = cntMax (src m c) :=
  (W10_of_ne m ρ c main_v24 (by decide)).trans (w9_cntMax m ρ c)
theorem w10_mean : W10 m ρ c (Proc.devRef .tc main_v29) = mean m c :=
  (W10_of_ne m ρ c main_v29 (by decide)).trans (w9_mean m ρ c)
theorem w10_std : W10 m ρ c (Proc.devRef .tc main_v40) = std m c :=
  (W10_of_ne m ρ c main_v40 (by decide)).trans (w9_std m ρ c)

/-! ## Before the third kernel -/

theorem W15_eq : W15 m ρ c = post (W10 m ρ c) := rfl

/-- A buffer that no host operation writes and that is no array of the first two kernels holds, when the third
    kernel is entered, what it held at launch. -/
theorem v15_keep (b : Ref sig .tc) (h0 : b ∉ preW) (h1 : b ∉ midW) (h2 : b ∉ postW)
    (r0 : ∀ w, Pipeline.arrRef spec0 w ≠ b) (r1 : ∀ w, Pipeline.arrRef spec1 w ≠ b) :
    V15 m ρ c b = m ((c.tc : Thread nD τ).loc b) :=
  (post_keep (W10 m ρ c) b h2).trans ((W10_of_ne m ρ c b r1).trans ((mid_keep (W2 m ρ c) b h1).trans
    ((W2_of_ne m ρ c b r0).trans (w1_keep m ρ c b h0))))

/-- The arguments the third kernel reads. -/
theorem v15_arg0 : V15 m ρ c main_arg0 = m ((c.tc : Thread nD τ).loc main_arg0) :=
  v15_keep m ρ c main_arg0 (by decide) (by decide) (by decide) (by decide) (by decide)
theorem v15_arg4 : V15 m ρ c main_arg4 = m ((c.tc : Thread nD τ).loc main_arg4) :=
  v15_keep m ρ c main_arg4 (by decide) (by decide) (by decide) (by decide) (by decide)
theorem v15_arg9 : V15 m ρ c main_arg9 = m ((c.tc : Thread nD τ).loc main_arg9) :=
  v15_keep m ρ c main_arg9 (by decide) (by decide) (by decide) (by decide) (by decide)
theorem v15_arg10 : V15 m ρ c main_arg10 = m ((c.tc : Thread nD τ).loc main_arg10) :=
  v15_keep m ρ c main_arg10 (by decide) (by decide) (by decide) (by decide) (by decide)
theorem v15_arg11 : V15 m ρ c main_arg11 = m ((c.tc : Thread nD τ).loc main_arg11) :=
  v15_keep m ρ c main_arg11 (by decide) (by decide) (by decide) (by decide) (by decide)
theorem v15_arg12 : V15 m ρ c main_arg12 = m ((c.tc : Thread nD τ).loc main_arg12) :=
  v15_keep m ρ c main_arg12 (by decide) (by decide) (by decide) (by decide) (by decide)
theorem v15_arg13 : V15 m ρ c main_arg13 = m ((c.tc : Thread nD τ).loc main_arg13) :=
  v15_keep m ρ c main_arg13 (by decide) (by decide) (by decide) (by decide) (by decide)

theorem v15_mean : V15 m ρ c main_v29 = mean m c :=
  (post_keep (W10 m ρ c) main_v29 (by decide)).trans (w10_mean m ρ c)

theorem v15_std : V15 m ρ c main_v40 = std m c :=
  (post_keep (W10 m ρ c) main_v40 (by decide)).trans (w10_std m ρ c)

theorem v15_skew : V15 m ρ c main_v67 = Cert.Spec.skewOf (F := Ideal) (dev3 m c) (src m c) (std m c) :=
  (post_skew (W10 m ρ c) (src m c) (w10_src m ρ c) (w10_cnt m ρ c) (w10_cntMax m ρ c)).trans
    (by rw [w10_dev3, w10_std])

theorem v15_kurt : V15 m ρ c main_v70 = Cert.Spec.kurtOf (F := Ideal) (dev4 m c) (src m c) (std m c) :=
  (post_kurt (W10 m ρ c) (src m c) (w10_src m ρ c) (w10_cnt m ρ c) (w10_cntMax m ρ c)).trans
    (by rw [w10_dev4, w10_std])

/-! ## After the third kernel: the result -/

/-- The layer of the arguments, in the stages named above. -/
theorem layer_eq :
    Cert.Spec.layer (F := Ideal) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
      = Cert.Spec.normOf (F := Ideal)
          (Cert.Spec.updOf (F := Ideal) (m ((c.tc : Thread nD τ).loc main_arg0)) (mean m c) (std m c)
            (Cert.Spec.skewOf (F := Ideal) (dev3 m c) (src m c) (std m c))
            (Cert.Spec.kurtOf (F := Ideal) (dev4 m c) (src m c) (std m c))
            (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)))
          (m ((c.tc : Thread nD τ).loc main_arg13)) := rfl

/-- At the last boundary the result buffer holds the layer of the launch arguments. -/
theorem value :
    W16 m ρ c (Proc.devRef .tc main_v71)
      = Cert.Spec.layer (F := Ideal) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) := by
  refine (W16_arr m ρ c 11).trans ((Regions.out_eq (V15 m ρ) c).trans ?_)
  rw [layer_eq, v15_mean, v15_std, v15_skew, v15_kurt, v15_arg0, v15_arg4, v15_arg9, v15_arg10, v15_arg11, v15_arg12, v15_arg13]

end Boundaries

end Cert.KernelIdeal.KerRun

end
-- ==== Proof.KerRun.lean ====
/-
  The run of the whole program, read as the layer: every weakly fair execution from a memory with zero counters
  terminates, and in every final state each core's result buffer holds the message-passing layer of the fourteen
  argument arrays as launched, and the argument buffers are as launched. The run with the result buffer at the last
  boundary's contents, and that boundary read back through the kernels and the host operations to the launch memory.
-/
import proofs.«165283_j5420248727650_1_alg».proof.Proof.KerRaw
import proofs.«165283_j5420248727650_1_alg».proof.Proof.KerVal3
import Idealize.ShloMosaic.PureOps.Ideal

set_option maxRecDepth 16384

noncomputable section

namespace Cert.KernelIdeal.KerRun

open Idealize.ShloMosaic Idealize.ShloMosaic.TcCoe Idealize.SL.Sem Cert.KernelIdeal Cert.KernelIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
        = Cert.Spec.layer (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (value m ρ c), (h c).2⟩) (run_raw m ρ)

end Cert.KernelIdeal.KerRun

end
-- ==== Proof.RefOps0.lean ====
/-
  The plain program's statements 1 … 60 as a list of host operations: the two rows of the edge index, the gather of
  the target features, the edge perceptron (its leaky rectifier's seven operations written where it is called), and
  the segment sums of the messages and of their squares over the source nodes, with the count of edges per node and
  the first mean's selection (four operations written where the selection is called).
-/
import proofs.«165283_j5420248727650_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 69 operations, in order; a called function's operations stand at the call, over the call's own
    buffers. -/
abbrev ops0 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg1 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v10 main_arg3 main_v11 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v11 main_arg5 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S800000x128 ![0, 1] bcast_S1x128_S800000x128_0_1 : (⟨S1x128, .f32⟩ : BufTy).Contents (Elt F) → (⟨S800000x128, .f32⟩ : BufTy).Contents (Elt F)),
    binary main_v12 main_v14 main_v15 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x3C23D70A#32),
    TRef.nullary main_call0.cst (constant S_ .f32 0x00000000#32),
    TRef.unary main_call0.cst main_call0.v0 (broadcastInDim S800000x128 ![] bcast_S_S800000x128),
    TRef.binary (TRef.of (T := ⟨S800000x128, .f32⟩) main_v15) main_call0.v0 main_call0.v1 (cmpf .oge),
    TRef.unary (TRef.of (T := ⟨S_, .f32⟩) main_cst) main_call0.v2 id,
    TRef.unary main_call0.v2 main_call0.v3 (broadcastInDim S800000x128 ![] bcast_S_S800000x128),
    TRef.binary main_call0.v3 (TRef.of (T := ⟨S800000x128, .f32⟩) main_v15) main_call0.v4 mulf,
    TRef.ternary main_call0.v1 (TRef.of (T := ⟨S800000x128, .f32⟩) main_v15) main_call0.v4 main_call0.call0.v0 select,
    binary main_v16 main_arg7 main_v17 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v18 (broadcastInDim S1x128 ![1] bcast_S128_S1x128_1 : (⟨S128, .f32⟩ : BufTy).Contents (Elt F) → (⟨S1x128, .f32⟩ : BufTy).Contents (Elt F)),
    unary main_v18 main_v19 (broadcastInDim S800000x128 ![0, 1] bcast_S1x128_S800000x128_0_1 : (⟨S1x128, .f32⟩ : BufTy).Contents (Elt F) → (⟨S800000x128, .f32⟩ : BufTy).Contents (Elt F)),
    binary main_v17 main_v19 main_v20 (addf : (⟨S800000x128, .f32⟩ : BufTy).Contents (Elt F) → (⟨S800000x128, .f32⟩ : BufTy).Contents (Elt F) → (⟨S800000x128, .f32⟩ : BufTy).Contents (Elt F)),
    nullary main_cst_1 (constant S_ .f32 0x00000000#32),
    unary main_cst_1 main_v21 (broadcastInDim S50000x128 ![] bcast_S_S50000x128 : (⟨S_, .f32⟩ : BufTy).Contents (Elt F) → (⟨S50000x128, .f32⟩ : BufTy).Contents (Elt F)),
    unary main_v1 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_2 (constant S_ .f32 0x3F800000#32),
    unary main_cst_2 main_v24 (broadcastInDim S800000x1 ![] bcast_S_S800000x1 : (⟨S_, .f32⟩ : BufTy).Contents (Elt F) → (⟨S800000x1, .f32⟩ : BufTy).Contents (Elt F)),
    nullary main_cst_3 (constant S_ .f32 0x00000000#32),
    unary main_cst_3 main_v25 (broadcastInDim S50000x1 ![] bcast_S_S50000x1 : (⟨S_, .f32⟩ : BufTy).Contents (Elt F) → (⟨S50000x1, .f32⟩ : BufTy).Contents (Elt F)),
    unary main_v1 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_4 (constant S_ .f32 0x00000000#32),
    unary main_cst_4 main_v28 (broadcastInDim S50000x1 ![] bcast_S_S50000x1 : (⟨S_, .f32⟩ : BufTy).Contents (Elt F) → (⟨S50000x1, .f32⟩ : BufTy).Contents (Elt F)),
    binary main_v27 main_v28 main_v29 (cmpf .ogt : (⟨S50000x1, .f32⟩ : BufTy).Contents (Elt F) → (⟨S50000x1, .f32⟩ : BufTy).Contents (Elt F) → (⟨S50000x1, .i1⟩ : BufTy).Contents (Elt F)),
    nullary main_cst_5 (constant S_ .f32 0x3F800000#32),
    unary main_cst_5 main_v30 (broadcastInDim S50000x1 ![] bcast_S_S50000x1 : (⟨S_, .f32⟩ : BufTy).Contents (Elt F) → (⟨S50000x1, .f32⟩ : BufTy).Contents (Elt F)),
    binary main_v27 main_v30 main_v31 (maximumf : (⟨S50000x1, .f32⟩ : BufTy).Contents (Elt F) → (⟨S50000x1, .f32⟩ : BufTy).Contents (Elt F) → (⟨S50000x1, .f32⟩ : BufTy).Contents (Elt F)),
    unary main_v31 main_v32 (broadcastInDim S50000x128 ![0, 1] bcast_S50000x1_S50000x128_0_1 : (⟨S50000x1, .f32⟩ : BufTy).Contents (Elt F) → (⟨S50000x128, .f32⟩ : BufTy).Contents (Elt F)),
    binary main_v23 main_v32 main_v33 (Host.divf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    TRef.unary (TRef.of (T := ⟨S_, .f32⟩) main_cst_6) main_call1.v0 id,
    TRef.unary (TRef.of (T := ⟨S50000x1, .i1⟩) main_v29) main_call1.v1 (broadcastInDim S50000x128 ![0, 1] bcast_S50000x1_S50000x128_0_1),
    TRef.unary main_call1.v0 main_call1.v2 (broadcastInDim S50000x128 ![] bcast_S_S50000x128),
    TRef.ternary main_call1.v1 (TRef.of (T := ⟨S50000x128, .f32⟩) main_v33) main_call1.v2 main_call1.v3 select,
    binary main_v20 main_v20 main_v35 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v36 (broadcastInDim S50000x128 ![] bcast_S_S50000x128 : (⟨S_, .f32⟩ : BufTy).Contents (Elt F) → (⟨S50000x128, .f32⟩ : BufTy).Contents (Elt F)),
    unary main_v1 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_8 (constant S_ .f32 0x3F800000#32),
    unary main_cst_8 main_v39 (broadcastInDim S800000x1 ![] bcast_S_S800000x1 : (⟨S_, .f32⟩ : BufTy).Contents (Elt F) → (⟨S800000x1, .f32⟩ : BufTy).Contents (Elt F)),
    nullary main_cst_9 (constant S_ .f32 0x00000000#32),
    unary main_cst_9 main_v40 (broadcastInDim S50000x1 ![] bcast_S_S50000x1 : (⟨S_, .f32⟩ : BufTy).Contents (Elt F) → (⟨S50000x1, .f32⟩ : BufTy).Contents (Elt F)),
    unary main_v1 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_10 (constant S_ .f32 0x00000000#32),
    unary main_cst_10 main_v43 (broadcastInDim S50000x1 ![] bcast_S_S50000x1 : (⟨S_, .f32⟩ : BufTy).Contents (Elt F) → (⟨S50000x1, .f32⟩ : BufTy).Contents (Elt F)),
    binary main_v42 main_v43 main_v44 (cmpf .ogt : (⟨S50000x1, .f32⟩ : BufTy).Contents (Elt F) → (⟨S50000x1, .f32⟩ : BufTy).Contents (Elt F) → (⟨S50000x1, .i1⟩ : BufTy).Contents (Elt F)),
    nullary main_cst_11 (constant S_ .f32 0x3F800000#32),
    unary main_cst_11 main_v45 (broadcastInDim S50000x1 ![] bcast_S_S50000x1 : (⟨S_, .f32⟩ : BufTy).Contents (Elt F) → (⟨S50000x1, .f32⟩ : BufTy).Contents (Elt F)) ]

set_option maxRecDepth 8192 in
set_option maxHeartbeats 4000000 in
/-- The window is that straight line: the called functions unfold at their calls, and sequencing reassociates by
    computation. -/
theorem main_part0_eq (c : Dev nD) : main_part0 (F := F) c = seq ops0 := rfl

set_option maxRecDepth 8192 in
/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., binary_bufs_sub ..,
    nullary_bufs_sub .., unary_bufs_sub .., unary_bufs_sub .., unary_bufs_sub .., ternary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub ..⟩

end Cert.ReferenceIdeal.RefRun

end
-- ==== Proof.RefVal0.lean ====
/-
  What the first window of the plain program leaves, from any contents `W` of the device's buffers: the source
  row of the edge index, the edge messages, their per-source-node mean, the segment sum of their squares, the count
  of edges per node with its positivity mask and the broadcast one it is compared with — each as the layer's stage
  function of the arguments — and the arguments themselves, which the window does not write.
-/
import proofs.«165283_j5420248727650_1_alg».proof.Proof.RefOps0
import proofs.«165283_j5420248727650_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd

/-- The buffers the window's operations write. -/
abbrev ops0_W : List (Ref sig .tc) :=
  [main_v0, main_v1, main_v2, main_v3, main_c, main_v4, main_v5, main_c_0, main_v6, main_v7, main_v8, main_v9, main_v10, main_v11, main_v12, main_v13, main_v14, main_v15, main_cst, main_call0.cst.ref, main_call0.v0.ref, main_call0.v1.ref, main_call0.v2.ref, main_call0.v3.ref, main_call0.v4.ref, main_call0.call0.v0.ref, main_v17, main_v18, main_v19, main_v20, main_cst_1, main_v21, main_v22, main_v23, main_cst_2, main_v24, main_cst_3, main_v25, main_v26, main_v27, main_cst_4, main_v28, main_v29, main_cst_5, main_v30, main_v31, main_v32, main_v33, main_cst_6, main_call1.v0.ref, main_call1.v1.ref, main_call1.v2.ref, main_call1.v3.ref, main_v35, main_cst_7, main_v36, main_v37, main_v38, main_cst_8, main_v39, main_cst_9, main_v40, main_v41, main_v42, main_cst_10, main_v43, main_v44, main_cst_11, main_v45]

set_option maxRecDepth 8192 in
/-- Each operation writes one of those. -/
theorem ops0_writes : (ops0 : List (HloOp τ sig (Elt F))).Forall fun op =>
    op.writes ⊆ (ops0_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- What the device's buffers hold after the window, from contents `W`. -/
def win0 (W : Valuation τ sig (Elt F)) : Valuation τ sig (Elt F) := after ops0 W

/-- A buffer the window does not write keeps its contents through it. -/
theorem win0_keep (W : Valuation τ sig (Elt F)) (r : Ref sig .tc) (h : r ∉ ops0_W) :
    win0 W (Proc.devRef .tc r) = W (Proc.devRef .tc r) :=
  after_of_writes_sub ops0 _ ops0_writes h

theorem win0_arg0 (W : Valuation τ sig (Elt F)) :
    win0 W (no_index (Proc.devRef .tc main_arg0)) = W (Proc.devRef .tc main_arg0) := win0_keep W main_arg0 (by decide)
theorem win0_arg1 (W : Valuation τ sig (Elt F)) :
    win0 W (no_index (Proc.devRef .tc main_arg1)) = W (Proc.devRef .tc main_arg1) := win0_keep W main_arg1 (by decide)
theorem win0_arg2 (W : Valuation τ sig (Elt F)) :
    win0 W (no_index (Proc.devRef .tc main_arg2)) = W (Proc.devRef .tc main_arg2) := win0_keep W main_arg2 (by decide)
theorem win0_arg3 (W : Valuation τ sig (Elt F)) :
    win0 W (no_index (Proc.devRef .tc main_arg3)) = W (Proc.devRef .tc main_arg3) := win0_keep W main_arg3 (by decide)
theorem win0_arg4 (W : Valuation τ sig (Elt F)) :
    win0 W (no_index (Proc.devRef .tc main_arg4)) = W (Proc.devRef .tc main_arg4) := win0_keep W main_arg4 (by decide)
theorem win0_arg5 (W : Valuation τ sig (Elt F)) :
    win0 W (no_index (Proc.devRef .tc main_arg5)) = W (Proc.devRef .tc main_arg5) := win0_keep W main_arg5 (by decide)
theorem win0_arg6 (W : Valuation τ sig (Elt F)) :
    win0 W (no_index (Proc.devRef .tc main_arg6)) = W (Proc.devRef .tc main_arg6) := win0_keep W main_arg6 (by decide)
theorem win0_arg7 (W : Valuation τ sig (Elt F)) :
    win0 W (no_index (Proc.devRef .tc main_arg7)) = W (Proc.devRef .tc main_arg7) := win0_keep W main_arg7 (by decide)
theorem win0_arg8 (W : Valuation τ sig (Elt F)) :
    win0 W (no_index (Proc.devRef .tc main_arg8)) = W (Proc.devRef .tc main_arg8) := win0_keep W main_arg8 (by decide)
theorem win0_arg9 (W : Valuation τ sig (Elt F)) :
    win0 W (no_index (Proc.devRef .tc main_arg9)) = W (Proc.devRef .tc main_arg9) := win0_keep W main_arg9 (by decide)
theorem win0_arg10 (W : Valuation τ sig (Elt F)) :
    win0 W (no_index (Proc.devRef .tc main_arg10)) = W (Proc.devRef .tc main_arg10) := win0_keep W main_arg10 (by decide)
theorem win0_arg11 (W : Valuation τ sig (Elt F)) :
    win0 W (no_index (Proc.devRef .tc main_arg11)) = W (Proc.devRef .tc main_arg11) := win0_keep W main_arg11 (by decide)
theorem win0_arg12 (W : Valuation τ sig (Elt F)) :
    win0 W (no_index (Proc.devRef .tc main_arg12)) = W (Proc.devRef .tc main_arg12) := win0_keep W main_arg12 (by decide)
theorem win0_arg13 (W : Valuation τ sig (Elt F)) :
    win0 W (no_index (Proc.devRef .tc main_arg13)) = W (Proc.devRef .tc main_arg13) := win0_keep W main_arg13 (by decide)

set_option maxRecDepth 8192 in
set_option maxHeartbeats 2000000 in
/-- Row 0 of the edge index, flattened. -/
theorem win0_v1 (W : Valuation τ sig (Elt F)) :
    win0 W (no_index (Proc.devRef .tc main_v1)) = Spec.srcOf (W (Proc.devRef .tc main_arg2)) := by
  unfold win0
  after_results_simp
  all_goals rfl

set_option maxRecDepth 8192 in
set_option maxHeartbeats 2000000 in
/-- The edge messages: the perceptron over the gathered target features and the edge attributes. -/
theorem win0_v20 (W : Valuation τ sig (Elt F)) :
    win0 W (no_index (Proc.devRef .tc main_v20)) = (Spec.msgOf (Spec.tgtFeat (W (Proc.devRef .tc main_arg1)) (W (Proc.devRef .tc main_arg2))) (W (Proc.devRef .tc main_arg3)) (W (Proc.devRef .tc main_arg5)) (W (Proc.devRef .tc main_arg6)) (W (Proc.devRef .tc main_arg7)) (W (Proc.devRef .tc main_arg8))) := by
  unfold win0
  after_results_simp
  all_goals rfl

set_option maxRecDepth 8192 in
set_option maxHeartbeats 2000000 in
/-- The per-source-node mean of the messages. -/
theorem win0_v34 (W : Valuation τ sig (Elt F)) :
    win0 W (no_index (Proc.devRef .tc main_v34)) = Spec.segMean (Spec.msgOf (Spec.tgtFeat (W (Proc.devRef .tc main_arg1)) (W (Proc.devRef .tc main_arg2))) (W (Proc.devRef .tc main_arg3)) (W (Proc.devRef .tc main_arg5)) (W (Proc.devRef .tc main_arg6)) (W (Proc.devRef .tc main_arg7)) (W (Proc.devRef .tc main_arg8))) (Spec.srcOf (W (Proc.devRef .tc main_arg2))) := by
  unfold win0
  after_results_simp
  all_goals rfl

set_option maxRecDepth 8192 in
set_option maxHeartbeats 2000000 in
/-- The segment sum of the squared messages. -/
theorem win0_v38 (W : Valuation τ sig (Elt F)) :
    win0 W (no_index (Proc.devRef .tc main_v38))
      = Host.scatterAdd scatter_S50000x128_S800000x1_S800000x128_1_0_0_1 (broadcastInDim S50000x128 ![] bcast_S_S50000x128 (constant S_ .f32 0x00000000#32)) (broadcastInDim S800000x1 ![0] bcast_S800000_S800000x1_0 (Spec.srcOf (W (Proc.devRef .tc main_arg2)))) (mulf (Spec.msgOf (Spec.tgtFeat (W (Proc.devRef .tc main_arg1)) (W (Proc.devRef .tc main_arg2))) (W (Proc.devRef .tc main_arg3)) (W (Proc.devRef .tc main_arg5)) (W (Proc.devRef .tc main_arg6)) (W (Proc.devRef .tc main_arg7)) (W (Proc.devRef .tc main_arg8))) (Spec.msgOf (Spec.tgtFeat (W (Proc.devRef .tc main_arg1)) (W (Proc.devRef .tc main_arg2))) (W (Proc.devRef .tc main_arg3)) (W (Proc.devRef .tc main_arg5)) (W (Proc.devRef .tc main_arg6)) (W (Proc.devRef .tc main_arg7)) (W (Proc.devRef .tc main_arg8)))) := by
  unfold win0
  after_results_simp
  all_goals rfl

set_option maxRecDepth 8192 in
set_option maxHeartbeats 2000000 in
/-- The count of edges per source node (computed a second time by the program: the same term). -/
theorem win0_v42 (W : Valuation τ sig (Elt F)) :
    win0 W (no_index (Proc.devRef .tc main_v42)) = Spec.cntOf (F := F) (Spec.srcOf (W (Proc.devRef .tc main_arg2))) := by
  unfold win0
  after_results_simp
  all_goals rfl

set_option maxRecDepth 8192 in
set_option maxHeartbeats 2000000 in
/-- Where that count is positive. -/
theorem win0_v44 (W : Valuation τ sig (Elt F)) :
    win0 W (no_index (Proc.devRef .tc main_v44)) = cmpf .ogt (Spec.cntOf (F := F) (Spec.srcOf (W (Proc.devRef .tc main_arg2)))) (broadcastInDim S50000x1 ![] bcast_S_S50000x1 (constant S_ .f32 0x00000000#32)) := by
  unfold win0
  after_results_simp
  all_goals rfl

set_option maxRecDepth 8192 in
set_option maxHeartbeats 2000000 in
/-- The column of ones the count is clamped below by. -/
theorem win0_v45 (W : Valuation τ sig (Elt F)) :
    win0 W (no_index (Proc.devRef .tc main_v45)) = (broadcastInDim S50000x1 ![] bcast_S_S50000x1 (constant S_ .f32 0x3F800000#32)) := by
  unfold win0
  after_results_simp
  all_goals rfl

end Cert.ReferenceIdeal.RefRun

end
-- ==== Proof.RefOps1.lean ====
/-
  The plain program's statements 61 … 120 as a list of host operations: the mean of squares, the standard deviation
  (its leaky rectifier written where it is called), the gather of each edge's source-node mean, the deviation's cube
  and fourth power, their segment sums with the count recomputed, and the skewness.
-/
import proofs.«165283_j5420248727650_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 72 operations, in order; a called function's operations stand at the call, over the call's own
    buffers. -/
abbrev ops1 : List (HloOp τ sig (Elt F)) :=
  [ binary main_v42 main_v45 main_v46 (maximumf : (⟨S50000x1, .f32⟩ : BufTy).Contents (Elt F) → (⟨S50000x1, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v38 main_v47 main_v48 (Host.divf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    TRef.unary (TRef.of (T := ⟨S_, .f32⟩) main_cst_12) main_call2.v0 id,
    TRef.unary (TRef.of (T := ⟨S50000x1, .i1⟩) main_v44) main_call2.v1 (broadcastInDim S50000x128 ![0, 1] bcast_S50000x1_S50000x128_0_1),
    TRef.unary main_call2.v0 main_call2.v2 (broadcastInDim S50000x128 ![] bcast_S_S50000x128),
    TRef.ternary main_call2.v1 (TRef.of (T := ⟨S50000x128, .f32⟩) main_v48) main_call2.v2 main_call2.v3 select,
    binary main_v34 main_v34 main_v50 (mulf : (⟨S50000x128, .f32⟩ : BufTy).Contents (Elt F) → (⟨S50000x128, .f32⟩ : BufTy).Contents (Elt F) → (⟨S50000x128, .f32⟩ : BufTy).Contents (Elt F)),
    binary main_v49 main_v50 main_v51 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call3.cst (constant S_ .f32 0x00000000#32),
    TRef.unary main_call3.cst main_call3.v0 (broadcastInDim S50000x128 ![] bcast_S_S50000x128),
    TRef.binary (TRef.of (T := ⟨S50000x128, .f32⟩) main_v51) main_call3.v0 main_call3.v1 (cmpf .oge),
    TRef.unary (TRef.of (T := ⟨S_, .f32⟩) main_cst_13) main_call3.v2 id,
    TRef.unary main_call3.v2 main_call3.v3 (broadcastInDim S50000x128 ![] bcast_S_S50000x128),
    TRef.binary main_call3.v3 (TRef.of (T := ⟨S50000x128, .f32⟩) main_v51) main_call3.v4 mulf,
    TRef.ternary main_call3.v1 (TRef.of (T := ⟨S50000x128, .f32⟩) main_v51) main_call3.v4 main_call3.call0.v0 select,
    nullary main_cst_14 (constant S_ .f32 0x358637BD#32),
    unary main_cst_14 main_v53 (broadcastInDim S50000x128 ![] bcast_S_S50000x128 : (⟨S_, .f32⟩ : BufTy).Contents (Elt F) → (⟨S50000x128, .f32⟩ : BufTy).Contents (Elt F)),
    binary main_v52 main_v53 main_v54 (addf : (⟨S50000x128, .f32⟩ : BufTy).Contents (Elt F) → (⟨S50000x128, .f32⟩ : BufTy).Contents (Elt F) → (⟨S50000x128, .f32⟩ : BufTy).Contents (Elt F)),
    unary main_v54 main_v55 (Host.sqrt : (⟨S50000x128, .f32⟩ : BufTy).Contents (Elt F) → (⟨S50000x128, .f32⟩ : BufTy).Contents (Elt F)),
    nullary main_c_15 (constantI S_ 32 0#32),
    unary main_c_15 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v34 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v20 main_v62 main_v63 (subf : (⟨S800000x128, .f32⟩ : BufTy).Contents (Elt F) → (⟨S800000x128, .f32⟩ : BufTy).Contents (Elt F) → (⟨S800000x128, .f32⟩ : BufTy).Contents (Elt F)),
    binary main_v63 main_v63 main_v64 (mulf : (⟨S800000x128, .f32⟩ : BufTy).Contents (Elt F) → (⟨S800000x128, .f32⟩ : BufTy).Contents (Elt F) → (⟨S800000x128, .f32⟩ : BufTy).Contents (Elt F)),
    binary main_v64 main_v63 main_v65 (mulf : (⟨S800000x128, .f32⟩ : BufTy).Contents (Elt F) → (⟨S800000x128, .f32⟩ : BufTy).Contents (Elt F) → (⟨S800000x128, .f32⟩ : BufTy).Contents (Elt F)),
    nullary main_cst_17 (constant S_ .f32 0x00000000#32),
    unary main_cst_17 main_v66 (broadcastInDim S50000x128 ![] bcast_S_S50000x128 : (⟨S_, .f32⟩ : BufTy).Contents (Elt F) → (⟨S50000x128, .f32⟩ : BufTy).Contents (Elt F)),
    unary main_v1 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_18 (constant S_ .f32 0x3F800000#32),
    unary main_cst_18 main_v69 (broadcastInDim S800000x1 ![] bcast_S_S800000x1 : (⟨S_, .f32⟩ : BufTy).Contents (Elt F) → (⟨S800000x1, .f32⟩ : BufTy).Contents (Elt F)),
    nullary main_cst_19 (constant S_ .f32 0x00000000#32),
    unary main_cst_19 main_v70 (broadcastInDim S50000x1 ![] bcast_S_S50000x1 : (⟨S_, .f32⟩ : BufTy).Contents (Elt F) → (⟨S50000x1, .f32⟩ : BufTy).Contents (Elt F)),
    unary main_v1 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_20 (constant S_ .f32 0x00000000#32),
    unary main_cst_20 main_v73 (broadcastInDim S50000x1 ![] bcast_S_S50000x1 : (⟨S_, .f32⟩ : BufTy).Contents (Elt F) → (⟨S50000x1, .f32⟩ : BufTy).Contents (Elt F)),
    binary main_v72 main_v73 main_v74 (cmpf .ogt : (⟨S50000x1, .f32⟩ : BufTy).Contents (Elt F) → (⟨S50000x1, .f32⟩ : BufTy).Contents (Elt F) → (⟨S50000x1, .i1⟩ : BufTy).Contents (Elt F)),
    nullary main_cst_21 (constant S_ .f32 0x3F800000#32),
    unary main_cst_21 main_v75 (broadcastInDim S50000x1 ![] bcast_S_S50000x1 : (⟨S_, .f32⟩ : BufTy).Contents (Elt F) → (⟨S50000x1, .f32⟩ : BufTy).Contents (Elt F)),
    binary main_v72 main_v75 main_v76 (maximumf : (⟨S50000x1, .f32⟩ : BufTy).Contents (Elt F) → (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v68 main_v77 main_v78 (Host.divf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    TRef.unary (TRef.of (T := ⟨S_, .f32⟩) main_cst_22) main_call4.v0 id,
    TRef.unary (TRef.of (T := ⟨S50000x1, .i1⟩) main_v74) main_call4.v1 (broadcastInDim S50000x128 ![0, 1] bcast_S50000x1_S50000x128_0_1),
    TRef.unary main_call4.v0 main_call4.v2 (broadcastInDim S50000x128 ![] bcast_S_S50000x128),
    TRef.ternary main_call4.v1 (TRef.of (T := ⟨S50000x128, .f32⟩) main_v78) main_call4.v2 main_call4.v3 select,
    binary main_v55 main_v55 main_v80 (mulf : (⟨S50000x128, .f32⟩ : BufTy).Contents (Elt F) → (⟨S50000x128, .f32⟩ : BufTy).Contents (Elt F) → (⟨S50000x128, .f32⟩ : BufTy).Contents (Elt F)),
    binary main_v80 main_v55 main_v81 (mulf : (⟨S50000x128, .f32⟩ : BufTy).Contents (Elt F) → (⟨S50000x128, .f32⟩ : BufTy).Contents (Elt F) → (⟨S50000x128, .f32⟩ : BufTy).Contents (Elt F)),
    binary main_v79 main_v81 main_v82 (Host.divf : (⟨S50000x128, .f32⟩ : BufTy).Contents (Elt F) → (⟨S50000x128, .f32⟩ : BufTy).Contents (Elt F) → (⟨S50000x128, .f32⟩ : BufTy).Contents (Elt F)),
    binary main_v63 main_v63 main_v83 (mulf : (⟨S800000x128, .f32⟩ : BufTy).Contents (Elt F) → (⟨S800000x128, .f32⟩ : BufTy).Contents (Elt F) → (⟨S800000x128, .f32⟩ : BufTy).Contents (Elt F)),
    binary main_v83 main_v83 main_v84 (mulf : (⟨S800000x128, .f32⟩ : BufTy).Contents (Elt F) → (⟨S800000x128, .f32⟩ : BufTy).Contents (Elt F) → (⟨S800000x128, .f32⟩ : BufTy).Contents (Elt F)),
    nullary main_cst_23 (constant S_ .f32 0x00000000#32),
    unary main_cst_23 main_v85 (broadcastInDim S50000x128 ![] bcast_S_S50000x128 : (⟨S_, .f32⟩ : BufTy).Contents (Elt F) → (⟨S50000x128, .f32⟩ : BufTy).Contents (Elt F)),
    unary main_v1 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_24 (constant S_ .f32 0x3F800000#32),
    unary main_cst_24 main_v88 (broadcastInDim S800000x1 ![] bcast_S_S800000x1 : (⟨S_, .f32⟩ : BufTy).Contents (Elt F) → (⟨S800000x1, .f32⟩ : BufTy).Contents (Elt F)),
    nullary main_cst_25 (constant S_ .f32 0x00000000#32),
    unary main_cst_25 main_v89 (broadcastInDim S50000x1 ![] bcast_S_S50000x1 : (⟨S_, .f32⟩ : BufTy).Contents (Elt F) → (⟨S50000x1, .f32⟩ : BufTy).Contents (Elt F)),
    unary main_v1 main_v90 (broadcastInDim S800000x1 ![0] bcast_S800000_S800000x1_0 : (⟨S800000, .i32⟩ : BufTy).Contents (Elt F) → (⟨S800000x1, .i32⟩ : BufTy).Contents (Elt F)),
    ternary main_v89 main_v90 main_v88 main_v91 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)) ]

set_option maxRecDepth 8192 in
set_option maxHeartbeats 4000000 in
/-- The window is that straight line: the called functions unfold at their calls, and sequencing reassociates by
    computation. -/
theorem main_part1_eq (c : Dev nD) : main_part1 (F := F) c = seq ops1 := rfl

set_option maxRecDepth 8192 in
/-- Every operation of the window touches TensorCore references only. -/
theorem ops1_sub : (ops1 : List (HloOp τ sig (Elt F))).Forall fun op => op.bufs ⊆ tcRefs τ sig :=
  ⟨binary_bufs_sub .., unary_bufs_sub .., binary_bufs_sub .., nullary_bufs_sub .., unary_bufs_sub .., unary_bufs_sub ..,
    unary_bufs_sub .., ternary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., binary_bufs_sub .., nullary_bufs_sub .., unary_bufs_sub ..,
    unary_bufs_sub .., unary_bufs_sub .., ternary_bufs_sub .., binary_bufs_sub .., binary_bufs_sub .., binary_bufs_sub ..,
    binary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..⟩

end Cert.ReferenceIdeal.RefRun

end
-- ==== Proof.RefVal1.lean ====
/-
  What the second window of the plain program leaves, from any contents `W` of the device's buffers: the standard
  deviation (from the mean and the pieces of the mean of squares the first window left), the skewness, the segment sum
  of the fourth-power deviations and the count of edges per node — each as the layer's stage function of what the
  window reads — and the mean and the arguments, which the window does not write.
-/
import proofs.«165283_j5420248727650_1_alg».proof.Proof.RefOps1
import proofs.«165283_j5420248727650_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd

/-- The buffers the window's operations write. -/
abbrev ops1_W : List (Ref sig .tc) :=
  [main_v46, main_v47, main_v48, main_cst_12, main_call2.v0.ref, main_call2.v1.ref, main_call2.v2.ref, main_call2.v3.ref, main_v50, main_v51, main_cst_13, main_call3.cst.ref, main_call3.v0.ref, main_call3.v1.ref, main_call3.v2.ref, main_call3.v3.ref, main_call3.v4.ref, main_call3.call0.v0.ref, main_cst_14, main_v53, main_v54, main_v55, main_c_15, main_v56, main_v57, main_c_16, main_v58, main_v59, main_v60, main_v61, main_v62, main_v63, main_v64, main_v65, main_cst_17, main_v66, main_v67, main_v68, main_cst_18, main_v69, main_cst_19, main_v70, main_v71, main_v72, main_cst_20, main_v73, main_v74, main_cst_21, main_v75, main_v76, main_v77, main_v78, main_cst_22, main_call4.v0.ref, main_call4.v1.ref, main_call4.v2.ref, main_call4.v3.ref, main_v80, main_v81, main_v82, main_v83, main_v84, main_cst_23, main_v85, main_v86, main_v87, main_cst_24, main_v88, main_cst_25, main_v89, main_v90, main_v91]

set_option maxRecDepth 8192 in
/-- Each operation writes one of those. -/
theorem ops1_writes : (ops1 : List (HloOp τ sig (Elt F))).Forall fun op =>
    op.writes ⊆ (ops1_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- What the device's buffers hold after the window, from contents `W`. -/
def win1 (W : Valuation τ sig (Elt F)) : Valuation τ sig (Elt F) := after ops1 W

/-- A buffer the window does not write keeps its contents through it. -/
theorem win1_keep (W : Valuation τ sig (Elt F)) (r : Ref sig .tc) (h : r ∉ ops1_W) :
    win1 W (Proc.devRef .tc r) = W (Proc.devRef .tc r) :=
  after_of_writes_sub ops1 _ ops1_writes h

theorem win1_arg0 (W : Valuation τ sig (Elt F)) :
    win1 W (no_index (Proc.devRef .tc main_arg0)) = W (Proc.devRef .tc main_arg0) := win1_keep W main_arg0 (by decide)
theorem win1_arg1 (W : Valuation τ sig (Elt F)) :
    win1 W (no_index (Proc.devRef .tc main_arg1)) = W (Proc.devRef .tc main_arg1) := win1_keep W main_arg1 (by decide)
theorem win1_arg2 (W : Valuation τ sig (Elt F)) :
    win1 W (no_index (Proc.devRef .tc main_arg2)) = W (Proc.devRef .tc main_arg2) := win1_keep W main_arg2 (by decide)
theorem win1_arg3 (W : Valuation τ sig (Elt F)) :
    win1 W (no_index (Proc.devRef .tc main_arg3)) = W (Proc.devRef .tc main_arg3) := win1_keep W main_arg3 (by decide)
theorem win1_arg4 (W : Valuation τ sig (Elt F)) :
    win1 W (no_index (Proc.devRef .tc main_arg4)) = W (Proc.devRef .tc main_arg4) := win1_keep W main_arg4 (by decide)
theorem win1_arg5 (W : Valuation τ sig (Elt F)) :
    win1 W (no_index (Proc.devRef .tc main_arg5)) = W (Proc.devRef .tc main_arg5) := win1_keep W main_arg5 (by decide)
theorem win1_arg6 (W : Valuation τ sig (Elt F)) :
    win1 W (no_index (Proc.devRef .tc main_arg6)) = W (Proc.devRef .tc main_arg6) := win1_keep W main_arg6 (by decide)
theorem win1_arg7 (W : Valuation τ sig (Elt F)) :
    win1 W (no_index (Proc.devRef .tc main_arg7)) = W (Proc.devRef .tc main_arg7) := win1_keep W main_arg7 (by decide)
theorem win1_arg8 (W : Valuation τ sig (Elt F)) :
    win1 W (no_index (Proc.devRef .tc main_arg8)) = W (Proc.devRef .tc main_arg8) := win1_keep W main_arg8 (by decide)
theorem win1_arg9 (W : Valuation τ sig (Elt F)) :
    win1 W (no_index (Proc.devRef .tc main_arg9)) = W (Proc.devRef .tc main_arg9) := win1_keep W main_arg9 (by decide)
theorem win1_arg10 (W : Valuation τ sig (Elt F)) :
    win1 W (no_index (Proc.devRef .tc main_arg10)) = W (Proc.devRef .tc main_arg10) := win1_keep W main_arg10 (by decide)
theorem win1_arg11 (W : Valuation τ sig (Elt F)) :
    win1 W (no_index (Proc.devRef .tc main_arg11)) = W (Proc.devRef .tc main_arg11) := win1_keep W main_arg11 (by decide)
theorem win1_arg12 (W : Valuation τ sig (Elt F)) :
    win1 W (no_index (Proc.devRef .tc main_arg12)) = W (Proc.devRef .tc main_arg12) := win1_keep W main_arg12 (by decide)
theorem win1_arg13 (W : Valuation τ sig (Elt F)) :
    win1 W (no_index (Proc.devRef .tc main_arg13)) = W (Proc.devRef .tc main_arg13) := win1_keep W main_arg13 (by decide)
theorem win1_v34 (W : Valuation τ sig (Elt F)) :
    win1 W (no_index (Proc.devRef .tc main_v34)) = W (Proc.devRef .tc main_v34) := win1_keep W main_v34 (by decide)

set_option maxRecDepth 8192 in
set_option maxHeartbeats 2000000 in
/-- The standard deviation; the mean of squares is selected and divided here from the first window's pieces. -/
theorem win1_v55 (W : Valuation τ sig (Elt F)) :
    win1 W (no_index (Proc.devRef .tc main_v55)) = (Spec.stdOf (W (Proc.devRef .tc main_v34)) (select (broadcastInDim S50000x128 ![0, 1] bcast_S50000x1_S50000x128_0_1 (W (Proc.devRef .tc main_v44))) (Host.divf (W (Proc.devRef .tc main_v38)) (broadcastInDim S50000x128 ![0, 1] bcast_S50000x1_S50000x128_0_1 (maximumf (W (Proc.devRef .tc main_v42)) (W (Proc.devRef .tc main_v45))))) (broadcastInDim S50000x128 ![] bcast_S_S50000x128 (constant S_ .f32 0x00000000#32)))) := by
  unfold win1
  after_results_simp
  all_goals rfl

set_option maxRecDepth 8192 in
set_option maxHeartbeats 2000000 in
/-- The skewness: the mean cubed deviation from the gathered source-node mean, over the cubed standard deviation. -/
theorem win1_v82 (W : Valuation τ sig (Elt F)) :
    win1 W (no_index (Proc.devRef .tc main_v82))
      = Spec.skewOf (Spec.dev3Of (W (Proc.devRef .tc main_v20)) (Spec.meanSrc (W (Proc.devRef .tc main_v34)) (W (Proc.devRef .tc main_v1)))) (W (Proc.devRef .tc main_v1)) (Spec.stdOf (W (Proc.devRef .tc main_v34)) (select (broadcastInDim S50000x128 ![0, 1] bcast_S50000x1_S50000x128_0_1 (W (Proc.devRef .tc main_v44))) (Host.divf (W (Proc.devRef .tc main_v38)) (broadcastInDim S50000x128 ![0, 1] bcast_S50000x1_S50000x128_0_1 (maximumf (W (Proc.devRef .tc main_v42)) (W (Proc.devRef .tc main_v45))))) (broadcastInDim S50000x128 ![] bcast_S_S50000x128 (constant S_ .f32 0x00000000#32)))) := by
  unfold win1
  after_results_simp
  all_goals rfl

set_option maxRecDepth 8192 in
set_option maxHeartbeats 2000000 in
/-- The segment sum of the fourth-power deviations. -/
theorem win1_v87 (W : Valuation τ sig (Elt F)) :
    win1 W (no_index (Proc.devRef .tc main_v87))
      = Host.scatterAdd scatter_S50000x128_S800000x1_S800000x128_1_0_0_1 (broadcastInDim S50000x128 ![] bcast_S_S50000x128 (constant S_ .f32 0x00000000#32)) (broadcastInDim S800000x1 ![0] bcast_S800000_S800000x1_0 (W (Proc.devRef .tc main_v1))) (Spec.dev4Of (W (Proc.devRef .tc main_v20)) (Spec.meanSrc (W (Proc.devRef .tc main_v34)) (W (Proc.devRef .tc main_v1)))) := by
  unfold win1
  after_results_simp
  all_goals rfl

set_option maxRecDepth 8192 in
set_option maxHeartbeats 2000000 in
/-- The count of edges per source node, computed once more. -/
theorem win1_v91 (W : Valuation τ sig (Elt F)) :
    win1 W (no_index (Proc.devRef .tc main_v91)) = Spec.cntOf (F := F) (W (Proc.devRef .tc main_v1)) := by
  unfold win1
  after_results_simp
  all_goals rfl

end Cert.ReferenceIdeal.RefRun

end
-- ==== Proof.RefOps2.lean ====
/-
  The plain program's statements 121 … 162 as a list of host operations: the kurtosis, the 704-column concatenation,
  the node perceptron (its leaky rectifier written where it is called) and the root-mean-square normalisation.
-/
import proofs.«165283_j5420248727650_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 50 operations, in order; a called function's operations stand at the call, over the call's own
    buffers. -/
abbrev ops2 : List (HloOp τ sig (Elt F)) :=
  [ nullary main_cst_26 (constant S_ .f32 0x00000000#32),
    unary main_cst_26 main_v92 (broadcastInDim S50000x1 ![] bcast_S_S50000x1 : (⟨S_, .f32⟩ : BufTy).Contents (Elt F) → (⟨S50000x1, .f32⟩ : BufTy).Contents (Elt F)),
    binary main_v91 main_v92 main_v93 (cmpf .ogt : (⟨S50000x1, .f32⟩ : BufTy).Contents (Elt F) → (⟨S50000x1, .f32⟩ : BufTy).Contents (Elt F) → (⟨S50000x1, .i1⟩ : BufTy).Contents (Elt F)),
    nullary main_cst_27 (constant S_ .f32 0x3F800000#32),
    unary main_cst_27 main_v94 (broadcastInDim S50000x1 ![] bcast_S_S50000x1 : (⟨S_, .f32⟩ : BufTy).Contents (Elt F) → (⟨S50000x1, .f32⟩ : BufTy).Contents (Elt F)),
    binary main_v91 main_v94 main_v95 (maximumf : (⟨S50000x1, .f32⟩ : BufTy).Contents (Elt F) → (⟨S50000x1, .f32⟩ : BufTy).Contents (Elt F) → (⟨S50000x1, .f32⟩ : BufTy).Contents (Elt F)),
    unary main_v95 main_v96 (broadcastInDim S50000x128 ![0, 1] bcast_S50000x1_S50000x128_0_1 : (⟨S50000x1, .f32⟩ : BufTy).Contents (Elt F) → (⟨S50000x128, .f32⟩ : BufTy).Contents (Elt F)),
    binary main_v87 main_v96 main_v97 (Host.divf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    TRef.unary (TRef.of (T := ⟨S_, .f32⟩) main_cst_28) main_call5.v0 id,
    TRef.unary (TRef.of (T := ⟨S50000x1, .i1⟩) main_v93) main_call5.v1 (broadcastInDim S50000x128 ![0, 1] bcast_S50000x1_S50000x128_0_1),
    TRef.unary main_call5.v0 main_call5.v2 (broadcastInDim S50000x128 ![] bcast_S_S50000x128),
    TRef.ternary main_call5.v1 (TRef.of (T := ⟨S50000x128, .f32⟩) main_v97) main_call5.v2 main_call5.v3 select,
    binary main_v55 main_v55 main_v99 (mulf : (⟨S50000x128, .f32⟩ : BufTy).Contents (Elt F) → (⟨S50000x128, .f32⟩ : BufTy).Contents (Elt F) → (⟨S50000x128, .f32⟩ : BufTy).Contents (Elt F)),
    binary main_v99 main_v99 main_v100 (mulf : (⟨S50000x128, .f32⟩ : BufTy).Contents (Elt F) → (⟨S50000x128, .f32⟩ : BufTy).Contents (Elt F) → (⟨S50000x128, .f32⟩ : BufTy).Contents (Elt F)),
    binary main_v98 main_v100 main_v101 (Host.divf : (⟨S50000x128, .f32⟩ : BufTy).Contents (Elt F) → (⟨S50000x128, .f32⟩ : BufTy).Contents (Elt F) → (⟨S50000x128, .f32⟩ : BufTy).Contents (Elt F)),
    unary main_arg4 main_v102 (broadcastInDim S50000x64 ![1] bcast_S64_S50000x64_1 : (⟨S64, .f32⟩ : BufTy).Contents (Elt F) → (⟨S50000x64, .f32⟩ : BufTy).Contents (Elt F)),
    nary ![main_arg0, main_v34, main_v55, main_v82, main_v101, main_v102] main_v103 (fun u => concatenate S50000x704 1 [⟨S50000x128, u 0⟩, ⟨S50000x128, u 1⟩, ⟨S50000x128, u 2⟩, ⟨S50000x128, u 3⟩, ⟨S50000x128, u 4⟩, ⟨S50000x64, u 5⟩] concatenates_S50000x128_S50000x128_S50000x128_S50000x128_S50000x128_S50000x64_S50000x704_d1),
    binary main_v103 main_arg9 main_v104 ((fun l r => Host.dotGeneral dot_S50000x704_S704x704_S50000x704_1_0_0_1_n_n none l r) : (⟨S50000x704, .f32⟩ : BufTy).Contents (Elt F) → (⟨S704x704, .f32⟩ : BufTy).Contents (Elt F) → (⟨S50000x704, .f32⟩ : BufTy).Contents (Elt F)),
    unary main_arg10 main_v105 (broadcastInDim S1x704 ![1] bcast_S704_S1x704_1 : (⟨S704, .f32⟩ : BufTy).Contents (Elt F) → (⟨S1x704, .f32⟩ : BufTy).Contents (Elt F)),
    unary main_v105 main_v106 (broadcastInDim S50000x704 ![0, 1] bcast_S1x704_S50000x704_0_1 : (⟨S1x704, .f32⟩ : BufTy).Contents (Elt F) → (⟨S50000x704, .f32⟩ : BufTy).Contents (Elt F)),
    binary main_v104 main_v106 main_v107 (addf : (⟨S50000x704, .f32⟩ : BufTy).Contents (Elt F) → (⟨S50000x704, .f32⟩ : BufTy).Contents (Elt F) → (⟨S50000x704, .f32⟩ : BufTy).Contents (Elt F)),
    nullary main_cst_29 (constant S_ .f32 0x3C23D70A#32),
    TRef.nullary main_call6.cst (constant S_ .f32 0x00000000#32),
    TRef.unary main_call6.cst main_call6.v0 (broadcastInDim S50000x704 ![] bcast_S_S50000x704),
    TRef.binary (TRef.of (T := ⟨S50000x704, .f32⟩) main_v107) main_call6.v0 main_call6.v1 (cmpf .oge),
    TRef.unary (TRef.of (T := ⟨S_, .f32⟩) main_cst_29) main_call6.v2 id,
    TRef.unary main_call6.v2 main_call6.v3 (broadcastInDim S50000x704 ![] bcast_S_S50000x704),
    TRef.binary main_call6.v3 (TRef.of (T := ⟨S50000x704, .f32⟩) main_v107) main_call6.v4 mulf,
    TRef.ternary main_call6.v1 (TRef.of (T := ⟨S50000x704, .f32⟩) main_v107) main_call6.v4 main_call6.call0.v0 select,
    binary main_v108 main_arg11 main_v109 ((fun l r => Host.dotGeneral dot_S50000x704_S704x128_S50000x128_1_0_0_1_n_n none l r) : (⟨S50000x704, .f32⟩ : BufTy).Contents (Elt F) → (⟨S704x128, .f32⟩ : BufTy).Contents (Elt F) → (⟨S50000x128, .f32⟩ : BufTy).Contents (Elt F)),
    unary main_arg12 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)),
    binary main_v112 main_v112 main_v113 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    binary main_v113 main_cst_30 main_v114 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v114 main_v115 (broadcastInDim S50000x1 ![0] bcast_S50000_S50000x1_0 : (⟨S50000, .f32⟩ : BufTy).Contents (Elt F) → (⟨S50000x1, .f32⟩ : BufTy).Contents (Elt F)),
    nullary main_cst_31 (constant S_ .f32 0x43000000#32),
    unary main_cst_31 main_v116 (broadcastInDim S50000x1 ![] bcast_S_S50000x1 : (⟨S_, .f32⟩ : BufTy).Contents (Elt F) → (⟨S50000x1, .f32⟩ : BufTy).Contents (Elt F)),
    binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    nullary main_cst_32 (constant S_ .f32 0x34000000#32),
    unary main_cst_32 main_v118 (broadcastInDim S50000x1 ![] bcast_S_S50000x1 : (⟨S_, .f32⟩ : BufTy).Contents (Elt F) → (⟨S50000x1, .f32⟩ : BufTy).Contents (Elt F)),
    binary main_v117 main_v118 main_v119 (addf : (⟨S50000x1, .f32⟩ : BufTy).Contents (Elt F) → (⟨S50000x1, .f32⟩ : BufTy).Contents (Elt F) → (⟨S50000x1, .f32⟩ : BufTy).Contents (Elt F)),
    unary main_v119 main_v120 (Host.rsqrt : (⟨S50000x1, .f32⟩ : BufTy).Contents (Elt F) → (⟨S50000x1, .f32⟩ : BufTy).Contents (Elt F)),
    unary main_v120 main_v121 (broadcastInDim S50000x128 ![0, 1] bcast_S50000x1_S50000x128_0_1 : (⟨S50000x1, .f32⟩ : BufTy).Contents (Elt F) → (⟨S50000x128, .f32⟩ : BufTy).Contents (Elt F)),
    binary main_v112 main_v121 main_v122 (mulf : (⟨S50000x128, .f32⟩ : BufTy).Contents (Elt F) → (⟨S50000x128, .f32⟩ : BufTy).Contents (Elt F) → (⟨S50000x128, .f32⟩ : BufTy).Contents (Elt F)),
    unary main_arg13 main_v123 (broadcastInDim S1x128 ![1] bcast_S128_S1x128_1 : (⟨S128, .f32⟩ : BufTy).Contents (Elt F) → (⟨S1x128, .f32⟩ : BufTy).Contents (Elt F)),
    unary main_v123 main_v124 (broadcastInDim S50000x128 ![0, 1] bcast_S1x128_S50000x128_0_1 : (⟨S1x128, .f32⟩ : BufTy).Contents (Elt F) → (⟨S50000x128, .f32⟩ : BufTy).Contents (Elt F)),
    binary main_v122 main_v124 main_v125 (mulf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The window is that straight line: the called functions unfold at their calls, and sequencing reassociates by
    computation. -/
theorem main_part2_eq (c : Dev nD) : main_part2 (F := F) c = seq ops2 := rfl

set_option maxRecDepth 8192 in
/-- Every operation of the window touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., binary_bufs_sub .., nullary_bufs_sub .., unary_bufs_sub .., unary_bufs_sub .., unary_bufs_sub ..,
    ternary_bufs_sub .., binary_bufs_sub .., binary_bufs_sub .., binary_bufs_sub .., unary_bufs_sub .., nary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub ..⟩

end Cert.ReferenceIdeal.RefRun

end
-- ==== Proof.RefVal2.lean ====
/-
  What the third window of the plain program leaves, from any contents `W` of the device's buffers: the result,
  as the normalised node update of the node features, the four moments (the kurtosis selected and divided here from
  the second window's pieces) and the global vector — and the arguments, which the window does not write.
-/
import proofs.«165283_j5420248727650_1_alg».proof.Proof.RefOps2
import proofs.«165283_j5420248727650_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd

/-- The buffers the window's operations write. -/
abbrev ops2_W : List (Ref sig .tc) :=
  [main_cst_26, main_v92, main_v93, main_cst_27, main_v94, main_v95, main_v96, main_v97, main_cst_28, main_call5.v0.ref, main_call5.v1.ref, main_call5.v2.ref, main_call5.v3.ref, main_v99, main_v100, main_v101, main_v102, main_v103, main_v104, main_v105, main_v106, main_v107, main_cst_29, main_call6.cst.ref, main_call6.v0.ref, main_call6.v1.ref, main_call6.v2.ref, main_call6.v3.ref, main_call6.v4.ref, main_call6.call0.v0.ref, main_v109, main_v110, main_v111, main_v112, main_v113, main_cst_30, main_v114, main_v115, main_cst_31, main_v116, main_v117, main_cst_32, main_v118, main_v119, main_v120, main_v121, main_v122, main_v123, main_v124, main_v125]

set_option maxRecDepth 8192 in
/-- Each operation writes one of those. -/
theorem ops2_writes : (ops2 : List (HloOp τ sig (Elt F))).Forall fun op =>
    op.writes ⊆ (ops2_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- What the device's buffers hold after the window, from contents `W`. -/
def win2 (W : Valuation τ sig (Elt F)) : Valuation τ sig (Elt F) := after ops2 W

/-- A buffer the window does not write keeps its contents through it. -/
theorem win2_keep (W : Valuation τ sig (Elt F)) (r : Ref sig .tc) (h : r ∉ ops2_W) :
    win2 W (Proc.devRef .tc r) = W (Proc.devRef .tc r) :=
  after_of_writes_sub ops2 _ ops2_writes h

theorem win2_arg0 (W : Valuation τ sig (Elt F)) :
    win2 W (no_index (Proc.devRef .tc main_arg0)) = W (Proc.devRef .tc main_arg0) := win2_keep W main_arg0 (by decide)
theorem win2_arg1 (W : Valuation τ sig (Elt F)) :
    win2 W (no_index (Proc.devRef .tc main_arg1)) = W (Proc.devRef .tc main_arg1) := win2_keep W main_arg1 (by decide)
theorem win2_arg2 (W : Valuation τ sig (Elt F)) :
    win2 W (no_index (Proc.devRef .tc main_arg2)) = W (Proc.devRef .tc main_arg2) := win2_keep W main_arg2 (by decide)
theorem win2_arg3 (W : Valuation τ sig (Elt F)) :
    win2 W (no_index (Proc.devRef .tc main_arg3)) = W (Proc.devRef .tc main_arg3) := win2_keep W main_arg3 (by decide)
theorem win2_arg4 (W : Valuation τ sig (Elt F)) :
    win2 W (no_index (Proc.devRef .tc main_arg4)) = W (Proc.devRef .tc main_arg4) := win2_keep W main_arg4 (by decide)
theorem win2_arg5 (W : Valuation τ sig (Elt F)) :
    win2 W (no_index (Proc.devRef .tc main_arg5)) = W (Proc.devRef .tc main_arg5) := win2_keep W main_arg5 (by decide)
theorem win2_arg6 (W : Valuation τ sig (Elt F)) :
    win2 W (no_index (Proc.devRef .tc main_arg6)) = W (Proc.devRef .tc main_arg6) := win2_keep W main_arg6 (by decide)
theorem win2_arg7 (W : Valuation τ sig (Elt F)) :
    win2 W (no_index (Proc.devRef .tc main_arg7)) = W (Proc.devRef .tc main_arg7) := win2_keep W main_arg7 (by decide)
theorem win2_arg8 (W : Valuation τ sig (Elt F)) :
    win2 W (no_index (Proc.devRef .tc main_arg8)) = W (Proc.devRef .tc main_arg8) := win2_keep W main_arg8 (by decide)
theorem win2_arg9 (W : Valuation τ sig (Elt F)) :
    win2 W (no_index (Proc.devRef .tc main_arg9)) = W (Proc.devRef .tc main_arg9) := win2_keep W main_arg9 (by decide)
theorem win2_arg10 (W : Valuation τ sig (Elt F)) :
    win2 W (no_index (Proc.devRef .tc main_arg10)) = W (Proc.devRef .tc main_arg10) := win2_keep W main_arg10 (by decide)
theorem win2_arg11 (W : Valuation τ sig (Elt F)) :
    win2 W (no_index (Proc.devRef .tc main_arg11)) = W (Proc.devRef .tc main_arg11) := win2_keep W main_arg11 (by decide)
theorem win2_arg12 (W : Valuation τ sig (Elt F)) :
    win2 W (no_index (Proc.devRef .tc main_arg12)) = W (Proc.devRef .tc main_arg12) := win2_keep W main_arg12 (by decide)
theorem win2_arg13 (W : Valuation τ sig (Elt F)) :
    win2 W (no_index (Proc.devRef .tc main_arg13)) = W (Proc.devRef .tc main_arg13) := win2_keep W main_arg13 (by decide)

set_option maxRecDepth 8192 in
set_option maxHeartbeats 2000000 in
/-- The result: the node perceptron over the 704-column concatenation, each row normalised by its root mean square.
    The concatenation reads its six operands at their own references; the two the window itself writes (the kurtosis
    and the broadcast global vector) are then read off in a second pass. -/
theorem win2_v125 (W : Valuation τ sig (Elt F)) :
    win2 W (no_index (Proc.devRef .tc main_v125))
      = Spec.normOf (Spec.updOf (W (Proc.devRef .tc main_arg0)) (W (Proc.devRef .tc main_v34)) (W (Proc.devRef .tc main_v55)) (W (Proc.devRef .tc main_v82)) (Host.divf (select (broadcastInDim S50000x128 ![0, 1] bcast_S50000x1_S50000x128_0_1 (cmpf .ogt (W (Proc.devRef .tc main_v91)) (broadcastInDim S50000x1 ![] bcast_S_S50000x1 (constant S_ .f32 0x00000000#32)))) (Host.divf (W (Proc.devRef .tc main_v87)) (broadcastInDim S50000x128 ![0, 1] bcast_S50000x1_S50000x128_0_1 (maximumf (W (Proc.devRef .tc main_v91)) (broadcastInDim S50000x1 ![] bcast_S_S50000x1 (constant S_ .f32 0x3F800000#32))))) (broadcastInDim S50000x128 ![] bcast_S_S50000x128 (constant S_ .f32 0x00000000#32))) (mulf (mulf (W (Proc.devRef .tc main_v55)) (W (Proc.devRef .tc main_v55))) (mulf (W (Proc.devRef .tc main_v55)) (W (Proc.devRef .tc main_v55)))))
          (W (Proc.devRef .tc main_arg4)) (W (Proc.devRef .tc main_arg9)) (W (Proc.devRef .tc main_arg10)) (W (Proc.devRef .tc main_arg11)) (W (Proc.devRef .tc main_arg12))) (W (Proc.devRef .tc main_arg13)) := by
  unfold win2
  after_results_simp
  try dsimp only [Matrix.cons_val]
  try after_results_simp
  all_goals rfl

end Cert.ReferenceIdeal.RefRun

end
-- ==== Proof.RefRun.lean ====
/-
  The plain program's run, read back as the layer. Its operations are the three windows' lists in a row; what its
  result buffer holds at the end is the third window's reading of what the second leaves of what the first leaves of
  the launch contents, and composing the three readings gives the layer's stage functions nested exactly as the
  layer nests them: the four segment means share one count term, the mean of squares and the mean fourth-power
  deviation are selected and divided one window after their segment sums. Every argument is written by no window.
-/
import proofs.«165283_j5420248727650_1_alg».proof.Proof.RefVal0
import proofs.«165283_j5420248727650_1_alg».proof.Proof.RefVal1
import proofs.«165283_j5420248727650_1_alg».proof.Proof.RefVal2
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the three windows'. -/
abbrev ops : List (HloOp τ sig (Elt F)) := ops0 ++ (ops1 ++ ops2)

set_option maxRecDepth 8192 in
/-- The program is that straight line: its three windows in turn, each its own list. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- The fold over the whole list is the three windows' folds, one after the other. -/
theorem after_ops (V : Valuation τ sig (Elt F)) : after ops V = win2 (win1 (win0 V)) := by
  simp only [ops, after_append]
  rfl

set_option maxRecDepth 8192 in
set_option maxHeartbeats 2000000 in
/-- The result buffer at the end: the layer of the fourteen arguments' launch contents. The mean of squares and the
    kurtosis arrive as a selection and a division over the earlier windows' segment sums, counts and masks, which is
    the segment mean's own definition at the squared messages and at the fourth-power deviations. -/
theorem out_eq (V : Valuation τ sig (Elt F)) :
    win2 (win1 (win0 V)) (Proc.devRef .tc main_v125)
      = Cert.Spec.layer (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [win2_v125, win2_arg0, win2_arg1, win2_arg2, win2_arg3, win2_arg4, win2_arg5, win2_arg6, win2_arg7, win2_arg8, win2_arg9, win2_arg10, win2_arg11, win2_arg12, win2_arg13,
    win1_v55, win1_v82, win1_v87, win1_v91, win1_v34, win1_arg0, win1_arg1, win1_arg2, win1_arg3, win1_arg4, win1_arg5, win1_arg6, win1_arg7, win1_arg8, win1_arg9, win1_arg10, win1_arg11, win1_arg12, win1_arg13,
    win0_v1, win0_v20, win0_v34, win0_v38, win0_v42, win0_v44, win0_v45, win0_arg0, win0_arg1, win0_arg2, win0_arg3, win0_arg4, win0_arg5, win0_arg6, win0_arg7, win0_arg8, win0_arg9, win0_arg10, win0_arg11, win0_arg12, win0_arg13]
  rfl

theorem arg0_eq (V : Valuation τ sig (Elt F)) :
    win2 (win1 (win0 V)) (Proc.devRef .tc main_arg0) = V (Proc.devRef .tc main_arg0) := by
  simp only [win2_arg0, win1_arg0, win0_arg0]
theorem arg1_eq (V : Valuation τ sig (Elt F)) :
    win2 (win1 (win0 V)) (Proc.devRef .tc main_arg1) = V (Proc.devRef .tc main_arg1) := by
  simp only [win2_arg1, win1_arg1, win0_arg1]
theorem arg2_eq (V : Valuation τ sig (Elt F)) :
    win2 (win1 (win0 V)) (Proc.devRef .tc main_arg2) = V (Proc.devRef .tc main_arg2) := by
  simp only [win2_arg2, win1_arg2, win0_arg2]
theorem arg3_eq (V : Valuation τ sig (Elt F)) :
    win2 (win1 (win0 V)) (Proc.devRef .tc main_arg3) = V (Proc.devRef .tc main_arg3) := by
  simp only [win2_arg3, win1_arg3, win0_arg3]
theorem arg4_eq (V : Valuation τ sig (Elt F)) :
    win2 (win1 (win0 V)) (Proc.devRef .tc main_arg4) = V (Proc.devRef .tc main_arg4) := by
  simp only [win2_arg4, win1_arg4, win0_arg4]
theorem arg5_eq (V : Valuation τ sig (Elt F)) :
    win2 (win1 (win0 V)) (Proc.devRef .tc main_arg5) = V (Proc.devRef .tc main_arg5) := by
  simp only [win2_arg5, win1_arg5, win0_arg5]
theorem arg6_eq (V : Valuation τ sig (Elt F)) :
    win2 (win1 (win0 V)) (Proc.devRef .tc main_arg6) = V (Proc.devRef .tc main_arg6) := by
  simp only [win2_arg6, win1_arg6, win0_arg6]
theorem arg7_eq (V : Valuation τ sig (Elt F)) :
    win2 (win1 (win0 V)) (Proc.devRef .tc main_arg7) = V (Proc.devRef .tc main_arg7) := by
  simp only [win2_arg7, win1_arg7, win0_arg7]
theorem arg8_eq (V : Valuation τ sig (Elt F)) :
    win2 (win1 (win0 V)) (Proc.devRef .tc main_arg8) = V (Proc.devRef .tc main_arg8) := by
  simp only [win2_arg8, win1_arg8, win0_arg8]
theorem arg9_eq (V : Valuation τ sig (Elt F)) :
    win2 (win1 (win0 V)) (Proc.devRef .tc main_arg9) = V (Proc.devRef .tc main_arg9) := by
  simp only [win2_arg9, win1_arg9, win0_arg9]
theorem arg10_eq (V : Valuation τ sig (Elt F)) :
    win2 (win1 (win0 V)) (Proc.devRef .tc main_arg10) = V (Proc.devRef .tc main_arg10) := by
  simp only [win2_arg10, win1_arg10, win0_arg10]
theorem arg11_eq (V : Valuation τ sig (Elt F)) :
    win2 (win1 (win0 V)) (Proc.devRef .tc main_arg11) = V (Proc.devRef .tc main_arg11) := by
  simp only [win2_arg11, win1_arg11, win0_arg11]
theorem arg12_eq (V : Valuation τ sig (Elt F)) :
    win2 (win1 (win0 V)) (Proc.devRef .tc main_arg12) = V (Proc.devRef .tc main_arg12) := by
  simp only [win2_arg12, win1_arg12, win0_arg12]
theorem arg13_eq (V : Valuation τ sig (Elt F)) :
    win2 (win1 (win0 V)) (Proc.devRef .tc main_arg13) = V (Proc.devRef .tc main_arg13) := by
  simp only [win2_arg13, win1_arg13, win0_arg13]

set_option maxRecDepth 8192 in
set_option maxHeartbeats 4000000 in
/-- On every device, for any float values, from any memory with zero counters: every weakly fair execution of the
    plain program terminates with its result at the layer of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125)
        = Cert.Spec.layer (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v125).trans (by simp only [after_ops]; exact out_eq (launchContents m c)),
      (h c main_arg0).trans (by simp only [after_ops]; exact arg0_eq (launchContents m c)),
      (h c main_arg1).trans (by simp only [after_ops]; exact arg1_eq (launchContents m c)),
      (h c main_arg2).trans (by simp only [after_ops]; exact arg2_eq (launchContents m c)),
      (h c main_arg3).trans (by simp only [after_ops]; exact arg3_eq (launchContents m c)),
      (h c main_arg4).trans (by simp only [after_ops]; exact arg4_eq (launchContents m c)),
      (h c main_arg5).trans (by simp only [after_ops]; exact arg5_eq (launchContents m c)),
      (h c main_arg6).trans (by simp only [after_ops]; exact arg6_eq (launchContents m c)),
      (h c main_arg7).trans (by simp only [after_ops]; exact arg7_eq (launchContents m c)),
      (h c main_arg8).trans (by simp only [after_ops]; exact arg8_eq (launchContents m c)),
      (h c main_arg9).trans (by simp only [after_ops]; exact arg9_eq (launchContents m c)),
      (h c main_arg10).trans (by simp only [after_ops]; exact arg10_eq (launchContents m c)),
      (h c main_arg11).trans (by simp only [after_ops]; exact arg11_eq (launchContents m c)),
      (h c main_arg12).trans (by simp only [after_ops]; exact arg12_eq (launchContents m c)),
      (h c main_arg13).trans (by simp only [after_ops]; exact arg13_eq (launchContents m c))⟩)
    (run_seq scopedRefs_eq scopedSems_eq defs main (fun _ => ops) main_eq (fun _ => ops_sub) m ρ)

end Cert.ReferenceIdeal.RefRun

end
-- ==== Proof.lean ====
/-
  The certificate of a graph message-passing layer computed by three tiled kernels among host gathers and segment
  sums, against the same layer written in plain jnp.

  The layer: every edge carries a message, a two-layer perceptron (leaky rectifier between the layers) of its target
  node's features and its own attributes; every node takes the mean, standard deviation, skewness and kurtosis of
  the messages of the edges that leave it (segment sums over the source index, an empty segment reading zero);
  a second two-layer perceptron of the node's own features, the four moments and a global vector, followed by a
  root-mean-square normalisation of each row, gives the result. Proof/Spec.lean states the layer stage by stage.

  The kernel program computes three of the stages block by block: the edge perceptron over 250 blocks of 3200
  edges, the third and fourth powers of the deviations over the same blocks, and the node update over 50 blocks of
  1000 nodes. On the extended reals each of them is the whole-array stage (Proof/Region0.lean, Region1.lean,
  Region2.lean): the format changes on the way into the matrix unit are the identity, a matrix product into a
  zero accumulator and the host's product are the same sum, every step is local to a row, and the blocks tile the
  rows. The host operations between the kernels are the plain-jnp program's own, composed in the same order
  (Proof/KerRun.lean reads the kernel program's result array as the layer of its arguments, Proof/RefRun.lean the
  plain-jnp program's). So from memories that agree on the fourteen arguments both programs end with the same
  result array, entry by entry; no step needs the inputs finite, and the precondition is never opened.
  The idealization rewrote no operation of the kernel program, so there is nothing to preserve.
-/
import proofs.«165283_j5420248727650_1_alg».proof.Defs
import proofs.«165283_j5420248727650_1_alg».proof.Proof.Gen.Kernel
import proofs.«165283_j5420248727650_1_alg».proof.Proof.Gen.Kernel.Skeleton
import proofs.«165283_j5420248727650_1_alg».proof.Proof.Gen.Kernel.Launch
import proofs.«165283_j5420248727650_1_alg».proof.Proof.Gen.Kernel.Points
import proofs.«165283_j5420248727650_1_alg».proof.Proof.Gen.Kernel.Frame
import proofs.«165283_j5420248727650_1_alg».proof.Proof.Gen.KernelIdeal
import proofs.«165283_j5420248727650_1_alg».proof.Proof.Gen.KernelIdeal.Skeleton
import proofs.«165283_j5420248727650_1_alg».proof.Proof.Gen.KernelIdeal.Launch
import proofs.«165283_j5420248727650_1_alg».proof.Proof.Gen.KernelIdeal.Points
import proofs.«165283_j5420248727650_1_alg».proof.Proof.Gen.KernelIdeal.Frame
import proofs.«165283_j5420248727650_1_alg».proof.Proof.Gen.ReferenceIdeal
import proofs.«165283_j5420248727650_1_alg».proof.Proof.Gen.Pre_finite_inputs
import proofs.«165283_j5420248727650_1_alg».proof.Proof.KerRun
import proofs.«165283_j5420248727650_1_alg».proof.Proof.RefRun
import Idealize.ShloMosaic.Adequacy
import Idealize.ShloMosaic.Init

noncomputable section

namespace Cert.Proof

open Idealize.ShloMosaic Idealize.SL.Sem

/-- The kernel program, as printed, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the plain-jnp program: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- On the extended reals both programs end with the layer of their arguments in the result array, and the
    arguments agree. -/
theorem algebraic : Cert.algebraic_KernelIdeal_ReferenceIdeal := by
  intro m ρ m' ρ' _ hagree
  refine ⟨fun c => Cert.Spec.layer (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)),
    Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
